-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1x28x28 : Shape := ⟨4, ![8192, 1, 28, 28]⟩
abbrev S192x512 : Shape := ⟨2, ![192, 512]⟩
abbrev S1x128 : Shape := ⟨2, ![1, 128]⟩
abbrev S768x512 : Shape := ⟨2, ![768, 512]⟩
abbrev S640x120 : Shape := ⟨2, ![640, 120]⟩
abbrev S1x120 : Shape := ⟨2, ![1, 120]⟩
abbrev S120x84 : Shape := ⟨2, ![120, 84]⟩
abbrev S1x84 : Shape := ⟨2, ![1, 84]⟩
abbrev S84x128 : Shape := ⟨2, ![84, 128]⟩
abbrev S_ : Shape := ⟨0, ![]⟩

class Facts : Prop where
  bcast_S_S8192x1x28x28 : S_.BroadcastsInDim S8192x1x28x28 (![] : Fin 0 → Fin S8192x1x28x28.rank)
  reducesTo_S8192x1x28x28_S_d0_1_2_3 : S8192x1x28x28.ReducesTo [0, 1, 2, 3] S_
  h_S_ : 0 < S_.numel
  bitsLt_bf16_f32 : FTy.bits .bf16 < FTy.bits .f32
  bcast_S_S192x512 : S_.BroadcastsInDim S192x512 (![] : Fin 0 → Fin S192x512.rank)
  reducesTo_S192x512_S_d0_1 : S192x512.ReducesTo [0, 1] S_
  bcast_S_S1x128 : S_.BroadcastsInDim S1x128 (![] : Fin 0 → Fin S1x128.rank)
  reducesTo_S1x128_S_d0_1 : S1x128.ReducesTo [0, 1] S_
  bcast_S_S768x512 : S_.BroadcastsInDim S768x512 (![] : Fin 0 → Fin S768x512.rank)
  reducesTo_S768x512_S_d0_1 : S768x512.ReducesTo [0, 1] S_
  bcast_S_S640x120 : S_.BroadcastsInDim S640x120 (![] : Fin 0 → Fin S640x120.rank)
  reducesTo_S640x120_S_d0_1 : S640x120.ReducesTo [0, 1] S_
  bcast_S_S1x120 : S_.BroadcastsInDim S1x120 (![] : Fin 0 → Fin S1x120.rank)
  reducesTo_S1x120_S_d0_1 : S1x120.ReducesTo [0, 1] S_
  bcast_S_S120x84 : S_.BroadcastsInDim S120x84 (![] : Fin 0 → Fin S120x84.rank)
  reducesTo_S120x84_S_d0_1 : S120x84.ReducesTo [0, 1] S_
  bcast_S_S1x84 : S_.BroadcastsInDim S1x84 (![] : Fin 0 → Fin S1x84.rank)
  reducesTo_S1x84_S_d0_1 : S1x84.ReducesTo [0, 1] S_
  bcast_S_S84x128 : S_.BroadcastsInDim S84x128 (![] : Fin 0 → Fin S84x128.rank)
  reducesTo_S84x128_S_d0_1 : S84x128.ReducesTo [0, 1] S_

variable [Facts]

def fn_part3 {F : FTy → Type} [FloatOps F] (main_arg10 : FVec F S1x128 .f32) (main_v47 : IVec S_ 1) (main_v51 : IVec S84x128 1) (main_c_17 : IVec S_ 1) : IVec S_ 1 :=
  let main_v52 : IVec S_ 1 := (fun x v => Host.reduce IntOp.andi x v reducesTo_S84x128_S_d0_1 h_S_) main_v51 main_c_17
  let main_v53 : IVec S_ 1 := andi main_v47 main_v52
  let main_v54 : FVec F S1x128 .f32 := Host.absf main_arg10
  let main_cst_18 : FVec F S_ .f32 := constant S_ .f32 0x7F800000#32
  let main_v55 : FVec F S1x128 .f32 := broadcastInDim S1x128 ![] bcast_S_S1x128 main_cst_18
  let main_v56 : IVec S1x128 1 := cmpf .olt main_v54 main_v55
  let main_c_19 : IVec S_ 1 := constantI S_ 1 1#1
  let main_v57 : IVec S_ 1 := (fun x v => Host.reduce IntOp.andi x v reducesTo_S1x128_S_d0_1 h_S_) main_v56 main_c_19
  let main_v58 : IVec S_ 1 := andi main_v53 main_v57
  main_v58

def fn_part2 {F : FTy → Type} [FloatOps F] (main_arg7 : FVec F S120x84 .bf16) (main_arg8 : FVec F S1x84 .f32) (main_arg9 : FVec F S84x128 .bf16) (main_arg10 : FVec F S1x128 .f32) (main_v31 : IVec S_ 1) (main_v34 : IVec S1x120 1) : IVec S_ 1 :=
  let main_c_11 : IVec S_ 1 := constantI S_ 1 1#1
  let main_v35 : IVec S_ 1 := (fun x v => Host.reduce IntOp.andi x v reducesTo_S1x120_S_d0_1 h_S_) main_v34 main_c_11
  let main_v36 : IVec S_ 1 := andi main_v31 main_v35
  let main_v37 : FVec F S120x84 .f32 := (extf .f32 · bitsLt_bf16_f32) main_arg7
  let main_v38 : FVec F S120x84 .f32 := Host.absf main_v37
  let main_cst_12 : FVec F S_ .f32 := constant S_ .f32 0x7F800000#32
  let main_v39 : FVec F S120x84 .f32 := broadcastInDim S120x84 ![] bcast_S_S120x84 main_cst_12
  let main_v40 : IVec S120x84 1 := cmpf .olt main_v38 main_v39
  let main_c_13 : IVec S_ 1 := constantI S_ 1 1#1
  let main_v41 : IVec S_ 1 := (fun x v => Host.reduce IntOp.andi x v reducesTo_S120x84_S_d0_1 h_S_) main_v40 main_c_13
  let main_v42 : IVec S_ 1 := andi main_v36 main_v41
  let main_v43 : FVec F S1x84 .f32 := Host.absf main_arg8
  let main_cst_14 : FVec F S_ .f32 := constant S_ .f32 0x7F800000#32
  let main_v44 : FVec F S1x84 .f32 := broadcastInDim S1x84 ![] bcast_S_S1x84 main_cst_14
  let main_v45 : IVec S1x84 1 := cmpf .olt main_v43 main_v44
  let main_c_15 : IVec S_ 1 := constantI S_ 1 1#1
  let main_v46 : IVec S_ 1 := (fun x v => Host.reduce IntOp.andi x v reducesTo_S1x84_S_d0_1 h_S_) main_v45 main_c_15
  let main_v47 : IVec S_ 1 := andi main_v42 main_v46
  let main_v48 : FVec F S84x128 .f32 := (extf .f32 · bitsLt_bf16_f32) main_arg9
  let main_v49 : FVec F S84x128 .f32 := Host.absf main_v48
  let main_cst_16 : FVec F S_ .f32 := constant S_ .f32 0x7F800000#32
  let main_v50 : FVec F S84x128 .f32 := broadcastInDim S84x128 ![] bcast_S_S84x128 main_cst_16
  let main_v51 : IVec S84x128 1 := cmpf .olt main_v49 main_v50
  let main_c_17 : IVec S_ 1 := constantI S_ 1 1#1
  fn_part3 (F := F) main_arg10 main_v47 main_v51 main_c_17

def fn_part1 {F : FTy → Type} [FloatOps F] (main_arg4 : FVec F S1x128 .f32) (main_arg5 : FVec F S640x120 .bf16) (main_arg6 : FVec F S1x120 .f32) (main_arg7 : FVec F S120x84 .bf16) (main_arg8 : FVec F S1x84 .f32) (main_arg9 : FVec F S84x128 .bf16) (main_arg10 : FVec F S1x128 .f32) (main_v14 : IVec S_ 1) (main_v16 : FVec F S768x512 .f32) (main_cst_4 : FVec F S_ .f32) : IVec S_ 1 :=
  let main_v17 : FVec F S768x512 .f32 := broadcastInDim S768x512 ![] bcast_S_S768x512 main_cst_4
  let main_v18 : IVec S768x512 1 := cmpf .olt main_v16 main_v17
  let main_c_5 : IVec S_ 1 := constantI S_ 1 1#1
  let main_v19 : IVec S_ 1 := (fun x v => Host.reduce IntOp.andi x v reducesTo_S768x512_S_d0_1 h_S_) main_v18 main_c_5
  let main_v20 : IVec S_ 1 := andi main_v14 main_v19
  let main_v21 : FVec F S1x128 .f32 := Host.absf main_arg4
  let main_cst_6 : FVec F S_ .f32 := constant S_ .f32 0x7F800000#32
  let main_v22 : FVec F S1x128 .f32 := broadcastInDim S1x128 ![] bcast_S_S1x128 main_cst_6
  let main_v23 : IVec S1x128 1 := cmpf .olt main_v21 main_v22
  let main_c_7 : IVec S_ 1 := constantI S_ 1 1#1
  let main_v24 : IVec S_ 1 := (fun x v => Host.reduce IntOp.andi x v reducesTo_S1x128_S_d0_1 h_S_) main_v23 main_c_7
  let main_v25 : IVec S_ 1 := andi main_v20 main_v24
  let main_v26 : FVec F S640x120 .f32 := (extf .f32 · bitsLt_bf16_f32) main_arg5
  let main_v27 : FVec F S640x120 .f32 := Host.absf main_v26
  let main_cst_8 : FVec F S_ .f32 := constant S_ .f32 0x7F800000#32
  let main_v28 : FVec F S640x120 .f32 := broadcastInDim S640x120 ![] bcast_S_S640x120 main_cst_8
  let main_v29 : IVec S640x120 1 := cmpf .olt main_v27 main_v28
  let main_c_9 : IVec S_ 1 := constantI S_ 1 1#1
  let main_v30 : IVec S_ 1 := (fun x v => Host.reduce IntOp.andi x v reducesTo_S640x120_S_d0_1 h_S_) main_v29 main_c_9
  let main_v31 : IVec S_ 1 := andi main_v25 main_v30
  let main_v32 : FVec F S1x120 .f32 := Host.absf main_arg6
  let main_cst_10 : FVec F S_ .f32 := constant S_ .f32 0x7F800000#32
  let main_v33 : FVec F S1x120 .f32 := broadcastInDim S1x120 ![] bcast_S_S1x120 main_cst_10
  let main_v34 : IVec S1x120 1 := cmpf .olt main_v32 main_v33
  fn_part2 (F := F) main_arg7 main_arg8 main_arg9 main_arg10 main_v31 main_v34

def fn {F : FTy → Type} [FloatOps F] (main_arg0 : FVec F S8192x1x28x28 .f32) (main_arg1 : FVec F S192x512 .bf16) (main_arg2 : FVec F S1x128 .f32) (main_arg3 : FVec F S768x512 .bf16) (main_arg4 : FVec F S1x128 .f32) (main_arg5 : FVec F S640x120 .bf16) (main_arg6 : FVec F S1x120 .f32) (main_arg7 : FVec F S120x84 .bf16) (main_arg8 : FVec F S1x84 .f32) (main_arg9 : FVec F S84x128 .bf16) (main_arg10 : FVec F S1x128 .f32) : IVec S_ 1 :=
  let main_v0 : FVec F S8192x1x28x28 .f32 := Host.absf main_arg0
  let main_cst : FVec F S_ .f32 := constant S_ .f32 0x7F800000#32
  let main_v1 : FVec F S8192x1x28x28 .f32 := broadcastInDim S8192x1x28x28 ![] bcast_S_S8192x1x28x28 main_cst
  let main_v2 : IVec S8192x1x28x28 1 := cmpf .olt main_v0 main_v1
  let main_c : IVec S_ 1 := constantI S_ 1 1#1
  let main_v3 : IVec S_ 1 := (fun x v => Host.reduce IntOp.andi x v reducesTo_S8192x1x28x28_S_d0_1_2_3 h_S_) main_v2 main_c
  let main_v4 : FVec F S192x512 .f32 := (extf .f32 · bitsLt_bf16_f32) main_arg1
  let main_v5 : FVec F S192x512 .f32 := Host.absf main_v4
  let main_cst_0 : FVec F S_ .f32 := constant S_ .f32 0x7F800000#32
  let main_v6 : FVec F S192x512 .f32 := broadcastInDim S192x512 ![] bcast_S_S192x512 main_cst_0
  let main_v7 : IVec S192x512 1 := cmpf .olt main_v5 main_v6
  let main_c_1 : IVec S_ 1 := constantI S_ 1 1#1
  let main_v8 : IVec S_ 1 := (fun x v => Host.reduce IntOp.andi x v reducesTo_S192x512_S_d0_1 h_S_) main_v7 main_c_1
  let main_v9 : IVec S_ 1 := andi main_v3 main_v8
  let main_v10 : FVec F S1x128 .f32 := Host.absf main_arg2
  let main_cst_2 : FVec F S_ .f32 := constant S_ .f32 0x7F800000#32
  let main_v11 : FVec F S1x128 .f32 := broadcastInDim S1x128 ![] bcast_S_S1x128 main_cst_2
  let main_v12 : IVec S1x128 1 := cmpf .olt main_v10 main_v11
  let main_c_3 : IVec S_ 1 := constantI S_ 1 1#1
  let main_v13 : IVec S_ 1 := (fun x v => Host.reduce IntOp.andi x v reducesTo_S1x128_S_d0_1 h_S_) main_v12 main_c_3
  let main_v14 : IVec S_ 1 := andi main_v9 main_v13
  let main_v15 : FVec F S768x512 .f32 := (extf .f32 · bitsLt_bf16_f32) main_arg3
  let main_v16 : FVec F S768x512 .f32 := Host.absf main_v15
  let main_cst_4 : FVec F S_ .f32 := constant S_ .f32 0x7F800000#32
  fn_part1 (F := F) main_arg4 main_arg5 main_arg6 main_arg7 main_arg8 main_arg9 main_arg10 main_v14 main_v16 main_cst_4
-- ==== Kernel.lean ====
abbrev S8192x1x28x28 : Shape := ⟨4, ![8192, 1, 28, 28]⟩
abbrev S192x512 : Shape := ⟨2, ![192, 512]⟩
abbrev S1x128 : Shape := ⟨2, ![1, 128]⟩
abbrev S768x512 : Shape := ⟨2, ![768, 512]⟩
abbrev S640x120 : Shape := ⟨2, ![640, 120]⟩
abbrev S1x120 : Shape := ⟨2, ![1, 120]⟩
abbrev S120x84 : Shape := ⟨2, ![120, 84]⟩
abbrev S1x84 : Shape := ⟨2, ![1, 84]⟩
abbrev S84x128 : Shape := ⟨2, ![84, 128]⟩
abbrev S8192x28x28 : Shape := ⟨3, ![8192, 28, 28]⟩
abbrev S_ : Shape := ⟨0, ![]⟩
abbrev S8192x32x32 : Shape := ⟨3, ![8192, 32, 32]⟩
abbrev S8192x1024 : Shape := ⟨2, ![8192, 1024]⟩
abbrev S256x512 : Shape := ⟨2, ![256, 512]⟩
abbrev S256x1024 : Shape := ⟨2, ![256, 1024]⟩
abbrev S8192x128 : Shape := ⟨2, ![8192, 128]⟩
abbrev S512x1024 : Shape := ⟨2, ![512, 1024]⟩
abbrev S512x128 : Shape := ⟨2, ![512, 128]⟩
abbrev S512x1792 : Shape := ⟨2, ![512, 1792]⟩
abbrev S512x640 : Shape := ⟨2, ![512, 640]⟩
abbrev S512x256 : Shape := ⟨2, ![512, 256]⟩
abbrev S512x512 : Shape := ⟨2, ![512, 512]⟩
abbrev S512x768 : Shape := ⟨2, ![512, 768]⟩
abbrev S512x120 : Shape := ⟨2, ![512, 120]⟩
abbrev S512x84 : Shape := ⟨2, ![512, 84]⟩
abbrev S8192x10 : Shape := ⟨2, ![8192, 10]⟩

abbrev nBuf : Space → Nat
  | .hbm => 26
  | .vmem => 16
  | .smem => 0
  | _ => 0

abbrev bufTy : (tb : Table) → Fin (tcTables nBuf tb) → BufTy
  | .hbm, ⟨0, _⟩ => ⟨S8192x1x28x28, .f32⟩
  | .hbm, ⟨1, _⟩ => ⟨S192x512, .bf16⟩
  | .hbm, ⟨2, _⟩ => ⟨S1x128, .f32⟩
  | .hbm, ⟨3, _⟩ => ⟨S768x512, .bf16⟩
  | .hbm, ⟨4, _⟩ => ⟨S1x128, .f32⟩
  | .hbm, ⟨5, _⟩ => ⟨S640x120, .bf16⟩
  | .hbm, ⟨6, _⟩ => ⟨S1x120, .f32⟩
  | .hbm, ⟨7, _⟩ => ⟨S120x84, .bf16⟩
  | .hbm, ⟨8, _⟩ => ⟨S1x84, .f32⟩
  | .hbm, ⟨9, _⟩ => ⟨S84x128, .bf16⟩
  | .hbm, ⟨10, _⟩ => ⟨S1x128, .f32⟩
  | .hbm, ⟨11, _⟩ => ⟨S8192x28x28, .f32⟩
  | .hbm, ⟨12, _⟩ => ⟨S_, .i32⟩
  | .hbm, ⟨13, _⟩ => ⟨S_, .f32⟩
  | .hbm, ⟨14, _⟩ => ⟨S8192x32x32, .f32⟩
  | .hbm, ⟨15, _⟩ => ⟨S8192x1024, .f32⟩
  | .hbm, ⟨16, _⟩ => ⟨S8192x1024, .bf16⟩
  | .hbm, ⟨17, _⟩ => ⟨S_, .i32⟩
  | .hbm, ⟨18, _⟩ => ⟨S_, .bf16⟩
  | .hbm, ⟨19, _⟩ => ⟨S256x512, .bf16⟩
  | .hbm, ⟨20, _⟩ => ⟨S_, .i32⟩
  | .hbm, ⟨21, _⟩ => ⟨S_, .bf16⟩
  | .hbm, ⟨22, _⟩ => ⟨S256x512, .bf16⟩
  | .hbm, ⟨23, _⟩ => ⟨S256x1024, .bf16⟩
  | .hbm, ⟨24, _⟩ => ⟨S8192x128, .f32⟩
  | .hbm, ⟨25, _⟩ => ⟨S8192x10, .f32⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S1x128, .f32⟩
  | .local _ .vmem, ⟨4, _⟩ => ⟨S768x512, .bf16⟩
  | .local _ .vmem, ⟨5, _⟩ => ⟨S1x128, .f32⟩
  | .local _ .vmem, ⟨6, _⟩ => ⟨S640x120, .bf16⟩
  | .local _ .vmem, ⟨7, _⟩ => ⟨S1x120, .f32⟩
  | .local _ .vmem, ⟨8, _⟩ => ⟨S120x84, .bf16⟩
  | .local _ .vmem, ⟨9, _⟩ => ⟨S1x84, .f32⟩
  | .local _ .vmem, ⟨10, _⟩ => ⟨S84x128, .bf16⟩
  | .local _ .vmem, ⟨11, _⟩ => ⟨S1x128, .f32⟩
  | .local _ .vmem, ⟨12, _⟩ => ⟨S512x128, .f32⟩
  | .local _ .vmem, ⟨13, _⟩ => ⟨S512x128, .f32⟩
  | .local _ .vmem, ⟨14, _⟩ => ⟨S512x1792, .bf16⟩
  | .local _ .vmem, ⟨15, _⟩ => ⟨S512x640, .bf16⟩
  | _, _ => ⟨S8192x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_call1_v0 : Ref sig .tc := ⟨.hbm, 18, rfl⟩
abbrev main_v4 : Ref sig .tc := ⟨.hbm, 19, rfl⟩
abbrev main_c_1 : Ref sig .tc := ⟨.hbm, 20, rfl⟩
abbrev main_call2_v0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S640x120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S120x84 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x84 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S84x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S8192x1x28x28_S8192x28x28 : S8192x1x28x28.ShapeCasts S8192x28x28
  pads_S8192x28x28_S8192x32x32_000_220_220 : S8192x28x28.Pads (![0, 2, 2] : Fin 3 → Nat) ![0, 2, 2] ![0, 0, 0] S8192x32x32
  h_S_ : 0 < S_.numel
  shapeCasts_S8192x32x32_S8192x1024 : S8192x32x32.ShapeCasts S8192x1024
  bitsLt_bf16_f32 : FTy.bits .bf16 < FTy.bits .f32
  pads_S192x512_S256x512_0640_000 : S192x512.Pads (![0, 0] : Fin 2 → Nat) ![64, 0] ![0, 0] S256x512
  pads_S192x512_S256x512_6400_000 : S192x512.Pads (![64, 0] : Fin 2 → Nat) ![0, 0] ![0, 0] S256x512
  concatenates_S256x512_S256x512_S256x1024_d1 : Shape.Concatenates [S256x512, S256x512] S256x1024 1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x128_S1x128_0_0 : ∀ a, (![0, 0] : Fin 2 → Nat) a + S1x128.size a ≤ S1x128.size a
  h_S1x128 : 0 < S1x128.numel
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  slices_S512x1024_o0_0_S512x256 : S512x1024.Slices ![0, 0] S512x256
  slices_S512x1024_o0_0_S512x512 : S512x1024.Slices ![0, 0] S512x512
  slices_S512x512_o0_0_S512x128 : S512x512.Slices ![0, 0] S512x128
  slices_S512x512_o0_128_S512x128 : S512x512.Slices ![0, 128] S512x128
  slices_S512x512_o0_256_S512x128 : S512x512.Slices ![0, 256] S512x128
  slices_S512x512_o0_384_S512x128 : S512x512.Slices ![0, 384] S512x128
  broadcasts_S1x128_S512x128 : S1x128.Broadcasts S512x128
  inb_S512x1792_S512x128_0_0 : ∀ a, (![0, 0] : Fin 2 → Nat) a + S512x128.size a ≤ S512x1792.size a
  h_S512x128 : 0 < S512x128.numel
  shapeCasts_S512x128_S512x128 : S512x128.ShapeCasts S512x128
  packedbf16_S512x1792_S512x128_0_0 : (Rect.unit (s := S512x1792) ![0, 0] S512x128.size inb_S512x1792_S512x128_0_0).PackedRows (EltTy.packing .bf16)
  slices_S512x1024_o0_512_S512x512 : S512x1024.Slices ![0, 512] S512x512
  inb_S512x1792_S512x128_0_128 : ∀ a, (![0, 128] : Fin 2 → Nat) a + S512x128.size a ≤ S512x1792.size a
  packedbf16_S512x1792_S512x128_0_128 : (Rect.unit (s := S512x1792) ![0, 128] S512x128.size inb_S512x1792_S512x128_0_128).PackedRows (EltTy.packing .bf16)
  slices_S512x1024_o0_128_S512x256 : S512x1024.Slices ![0, 128] S512x256
  inb_S512x1792_S512x128_0_256 : ∀ a, (![0, 256] : Fin 2 → Nat) a + S512x128.size a ≤ S512x1792.size a
  packedbf16_S512x1792_S512x128_0_256 : (Rect.unit (s := S512x1792) ![0, 256] S512x128.size inb_S512x1792_S512x128_0_256).PackedRows (EltTy.packing .bf16)
  inb_S512x1792_S512x128_0_384 : ∀ a, (![0, 384] : Fin 2 → Nat) a + S512x128.size a ≤ S512x1792.size a
  packedbf16_S512x1792_S512x128_0_384 : (Rect.unit (s := S512x1792) ![0, 384] S512x128.size inb_S512x1792_S512x128_0_384).PackedRows (EltTy.packing .bf16)
  slices_S512x1024_o0_256_S512x256 : S512x1024.Slices ![0, 256] S512x256
  inb_S512x1792_S512x128_0_512 : ∀ a, (![0, 512] : Fin 2 → Nat) a + S512x128.size a ≤ S512x1792.size a
  packedbf16_S512x1792_S512x128_0_512 : (Rect.unit (s := S512x1792) ![0, 512] S512x128.size inb_S512x1792_S512x128_0_512).PackedRows (EltTy.packing .bf16)
  inb_S512x1792_S512x128_0_640 : ∀ a, (![0, 640] : Fin 2 → Nat) a + S512x128.size a ≤ S512x1792.size a
  packedbf16_S512x1792_S512x128_0_640 : (Rect.unit (s := S512x1792) ![0, 640] S512x128.size inb_S512x1792_S512x128_0_640).PackedRows (EltTy.packing .bf16)
  slices_S512x1024_o0_384_S512x256 : S512x1024.Slices ![0, 384] S512x256
  inb_S512x1792_S512x128_0_768 : ∀ a, (![0, 768] : Fin 2 → Nat) a + S512x128.size a ≤ S512x1792.size a
  packedbf16_S512x1792_S512x128_0_768 : (Rect.unit (s := S512x1792) ![0, 768] S512x128.size inb_S512x1792_S512x128_0_768).PackedRows (EltTy.packing .bf16)
  inb_S512x1792_S512x128_0_896 : ∀ a, (![0, 896] : Fin 2 → Nat) a + S512x128.size a ≤ S512x1792.size a
  packedbf16_S512x1792_S512x128_0_896 : (Rect.unit (s := S512x1792) ![0, 896] S512x128.size inb_S512x1792_S512x128_0_896).PackedRows (EltTy.packing .bf16)
  slices_S512x1024_o0_512_S512x256 : S512x1024.Slices ![0, 512] S512x256
  inb_S512x1792_S512x128_0_1024 : ∀ a, (![0, 1024] : Fin 2 → Nat) a + S512x128.size a ≤ S512x1792.size a
  packedbf16_S512x1792_S512x128_0_1024 : (Rect.unit (s := S512x1792) ![0, 1024] S512x128.size inb_S512x1792_S512x128_0_1024).PackedRows (EltTy.packing .bf16)
  inb_S512x1792_S512x128_0_1152 : ∀ a, (![0, 1152] : Fin 2 → Nat) a + S512x128.size a ≤ S512x1792.size a
  packedbf16_S512x1792_S512x128_0_1152 : (Rect.unit (s := S512x1792) ![0, 1152] S512x128.size inb_S512x1792_S512x128_0_1152).PackedRows (EltTy.packing .bf16)
  slices_S512x1024_o0_640_S512x256 : S512x1024.Slices ![0, 640] S512x256
  inb_S512x1792_S512x128_0_1280 : ∀ a, (![0, 1280] : Fin 2 → Nat) a + S512x128.size a ≤ S512x1792.size a
  packedbf16_S512x1792_S512x128_0_1280 : (Rect.unit (s := S512x1792) ![0, 1280] S512x128.size inb_S512x1792_S512x128_0_1280).PackedRows (EltTy.packing .bf16)
  inb_S512x1792_S512x128_0_1408 : ∀ a, (![0, 1408] : Fin 2 → Nat) a + S512x128.size a ≤ S512x1792.size a
  packedbf16_S512x1792_S512x128_0_1408 : (Rect.unit (s := S512x1792) ![0, 1408] S512x128.size inb_S512x1792_S512x128_0_1408).PackedRows (EltTy.packing .bf16)
  slices_S512x1024_o0_768_S512x256 : S512x1024.Slices ![0, 768] S512x256
  inb_S512x1792_S512x128_0_1536 : ∀ a, (![0, 1536] : Fin 2 → Nat) a + S512x128.size a ≤ S512x1792.size a
  packedbf16_S512x1792_S512x128_0_1536 : (Rect.unit (s := S512x1792) ![0, 1536] S512x128.size inb_S512x1792_S512x128_0_1536).PackedRows (EltTy.packing .bf16)
  inb_S512x1792_S512x128_0_1664 : ∀ a, (![0, 1664] : Fin 2 → Nat) a + S512x128.size a ≤ S512x1792.size a
  packedbf16_S512x1792_S512x128_0_1664 : (Rect.unit (s := S512x1792) ![0, 1664] S512x128.size inb_S512x1792_S512x128_0_1664).PackedRows (EltTy.packing .bf16)
  inb_S768x512_S768x512_0_0 : ∀ a, (![0, 0] : Fin 2 → Nat) a + S768x512.size a ≤ S768x512.size a
  h_S768x512 : 0 < S768x512.numel
  inb_S512x1792_S512x768_0_0 : ∀ a, (![0, 0] : Fin 2 → Nat) a + S512x768.size a ≤ S512x1792.size a
  h_S512x768 : 0 < S512x768.numel
  inb_S512x640_S512x128_0_0 : ∀ a, (![0, 0] : Fin 2 → Nat) a + S512x128.size a ≤ S512x640.size a
  packedbf16_S512x640_S512x128_0_0 : (Rect.unit (s := S512x640) ![0, 0] S512x128.size inb_S512x640_S512x128_0_0).PackedRows (EltTy.packing .bf16)
  inb_S512x1792_S512x768_0_256 : ∀ a, (![0, 256] : Fin 2 → Nat) a + S512x768.size a ≤ S512x1792.size a
  inb_S512x640_S512x128_0_128 : ∀ a, (![0, 128] : Fin 2 → Nat) a + S512x128.size a ≤ S512x640.size a
  packedbf16_S512x640_S512x128_0_128 : (Rect.unit (s := S512x640) ![0, 128] S512x128.size inb_S512x640_S512x128_0_128).PackedRows (EltTy.packing .bf16)
  inb_S512x1792_S512x768_0_512 : ∀ a, (![0, 512] : Fin 2 → Nat) a + S512x768.size a ≤ S512x1792.size a
  inb_S512x640_S512x128_0_256 : ∀ a, (![0, 256] : Fin 2 → Nat) a + S512x128.size a ≤ S512x640.size a
  packedbf16_S512x640_S512x128_0_256 : (Rect.unit (s := S512x640) ![0, 256] S512x128.size inb_S512x640_S512x128_0_256).PackedRows (EltTy.packing .bf16)
  inb_S512x1792_S512x768_0_768 : ∀ a, (![0, 768] : Fin 2 → Nat) a + S512x768.size a ≤ S512x1792.size a
  inb_S512x640_S512x128_0_384 : ∀ a, (![0, 384] : Fin 2 → Nat) a + S512x128.size a ≤ S512x640.size a
  packedbf16_S512x640_S512x128_0_384 : (Rect.unit (s := S512x640) ![0, 384] S512x128.size inb_S512x640_S512x128_0_384).PackedRows (EltTy.packing .bf16)
  inb_S512x1792_S512x768_0_1024 : ∀ a, (![0, 1024] : Fin 2 → Nat) a + S512x768.size a ≤ S512x1792.size a
  inb_S512x640_S512x128_0_512 : ∀ a, (![0, 512] : Fin 2 → Nat) a + S512x128.size a ≤ S512x640.size a
  packedbf16_S512x640_S512x128_0_512 : (Rect.unit (s := S512x640) ![0, 512] S512x128.size inb_S512x640_S512x128_0_512).PackedRows (EltTy.packing .bf16)
  inb_S512x640_S512x640_0_0 : ∀ a, (![0, 0] : Fin 2 → Nat) a + S512x640.size a ≤ S512x640.size a
  h_S512x640 : 0 < S512x640.numel
  inb_S640x120_S640x120_0_0 : ∀ a, (![0, 0] : Fin 2 → Nat) a + S640x120.size a ≤ S640x120.size a
  h_S640x120 : 0 < S640x120.numel
  inb_S1x120_S1x120_0_0 : ∀ a, (![0, 0] : Fin 2 → Nat) a + S1x120.size a ≤ S1x120.size a
  h_S1x120 : 0 < S1x120.numel
  broadcasts_S1x120_S512x120 : S1x120.Broadcasts S512x120
  inb_S120x84_S120x84_0_0 : ∀ a, (![0, 0] : Fin 2 → Nat) a + S120x84.size a ≤ S120x84.size a
  h_S120x84 : 0 < S120x84.numel
  inb_S1x84_S1x84_0_0 : ∀ a, (![0, 0] : Fin 2 → Nat) a + S1x84.size a ≤ S1x84.size a
  h_S1x84 : 0 < S1x84.numel
  broadcasts_S1x84_S512x84 : S1x84.Broadcasts S512x84
  inb_S84x128_S84x128_0_0 : ∀ a, (![0, 0] : Fin 2 → Nat) a + S84x128.size a ≤ S84x128.size a
  h_S84x128 : 0 < S84x128.numel
  inb_S512x128_S512x128_0_0 : ∀ a, (![0, 0] : Fin 2 → Nat) a + S512x128.size a ≤ S512x128.size a
  slices_S8192x128_S8192x10_0_0 : S8192x128.Slices ![0, 0] S8192x10
  dot_S512x256_S256x1024_S512x1024_1_0_0_1_n_n_wf : DotDims.WF S512x256 S256x1024 S512x1024 [1] [0] [0] [1] [] []
  dot_S512x768_S768x512_S512x512_1_0_0_1_n_n_wf : DotDims.WF S512x768 S768x512 S512x512 [1] [0] [0] [1] [] []
  dot_S512x640_S640x120_S512x120_1_0_0_1_n_n_wf : DotDims.WF S512x640 S640x120 S512x120 [1] [0] [0] [1] [] []
  dot_S512x120_S120x84_S512x84_1_0_0_1_n_n_wf : DotDims.WF S512x120 S120x84 S512x84 [1] [0] [0] [1] [] []
  dot_S512x84_S84x128_S512x128_1_0_0_1_n_n_wf : DotDims.WF S512x84 S84x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .bf16 = 32 ∨ (Rect.block (s := S8192x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .bf16 = 32 ∨ (Rect.block (s := S256x1024) S256x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x512.size a ≤ S768x512.size a
  hwx0_3 : ∀ i : grid0.Coords, EltTy.bits .bf16 = 32 ∨ (Rect.block (s := S768x512) S768x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S640x120.size a ≤ S640x120.size a
  hwx0_5 : ∀ i : grid0.Coords, EltTy.bits .bf16 = 32 ∨ (Rect.block (s := S640x120) S640x120.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x120.size a ≤ S1x120.size a
  hwx0_6 : ∀ i : grid0.Coords, EltTy.bits .f32 = 32 ∨ (Rect.block (s := S1x120) S1x120.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S120x84.size a ≤ S120x84.size a
  hwx0_7 : ∀ i : grid0.Coords, EltTy.bits .bf16 = 32 ∨ (Rect.block (s := S120x84) S120x84.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x84.size a ≤ S1x84.size a
  hwx0_8 : ∀ i : grid0.Coords, EltTy.bits .f32 = 32 ∨ (Rect.block (s := S1x84) S1x84.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S84x128.size a ≤ S84x128.size a
  hwx0_9 : ∀ i : grid0.Coords, EltTy.bits .bf16 = 32 ∨ (Rect.block (s := S84x128) S84x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x128.size a ≤ S8192x128.size a
  hwx0_11 : ∀ i : grid0.Coords, EltTy.bits .f32 = 32 ∨ (Rect.block (s := S8192x128) S512x128.size (cc0_transform_11 i) (hinb0_11 i)).WholeWords (EltTy.packing .f32)

variable [Facts₀]

def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf
def dot_S512x768_S768x512_S512x512_1_0_0_1_n_n : DotDims S512x768 S768x512 S512x512 where
  lhsContracting := [1]
  rhsContracting := [0]
  lhsNonContracting := [0]
  rhsNonContracting := [1]
  lhsBatch := []
  rhsBatch := []
  wf := dot_S512x768_S768x512_S512x512_1_0_0_1_n_n_wf
def dot_S512x640_S640x120_S512x120_1_0_0_1_n_n : DotDims S512x640 S640x120 S512x120 where
  lhsContracting := [1]
  rhsContracting := [0]
  lhsNonContracting := [0]
  rhsNonContracting := [1]
  lhsBatch := []
  rhsBatch := []
  wf := dot_S512x640_S640x120_S512x120_1_0_0_1_n_n_wf
def dot_S512x120_S120x84_S512x84_1_0_0_1_n_n : DotDims S512x120 S120x84 S512x84 where
  lhsContracting := [1]
  rhsContracting := [0]
  lhsNonContracting := [0]
  rhsNonContracting := [1]
  lhsBatch := []
  rhsBatch := []
  wf := dot_S512x120_S120x84_S512x84_1_0_0_1_n_n_wf
def dot_S512x84_S84x128_S512x128_1_0_0_1_n_n : DotDims S512x84 S84x128 S512x128 where
  lhsContracting := [1]
  rhsContracting := [0]
  lhsNonContracting := [0]
  rhsNonContracting := [1]
  lhsBatch := []
  rhsBatch := []
  wf := dot_S512x84_S84x128_S512x128_1_0_0_1_n_n_wf

abbrev win0_0 : Pipeline.Window sig grid0 :=
  Pipeline.Window.ofSpec (Memref.whole main_v3) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S768x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S640x120.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x120.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S120x84.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x84.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S84x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v7) S512x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S8192x1x28x28 : Shape := ⟨4, ![8192, 1, 28, 28]⟩
abbrev S192x512 : Shape := ⟨2, ![192, 512]⟩
abbrev S1x128 : Shape := ⟨2, ![1, 128]⟩
abbrev S768x512 : Shape := ⟨2, ![768, 512]⟩
abbrev S640x120 : Shape := ⟨2, ![640, 120]⟩
abbrev S1x120 : Shape := ⟨2, ![1, 120]⟩
abbrev S120x84 : Shape := ⟨2, ![120, 84]⟩
abbrev S1x84 : Shape := ⟨2, ![1, 84]⟩
abbrev S84x128 : Shape := ⟨2, ![84, 128]⟩
abbrev S8192x28x28 : Shape := ⟨3, ![8192, 28, 28]⟩
abbrev S_ : Shape := ⟨0, ![]⟩
abbrev S8192x32x32 : Shape := ⟨3, ![8192, 32, 32]⟩
abbrev S8192x1024 : Shape := ⟨2, ![8192, 1024]⟩
abbrev S8192x128 : Shape := ⟨2, ![8192, 128]⟩
abbrev S128x1024 : Shape := ⟨2, ![128, 1024]⟩
abbrev S128x128 : Shape := ⟨2, ![128, 128]⟩
abbrev S128x192 : Shape := ⟨2, ![128, 192]⟩
abbrev S128x512 : Shape := ⟨2, ![128, 512]⟩
abbrev S128x768 : Shape := ⟨2, ![128, 768]⟩
abbrev S128x640 : Shape := ⟨2, ![128, 640]⟩
abbrev S128x120 : Shape := ⟨2, ![128, 120]⟩
abbrev S128x84 : Shape := ⟨2, ![128, 84]⟩
abbrev S8192x10 : Shape := ⟨2, ![8192, 10]⟩

abbrev nBuf : Space → Nat
  | .hbm => 19
  | .vmem => 14
  | .smem => 0
  | _ => 0

abbrev bufTy : (tb : Table) → Fin (tcTables nBuf tb) → BufTy
  | .hbm, ⟨0, _⟩ => ⟨S8192x1x28x28, .f32⟩
  | .hbm, ⟨1, _⟩ => ⟨S192x512, .bf16⟩
  | .hbm, ⟨2, _⟩ => ⟨S1x128, .f32⟩
  | .hbm, ⟨3, _⟩ => ⟨S768x512, .bf16⟩
  | .hbm, ⟨4, _⟩ => ⟨S1x128, .f32⟩
  | .hbm, ⟨5, _⟩ => ⟨S640x120, .bf16⟩
  | .hbm, ⟨6, _⟩ => ⟨S1x120, .f32⟩
  | .hbm, ⟨7, _⟩ => ⟨S120x84, .bf16⟩
  | .hbm, ⟨8, _⟩ => ⟨S1x84, .f32⟩
  | .hbm, ⟨9, _⟩ => ⟨S84x128, .bf16⟩
  | .hbm, ⟨10, _⟩ => ⟨S1x128, .f32⟩
  | .hbm, ⟨11, _⟩ => ⟨S8192x28x28, .f32⟩
  | .hbm, ⟨12, _⟩ => ⟨S_, .i32⟩
  | .hbm, ⟨13, _⟩ => ⟨S_, .f32⟩
  | .hbm, ⟨14, _⟩ => ⟨S8192x32x32, .f32⟩
  | .hbm, ⟨15, _⟩ => ⟨S8192x1024, .f32⟩
  | .hbm, ⟨16, _⟩ => ⟨S8192x1024, .bf16⟩
  | .hbm, ⟨17, _⟩ => ⟨S8192x128, .f32⟩
  | .hbm, ⟨18, _⟩ => ⟨S8192x10, .f32⟩
  | .local _ .vmem, ⟨0, _⟩ => ⟨S128x1024, .bf16⟩
  | .local _ .vmem, ⟨1, _⟩ => ⟨S128x1024, .bf16⟩
  | .local _ .vmem, ⟨2, _⟩ => ⟨S192x512, .bf16⟩
  | .local _ .vmem, ⟨3, _⟩ => ⟨S1x128, .f32⟩
  | .local _ .vmem, ⟨4, _⟩ => ⟨S768x512, .bf16⟩
  | .local _ .vmem, ⟨5, _⟩ => ⟨S1x128, .f32⟩
  | .local _ .vmem, ⟨6, _⟩ => ⟨S640x120, .bf16⟩
  | .local _ .vmem, ⟨7, _⟩ => ⟨S1x120, .f32⟩
  | .local _ .vmem, ⟨8, _⟩ => ⟨S120x84, .bf16⟩
  | .local _ .vmem, ⟨9, _⟩ => ⟨S1x84, .f32⟩
  | .local _ .vmem, ⟨10, _⟩ => ⟨S84x128, .bf16⟩
  | .local _ .vmem, ⟨11, _⟩ => ⟨S1x128, .f32⟩
  | .local _ .vmem, ⟨12, _⟩ => ⟨S128x128, .f32⟩
  | .local _ .vmem, ⟨13, _⟩ => ⟨S128x128, .f32⟩
  | _, _ => ⟨S8192x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S640x120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S120x84 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x84 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S84x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S8192x1x28x28_S8192x28x28 : S8192x1x28x28.ShapeCasts S8192x28x28
  pads_S8192x28x28_S8192x32x32_000_220_220 : S8192x28x28.Pads (![0, 2, 2] : Fin 3 → Nat) ![0, 2, 2] ![0, 0, 0] S8192x32x32
  h_S_ : 0 < S_.numel
  shapeCasts_S8192x32x32_S8192x1024 : S8192x32x32.ShapeCasts S8192x1024
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S192x512_S192x512_0_0 : ∀ a, (![0, 0] : Fin 2 → Nat) a + S192x512.size a ≤ S192x512.size a
  h_S192x512 : 0 < S192x512.numel
  inb_S768x512_S768x512_0_0 : ∀ a, (![0, 0] : Fin 2 → Nat) a + S768x512.size a ≤ S768x512.size a
  h_S768x512 : 0 < S768x512.numel
  inb_S1x128_S1x128_0_0 : ∀ a, (![0, 0] : Fin 2 → Nat) a + S1x128.size a ≤ S1x128.size a
  h_S1x128 : 0 < S1x128.numel
  slices_S128x1024_o0_0_S128x192 : S128x1024.Slices ![0, 0] S128x192
  slices_S128x512_o0_0_S128x128 : S128x512.Slices ![0, 0] S128x128
  slices_S128x512_o0_128_S128x128 : S128x512.Slices ![0, 128] S128x128
  slices_S128x512_o0_256_S128x128 : S128x512.Slices ![0, 256] S128x128
  slices_S128x512_o0_384_S128x128 : S128x512.Slices ![0, 384] S128x128
  broadcasts_S1x128_S128x128 : S1x128.Broadcasts S128x128
  slices_S128x1024_o0_64_S128x192 : S128x1024.Slices ![0, 64] S128x192
  slices_S128x1024_o0_128_S128x192 : S128x1024.Slices ![0, 128] S128x192
  slices_S128x1024_o0_192_S128x192 : S128x1024.Slices ![0, 192] S128x192
  slices_S128x1024_o0_256_S128x192 : S128x1024.Slices ![0, 256] S128x192
  slices_S128x1024_o0_320_S128x192 : S128x1024.Slices ![0, 320] S128x192
  slices_S128x1024_o0_384_S128x192 : S128x1024.Slices ![0, 384] S128x192
  slices_S128x1024_o0_448_S128x192 : S128x1024.Slices ![0, 448] S128x192
  slices_S128x1024_o0_512_S128x192 : S128x1024.Slices ![0, 512] S128x192
  slices_S128x1024_o0_576_S128x192 : S128x1024.Slices ![0, 576] S128x192
  slices_S128x1024_o0_640_S128x192 : S128x1024.Slices ![0, 640] S128x192
  slices_S128x1024_o0_704_S128x192 : S128x1024.Slices ![0, 704] S128x192
  slices_S128x1024_o0_768_S128x192 : S128x1024.Slices ![0, 768] S128x192
  slices_S128x1024_o0_832_S128x192 : S128x1024.Slices ![0, 832] S128x192
  concatenates_S128x128_S128x128_S128x128_S128x128_S128x128_S128x128_S128x768_d1 : Shape.Concatenates [S128x128, S128x128, S128x128, S128x128, S128x128, S128x128] S128x768 1
  concatenates_S128x128_S128x128_S128x128_S128x128_S128x128_S128x640_d1 : Shape.Concatenates [S128x128, S128x128, S128x128, S128x128, S128x128] S128x640 1
  inb_S640x120_S640x120_0_0 : ∀ a, (![0, 0] : Fin 2 → Nat) a + S640x120.size a ≤ S640x120.size a
  h_S640x120 : 0 < S640x120.numel
  inb_S1x120_S1x120_0_0 : ∀ a, (![0, 0] : Fin 2 → Nat) a + S1x120.size a ≤ S1x120.size a
  h_S1x120 : 0 < S1x120.numel
  broadcasts_S1x120_S128x120 : S1x120.Broadcasts S128x120
  inb_S120x84_S120x84_0_0 : ∀ a, (![0, 0] : Fin 2 → Nat) a + S120x84.size a ≤ S120x84.size a
  h_S120x84 : 0 < S120x84.numel
  inb_S1x84_S1x84_0_0 : ∀ a, (![0, 0] : Fin 2 → Nat) a + S1x84.size a ≤ S1x84.size a
  h_S1x84 : 0 < S1x84.numel
  broadcasts_S1x84_S128x84 : S1x84.Broadcasts S128x84
  inb_S84x128_S84x128_0_0 : ∀ a, (![0, 0] : Fin 2 → Nat) a + S84x128.size a ≤ S84x128.size a
  h_S84x128 : 0 < S84x128.numel
  inb_S128x128_S128x128_0_0 : ∀ a, (![0, 0] : Fin 2 → Nat) a + S128x128.size a ≤ S128x128.size a
  h_S128x128 : 0 < S128x128.numel
  slices_S8192x128_S8192x10_0_0 : S8192x128.Slices ![0, 0] S8192x10
  dot_S128x192_S192x512_S128x512_1_0_0_1_n_n_wf : DotDims.WF S128x192 S192x512 S128x512 [1] [0] [0] [1] [] []
  dot_S128x768_S768x512_S128x512_1_0_0_1_n_n_wf : DotDims.WF S128x768 S768x512 S128x512 [1] [0] [0] [1] [] []
  dot_S128x640_S640x120_S128x120_1_0_0_1_n_n_wf : DotDims.WF S128x640 S640x120 S128x120 [1] [0] [0] [1] [] []
  dot_S128x120_S120x84_S128x84_1_0_0_1_n_n_wf : DotDims.WF S128x120 S120x84 S128x84 [1] [0] [0] [1] [] []
  dot_S128x84_S84x128_S128x128_1_0_0_1_n_n_wf : DotDims.WF S128x84 S84x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S8192x1024.size a
  hwx0_0 : ∀ i : grid0.Coords, EltTy.bits .bf16 = 32 ∨ (Rect.block (s := S8192x1024) S128x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S192x512.size a ≤ S192x512.size a
  hwx0_1 : ∀ i : grid0.Coords, EltTy.bits .bf16 = 32 ∨ (Rect.block (s := S192x512) S192x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x512.size a ≤ S768x512.size a
  hwx0_3 : ∀ i : grid0.Coords, EltTy.bits .bf16 = 32 ∨ (Rect.block (s := S768x512) S768x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S640x120.size a ≤ S640x120.size a
  hwx0_5 : ∀ i : grid0.Coords, EltTy.bits .bf16 = 32 ∨ (Rect.block (s := S640x120) S640x120.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x120.size a ≤ S1x120.size a
  hwx0_6 : ∀ i : grid0.Coords, EltTy.bits .f32 = 32 ∨ (Rect.block (s := S1x120) S1x120.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S120x84.size a ≤ S120x84.size a
  hwx0_7 : ∀ i : grid0.Coords, EltTy.bits .bf16 = 32 ∨ (Rect.block (s := S120x84) S120x84.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x84.size a ≤ S1x84.size a
  hwx0_8 : ∀ i : grid0.Coords, EltTy.bits .f32 = 32 ∨ (Rect.block (s := S1x84) S1x84.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S84x128.size a ≤ S84x128.size a
  hwx0_9 : ∀ i : grid0.Coords, EltTy.bits .bf16 = 32 ∨ (Rect.block (s := S84x128) S84x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S8192x128.size a
  hwx0_11 : ∀ i : grid0.Coords, EltTy.bits .f32 = 32 ∨ (Rect.block (s := S8192x128) S128x128.size (cc0_transform_11 i) (hinb0_11 i)).WholeWords (EltTy.packing .f32)

variable [Facts₀]

def dot_S128x192_S192x512_S128x512_1_0_0_1_n_n : DotDims S128x192 S192x512 S128x512 where
  lhsContracting := [1]
  rhsContracting := [0]
  lhsNonContracting := [0]
  rhsNonContracting := [1]
  lhsBatch := []
  rhsBatch := []
  wf := dot_S128x192_S192x512_S128x512_1_0_0_1_n_n_wf
def dot_S128x768_S768x512_S128x512_1_0_0_1_n_n : DotDims S128x768 S768x512 S128x512 where
  lhsContracting := [1]
  rhsContracting := [0]
  lhsNonContracting := [0]
  rhsNonContracting := [1]
  lhsBatch := []
  rhsBatch := []
  wf := dot_S128x768_S768x512_S128x512_1_0_0_1_n_n_wf
def dot_S128x640_S640x120_S128x120_1_0_0_1_n_n : DotDims S128x640 S640x120 S128x120 where
  lhsContracting := [1]
  rhsContracting := [0]
  lhsNonContracting := [0]
  rhsNonContracting := [1]
  lhsBatch := []
  rhsBatch := []
  wf := dot_S128x640_S640x120_S128x120_1_0_0_1_n_n_wf
def dot_S128x120_S120x84_S128x84_1_0_0_1_n_n : DotDims S128x120 S120x84 S128x84 where
  lhsContracting := [1]
  rhsContracting := [0]
  lhsNonContracting := [0]
  rhsNonContracting := [1]
  lhsBatch := []
  rhsBatch := []
  wf := dot_S128x120_S120x84_S128x84_1_0_0_1_n_n_wf
def dot_S128x84_S84x128_S128x128_1_0_0_1_n_n : DotDims S128x84 S84x128 S128x128 where
  lhsContracting := [1]
  rhsContracting := [0]
  lhsNonContracting := [0]
  rhsNonContracting := [1]
  lhsBatch := []
  rhsBatch := []
  wf := dot_S128x84_S84x128_S128x128_1_0_0_1_n_n_wf

abbrev win0_0 : Pipeline.Window sig grid0 :=
  Pipeline.Window.ofSpec (Memref.whole main_v3) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S192x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S768x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S640x120.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x120.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S120x84.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x84.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S84x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4) S128x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== Proof.Spec.lean ====
/-
  The network both programs compute, written for ONE image row, over the extended reals.

  An image row is 1024 numbers (a 32 x 32 zero-padded picture, row-major). Each of the 14 pooled output rows of the
  first convolution is one product of a 192-long window of the picture (six picture rows, starting 64 * yo) with a
  banded 192 x 512 matrix: four groups of 128 lanes, one per pooling candidate; the pooled row is the lane-wise maximum
  of the four groups, plus the bias, cut below at zero. The 14 pooled rows laid end to end (1792 numbers) feed the
  second convolution the same way: five products of a 768-long window (starting 256 * yo2) with a 768 x 512 banded
  matrix, pooled, biased and cut at zero. The five pooled rows laid end to end (640 numbers) go through three dense
  layers: 640 -> 120 and 120 -> 84 with bias and a cut at zero, then 84 -> 128 with bias.

  The first convolution's 14 products enter as a parameter `A` (which window, which matrix): the two programs
  compute them differently, and `conv1_pair` below is the law that joins them.
-/
import Idealize.ShloMosaic.PureOps.Ideal.Laws
import Idealize.ShloMosaic.Lib.ValueIdx

noncomputable section

open scoped BigOperators

namespace Cert.LeNet

open Idealize.ShloMosaic Idealize.ShloMosaic.ValueIdx

/-- A matrix of extended reals with `a` rows and `b` columns, as the programs index it. -/
abbrev Mat (a b : Nat) : Type := (⟨2, ![a, b]⟩ : Shape).Idx → EReal

/-- The number the word `+0.0` denotes (never evaluated: the same word stands on both sides). -/
abbrev zr : EReal := Ideal.ofBits .f32 0x00000000#32

/-- One pooled lane: the maximum of the four pooling candidates `l`, `128 + l`, `256 + l`, `384 + l` of a 512-lane
    product, plus the lane's bias, cut below at zero. -/
def pool (A : Fin 512 → EReal) (b : Mat 1 128) (l : Fin 128) : EReal :=
  max (max (max (A ⟨0 + l.val, by omega⟩) (A ⟨128 + l.val, by omega⟩))
        (max (A ⟨256 + l.val, by omega⟩) (A ⟨384 + l.val, by omega⟩)) + b (ix2 0 l)) zr

/-- The first convolution's product for pooled row `yo`, as the reference computes it: the 192-long window of the
    picture starting at `64 * yo` against the band. -/
def conv1 (x : Fin 1024 → EReal) (a1 : Mat 192 512) (yo : Fin 14) (j : Fin 512) : EReal :=
  ∑ k : Fin 192, x ⟨64 * yo.val + k.val, by omega⟩ * a1 (ix2 k j)

/-- The same product as the kernel computes it: a 256-long window starting at `128 * (yo / 2)` against the PAIRED
    band, whose column group `yo % 2` (512 columns) is the band shifted down by `64 * (yo % 2)` rows and zero elsewhere. -/
def conv1p (x : Fin 1024 → EReal) (a1p : Mat 256 1024) (yo : Fin 14) (j : Fin 512) : EReal :=
  ∑ k : Fin 256, x ⟨128 * (yo.val / 2) + k.val, by omega⟩ * a1p (ix2 k ⟨512 * (yo.val % 2) + j.val, by omega⟩)

/-- The 14 pooled rows of the first layer laid end to end. -/
def P1 (A : Fin 14 → Fin 512 → EReal) (b1 : Mat 1 128) (n : Fin 1792) : EReal :=
  pool (A ⟨n.val / 128, by omega⟩) b1 ⟨n.val % 128, Nat.mod_lt _ (by norm_num)⟩

/-- The second convolution's product for pooled row `yo2`: the 768-long window of the first layer's output starting at
    `256 * yo2` against its band. -/
def conv2 (A : Fin 14 → Fin 512 → EReal) (b1 : Mat 1 128) (a2 : Mat 768 512) (yo2 : Fin 5) (j : Fin 512) : EReal :=
  ∑ k : Fin 768, P1 A b1 ⟨256 * yo2.val + k.val, by omega⟩ * a2 (ix2 k j)

/-- The five pooled rows of the second layer laid end to end. -/
def P2 (A : Fin 14 → Fin 512 → EReal) (b1 : Mat 1 128) (a2 : Mat 768 512) (b2 : Mat 1 128) (n : Fin 640) : EReal :=
  pool (conv2 A b1 a2 ⟨n.val / 128, by omega⟩) b2 ⟨n.val % 128, Nat.mod_lt _ (by norm_num)⟩

/-- The first dense layer, with bias, cut at zero. -/
def H1 (A : Fin 14 → Fin 512 → EReal) (b1 : Mat 1 128) (a2 : Mat 768 512) (b2 : Mat 1 128) (w1 : Mat 640 120)
    (c1 : Mat 1 120) (n : Fin 120) : EReal :=
  max (∑ k : Fin 640, P2 A b1 a2 b2 k * w1 (ix2 k n) + c1 (ix2 0 n)) zr

/-- The second dense layer, with bias, cut at zero. -/
def H2 (A : Fin 14 → Fin 512 → EReal) (b1 : Mat 1 128) (a2 : Mat 768 512) (b2 : Mat 1 128) (w1 : Mat 640 120)
    (c1 : Mat 1 120) (w2 : Mat 120 84) (c2 : Mat 1 84) (n : Fin 84) : EReal :=
  max (∑ k : Fin 120, H1 A b1 a2 b2 w1 c1 k * w2 (ix2 k n) + c2 (ix2 0 n)) zr

/-- The output row: the third dense layer with bias. -/
def Y (A : Fin 14 → Fin 512 → EReal) (b1 : Mat 1 128) (a2 : Mat 768 512) (b2 : Mat 1 128) (w1 : Mat 640 120)
    (c1 : Mat 1 120) (w2 : Mat 120 84) (c2 : Mat 1 84) (w3 : Mat 84 128) (c3 : Mat 1 128) (n : Fin 128) : EReal :=
  ∑ k : Fin 84, H2 A b1 a2 b2 w1 c1 w2 c2 k * w3 (ix2 k n) + c3 (ix2 0 n)

end Cert.LeNet

end
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.KLayer1.lean ====
/-
  The kernel's first layer, one image row at a time.

  The body forms seven products of a 256-long window of the picture (starting 128 * p) with the paired band, and from
  each takes two pooled rows: columns 0..511 give pooled row 2p, columns 512..1023 pooled row 2p + 1. Each of the
  fourteen pooled rows is, at batch row `r` and lane `l`, the pooled lane of the specification for the product
  `conv1p` of that row of the picture block.
-/
import proofs.«166270_g2000206983916426_pallasbulk_172_2_alg».proof.Proof.Gen.KernelIdeal.Skeleton
import proofs.«166270_g2000206983916426_pallasbulk_172_2_alg».proof.Proof.Spec
import proofs.«166270_g2000206983916426_pallasbulk_172_2_alg».proof.Proof.LibMatmulPlain
import Idealize.ShloMosaic.Lib.Pipeline.Value
import Idealize.ShloMosaic.Lib.ValueLayout
set_option maxRecDepth 16384

noncomputable section

open scoped BigOperators
open Idealize.ShloMosaic Idealize.ShloMosaic.TcCoe Idealize.SL.Sem Idealize.ShloMosaic.ValueIdx

namespace Cert.KernelIdeal.Net
open Cert.KernelIdeal Cert.KernelIdeal.Gen Cert.LeNet Cert.LibMatmulPlain Cert.KernelIdeal.Facts₀

/-- The kernel's fourteen first-layer products for batch row `r` of the picture block `x0`, against the paired band `x1`. -/
abbrev A1 (x0 : Vec Ideal S512x1024 .bf16) (x1 : Vec Ideal S256x1024 .bf16) (r : Fin 512) : Fin 14 → Fin 512 → EReal :=
  conv1p (fun n => x0 (ix2 r n)) x1

/-- Pooled row 0 of the first layer, as the body computes it (window 0, column group 0). -/
def kp1_0 (x0 : Vec Ideal S512x1024 .bf16) (x1 : Vec Ideal S256x1024 .bf16) (x2 : Vec Ideal S1x128 .f32) : FVec Ideal S512x128 .bf16 :=
  k0_pay4 x0 x2 x1

theorem kp1_0_apply (x0 : Vec Ideal S512x1024 .bf16) (x1 : Vec Ideal S256x1024 .bf16) (x2 : Vec Ideal S1x128 .f32) (r : Fin 512) (l : Fin 128) :
    kp1_0 x0 x1 x2 (ix2 r l) = pool (A1 x0 x1 r ⟨0, by omega⟩) x2 l := by
  simp only [kp1_0, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, truncf_apply, maximumf_apply, addf_apply,
    broadcast_apply, broadcastTo_1b_ab_apply, slice2_axis1_eq,
    matmul_plain_zero_apply dot_S512x256_S256x1024_S512x1024_1_0_0_1_n_n rfl]
  rfl

/-- Pooled row 1 of the first layer, as the body computes it (window 0, column group 1). -/
def kp1_1 (x0 : Vec Ideal S512x1024 .bf16) (x1 : Vec Ideal S256x1024 .bf16) (x2 : Vec Ideal S1x128 .f32) : FVec Ideal S512x128 .bf16 :=
  k0_pay5 x0 x2 x1

theorem kp1_1_apply (x0 : Vec Ideal S512x1024 .bf16) (x1 : Vec Ideal S256x1024 .bf16) (x2 : Vec Ideal S1x128 .f32) (r : Fin 512) (l : Fin 128) :
    kp1_1 x0 x1 x2 (ix2 r l) = pool (A1 x0 x1 r ⟨1, by omega⟩) x2 l := by
  simp only [kp1_1, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, truncf_apply, maximumf_apply, addf_apply,
    broadcast_apply, broadcastTo_1b_ab_apply, slice2_axis1_eq,
    matmul_plain_zero_apply dot_S512x256_S256x1024_S512x1024_1_0_0_1_n_n rfl]
  rfl

/-- Pooled row 2 of the first layer, as the body computes it (window 128, column group 0). -/
def kp1_2 (x0 : Vec Ideal S512x1024 .bf16) (x1 : Vec Ideal S256x1024 .bf16) (x2 : Vec Ideal S1x128 .f32) : FVec Ideal S512x128 .bf16 :=
  k0_pay8 x2 (k0_pay2 x1) (k0_pay6 x0) (constant S512x1024 .f32 0#32)

theorem kp1_2_apply (x0 : Vec Ideal S512x1024 .bf16) (x1 : Vec Ideal S256x1024 .bf16) (x2 : Vec Ideal S1x128 .f32) (r : Fin 512) (l : Fin 128) :
    kp1_2 x0 x1 x2 (ix2 r l) = pool (A1 x0 x1 r ⟨2, by omega⟩) x2 l := by
  simp only [kp1_2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, truncf_apply, maximumf_apply, addf_apply,
    broadcast_apply, broadcastTo_1b_ab_apply, slice2_axis1_eq,
    matmul_plain_zero_apply dot_S512x256_S256x1024_S512x1024_1_0_0_1_n_n rfl]
  rfl

/-- Pooled row 3 of the first layer, as the body computes it (window 128, column group 1). -/
def kp1_3 (x0 : Vec Ideal S512x1024 .bf16) (x1 : Vec Ideal S256x1024 .bf16) (x2 : Vec Ideal S1x128 .f32) : FVec Ideal S512x128 .bf16 :=
  k0_pay9 x2 (k0_pay2 x1) (k0_pay6 x0) (constant S512x1024 .f32 0#32)

theorem kp1_3_apply (x0 : Vec Ideal S512x1024 .bf16) (x1 : Vec Ideal S256x1024 .bf16) (x2 : Vec Ideal S1x128 .f32) (r : Fin 512) (l : Fin 128) :
    kp1_3 x0 x1 x2 (ix2 r l) = pool (A1 x0 x1 r ⟨3, by omega⟩) x2 l := by
  simp only [kp1_3, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, truncf_apply, maximumf_apply, addf_apply,
    broadcast_apply, broadcastTo_1b_ab_apply, slice2_axis1_eq,
    matmul_plain_zero_apply dot_S512x256_S256x1024_S512x1024_1_0_0_1_n_n rfl]
  rfl

/-- Pooled row 4 of the first layer, as the body computes it (window 256, column group 0). -/
def kp1_4 (x0 : Vec Ideal S512x1024 .bf16) (x1 : Vec Ideal S256x1024 .bf16) (x2 : Vec Ideal S1x128 .f32) : FVec Ideal S512x128 .bf16 :=
  k0_pay12 (k0_pay11 (k0_pay1 x0) x2 (k0_pay2 x1))

theorem kp1_4_apply (x0 : Vec Ideal S512x1024 .bf16) (x1 : Vec Ideal S256x1024 .bf16) (x2 : Vec Ideal S1x128 .f32) (r : Fin 512) (l : Fin 128) :
    kp1_4 x0 x1 x2 (ix2 r l) = pool (A1 x0 x1 r ⟨4, by omega⟩) x2 l := by
  simp only [kp1_4, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, truncf_apply, maximumf_apply, addf_apply,
    broadcast_apply, broadcastTo_1b_ab_apply, slice2_axis1_eq,
    matmul_plain_zero_apply dot_S512x256_S256x1024_S512x1024_1_0_0_1_n_n rfl]
  rfl

/-- Pooled row 5 of the first layer, as the body computes it (window 256, column group 1). -/
def kp1_5 (x0 : Vec Ideal S512x1024 .bf16) (x1 : Vec Ideal S256x1024 .bf16) (x2 : Vec Ideal S1x128 .f32) : FVec Ideal S512x128 .bf16 :=
  k0_pay13 x2 (k0_pay10 (k0_pay1 x0) (k0_pay2 x1))

theorem kp1_5_apply (x0 : Vec Ideal S512x1024 .bf16) (x1 : Vec Ideal S256x1024 .bf16) (x2 : Vec Ideal S1x128 .f32) (r : Fin 512) (l : Fin 128) :
    kp1_5 x0 x1 x2 (ix2 r l) = pool (A1 x0 x1 r ⟨5, by omega⟩) x2 l := by
  simp only [kp1_5, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, truncf_apply, maximumf_apply, addf_apply,
    broadcast_apply, broadcastTo_1b_ab_apply, slice2_axis1_eq,
    matmul_plain_zero_apply dot_S512x256_S256x1024_S512x1024_1_0_0_1_n_n rfl]
  rfl

/-- Pooled row 6 of the first layer, as the body computes it (window 384, column group 0). -/
def kp1_6 (x0 : Vec Ideal S512x1024 .bf16) (x1 : Vec Ideal S256x1024 .bf16) (x2 : Vec Ideal S1x128 .f32) : FVec Ideal S512x128 .bf16 :=
  k0_pay15 (k0_pay1 x0) x2 (k0_pay2 x1)

theorem kp1_6_apply (x0 : Vec Ideal S512x1024 .bf16) (x1 : Vec Ideal S256x1024 .bf16) (x2 : Vec Ideal S1x128 .f32) (r : Fin 512) (l : Fin 128) :
    kp1_6 x0 x1 x2 (ix2 r l) = pool (A1 x0 x1 r ⟨6, by omega⟩) x2 l := by
  simp only [kp1_6, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, truncf_apply, maximumf_apply, addf_apply,
    broadcast_apply, broadcastTo_1b_ab_apply, slice2_axis1_eq,
    matmul_plain_zero_apply dot_S512x256_S256x1024_S512x1024_1_0_0_1_n_n rfl]
  rfl

/-- Pooled row 7 of the first layer, as the body computes it (window 384, column group 1). -/
def kp1_7 (x0 : Vec Ideal S512x1024 .bf16) (x1 : Vec Ideal S256x1024 .bf16) (x2 : Vec Ideal S1x128 .f32) : FVec Ideal S512x128 .bf16 :=
  k0_pay17 (k0_pay16 (k0_pay1 x0) x2 (k0_pay2 x1))

theorem kp1_7_apply (x0 : Vec Ideal S512x1024 .bf16) (x1 : Vec Ideal S256x1024 .bf16) (x2 : Vec Ideal S1x128 .f32) (r : Fin 512) (l : Fin 128) :
    kp1_7 x0 x1 x2 (ix2 r l) = pool (A1 x0 x1 r ⟨7, by omega⟩) x2 l := by
  simp only [kp1_7, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, truncf_apply, maximumf_apply, addf_apply,
    broadcast_apply, broadcastTo_1b_ab_apply, slice2_axis1_eq,
    matmul_plain_zero_apply dot_S512x256_S256x1024_S512x1024_1_0_0_1_n_n rfl]
  rfl

/-- Pooled row 8 of the first layer, as the body computes it (window 512, column group 0). -/
def kp1_8 (x0 : Vec Ideal S512x1024 .bf16) (x1 : Vec Ideal S256x1024 .bf16) (x2 : Vec Ideal S1x128 .f32) : FVec Ideal S512x128 .bf16 :=
  k0_pay19 (k0_pay1 x0) x2 (k0_pay2 x1)

theorem kp1_8_apply (x0 : Vec Ideal S512x1024 .bf16) (x1 : Vec Ideal S256x1024 .bf16) (x2 : Vec Ideal S1x128 .f32) (r : Fin 512) (l : Fin 128) :
    kp1_8 x0 x1 x2 (ix2 r l) = pool (A1 x0 x1 r ⟨8, by omega⟩) x2 l := by
  simp only [kp1_8, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, truncf_apply, maximumf_apply, addf_apply,
    broadcast_apply, broadcastTo_1b_ab_apply, slice2_axis1_eq,
    matmul_plain_zero_apply dot_S512x256_S256x1024_S512x1024_1_0_0_1_n_n rfl]
  rfl

/-- Pooled row 9 of the first layer, as the body computes it (window 512, column group 1). -/
def kp1_9 (x0 : Vec Ideal S512x1024 .bf16) (x1 : Vec Ideal S256x1024 .bf16) (x2 : Vec Ideal S1x128 .f32) : FVec Ideal S512x128 .bf16 :=
  k0_pay20 (k0_pay1 x0) x2 (k0_pay2 x1)

theorem kp1_9_apply (x0 : Vec Ideal S512x1024 .bf16) (x1 : Vec Ideal S256x1024 .bf16) (x2 : Vec Ideal S1x128 .f32) (r : Fin 512) (l : Fin 128) :
    kp1_9 x0 x1 x2 (ix2 r l) = pool (A1 x0 x1 r ⟨9, by omega⟩) x2 l := by
  simp only [kp1_9, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, truncf_apply, maximumf_apply, addf_apply,
    broadcast_apply, broadcastTo_1b_ab_apply, slice2_axis1_eq,
    matmul_plain_zero_apply dot_S512x256_S256x1024_S512x1024_1_0_0_1_n_n rfl]
  rfl

/-- Pooled row 10 of the first layer, as the body computes it (window 640, column group 0). -/
def kp1_10 (x0 : Vec Ideal S512x1024 .bf16) (x1 : Vec Ideal S256x1024 .bf16) (x2 : Vec Ideal S1x128 .f32) : FVec Ideal S512x128 .bf16 :=
  k0_pay25 x2 (k0_pay23 (k0_pay1 x0) (k0_pay2 x1)) (k0_pay24 (k0_pay1 x0) (k0_pay2 x1))

theorem kp1_10_apply (x0 : Vec Ideal S512x1024 .bf16) (x1 : Vec Ideal S256x1024 .bf16) (x2 : Vec Ideal S1x128 .f32) (r : Fin 512) (l : Fin 128) :
    kp1_10 x0 x1 x2 (ix2 r l) = pool (A1 x0 x1 r ⟨10, by omega⟩) x2 l := by
  simp only [kp1_10, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, truncf_apply, maximumf_apply, addf_apply,
    broadcast_apply, broadcastTo_1b_ab_apply, slice2_axis1_eq,
    matmul_plain_zero_apply dot_S512x256_S256x1024_S512x1024_1_0_0_1_n_n rfl]
  rfl

/-- Pooled row 11 of the first layer, as the body computes it (window 640, column group 1). -/
def kp1_11 (x0 : Vec Ideal S512x1024 .bf16) (x1 : Vec Ideal S256x1024 .bf16) (x2 : Vec Ideal S1x128 .f32) : FVec Ideal S512x128 .bf16 :=
  k0_pay26 x2 (k0_pay21 (k0_pay1 x0) (k0_pay2 x1))

theorem kp1_11_apply (x0 : Vec Ideal S512x1024 .bf16) (x1 : Vec Ideal S256x1024 .bf16) (x2 : Vec Ideal S1x128 .f32) (r : Fin 512) (l : Fin 128) :
    kp1_11 x0 x1 x2 (ix2 r l) = pool (A1 x0 x1 r ⟨11, by omega⟩) x2 l := by
  simp only [kp1_11, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, truncf_apply, maximumf_apply, addf_apply,
    broadcast_apply, broadcastTo_1b_ab_apply, slice2_axis1_eq,
    matmul_plain_zero_apply dot_S512x256_S256x1024_S512x1024_1_0_0_1_n_n rfl]
  rfl

/-- Pooled row 12 of the first layer, as the body computes it (window 768, column group 0). -/
def kp1_12 (x0 : Vec Ideal S512x1024 .bf16) (x1 : Vec Ideal S256x1024 .bf16) (x2 : Vec Ideal S1x128 .f32) : FVec Ideal S512x128 .bf16 :=
  k0_pay28 (k0_pay1 x0) x2 (k0_pay2 x1)

theorem kp1_12_apply (x0 : Vec Ideal S512x1024 .bf16) (x1 : Vec Ideal S256x1024 .bf16) (x2 : Vec Ideal S1x128 .f32) (r : Fin 512) (l : Fin 128) :
    kp1_12 x0 x1 x2 (ix2 r l) = pool (A1 x0 x1 r ⟨12, by omega⟩) x2 l := by
  simp only [kp1_12, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, truncf_apply, maximumf_apply, addf_apply,
    broadcast_apply, broadcastTo_1b_ab_apply, slice2_axis1_eq,
    matmul_plain_zero_apply dot_S512x256_S256x1024_S512x1024_1_0_0_1_n_n rfl]
  rfl

/-- Pooled row 13 of the first layer, as the body computes it (window 768, column group 1). -/
def kp1_13 (x0 : Vec Ideal S512x1024 .bf16) (x1 : Vec Ideal S256x1024 .bf16) (x2 : Vec Ideal S1x128 .f32) : FVec Ideal S512x128 .bf16 :=
  k0_pay31 x2 (k0_pay29 (k0_pay1 x0) (k0_pay2 x1)) (k0_pay30 (k0_pay1 x0) (k0_pay2 x1))

theorem kp1_13_apply (x0 : Vec Ideal S512x1024 .bf16) (x1 : Vec Ideal S256x1024 .bf16) (x2 : Vec Ideal S1x128 .f32) (r : Fin 512) (l : Fin 128) :
    kp1_13 x0 x1 x2 (ix2 r l) = pool (A1 x0 x1 r ⟨13, by omega⟩) x2 l := by
  simp only [kp1_13, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, truncf_apply, maximumf_apply, addf_apply,
    broadcast_apply, broadcastTo_1b_ab_apply, slice2_axis1_eq,
    matmul_plain_zero_apply dot_S512x256_S256x1024_S512x1024_1_0_0_1_n_n rfl]
  rfl

end Cert.KernelIdeal.Net

end
-- ==== Proof.SpecLaws.lean ====
/-
  Two facts about the one-row network.

  (1) Where the laid-out pooled rows are read: position `128 * yo + q` of the first layer's 1792 numbers is lane `q` of
      pooled row `yo`, and likewise for the second layer's 640 numbers.
  (2) The pairing law: a 256-long window against the paired band is the 192-long window against the band. The paired
      band's left half is the band over 64 rows of zeros, its right half 64 rows of zeros over the band; a product with
      zero is zero on the extended reals whatever the other factor, so the 64 extra terms vanish and the remaining 192
      are the reference's window, starting 64 later in the right half.
-/
import proofs.«166270_g2000206983916426_pallasbulk_172_2_alg».proof.Proof.Spec

noncomputable section

open scoped BigOperators

namespace Cert.LeNet

open Idealize.ShloMosaic Idealize.ShloMosaic.ValueIdx

/-- Position `128 * yo + q` of the first layer's output is lane `q` of pooled row `yo`. -/
theorem P1_at (A : Fin 14 → Fin 512 → EReal) (b1 : Mat 1 128) (yo : Fin 14) (q : Fin 128) (n : Fin 1792)
    (h : n.val = 128 * yo.val + q.val) : P1 A b1 n = pool (A yo) b1 q := by
  have key : ∀ (i : Fin 14) (j : Fin 128), i = yo → j = q → pool (A i) b1 j = pool (A yo) b1 q := by
    rintro _ _ rfl rfl; rfl
  unfold P1
  exact key _ _ (Fin.ext (by show n.val / 128 = yo.val; have := q.isLt; omega))
    (Fin.ext (by show n.val % 128 = q.val; have := q.isLt; omega))

/-- Position `128 * yo2 + q` of the second layer's output is lane `q` of pooled row `yo2`. -/
theorem P2_at (A : Fin 14 → Fin 512 → EReal) (b1 : Mat 1 128) (a2 : Mat 768 512) (b2 : Mat 1 128) (yo2 : Fin 5) (q : Fin 128)
    (n : Fin 640) (h : n.val = 128 * yo2.val + q.val) : P2 A b1 a2 b2 n = pool (conv2 A b1 a2 yo2) b2 q := by
  have key : ∀ (i : Fin 5) (j : Fin 128), i = yo2 → j = q → pool (conv2 A b1 a2 i) b2 j = pool (conv2 A b1 a2 yo2) b2 q := by
    rintro _ _ rfl rfl; rfl
  unfold P2
  exact key _ _ (Fin.ext (by show n.val / 128 = yo2.val; have := q.isLt; omega))
    (Fin.ext (by show n.val % 128 = q.val; have := q.isLt; omega))

/-- The paired band `a1p` [256, 1024] built from the band `a1` [192, 512]: columns below 512 hold the band over 64 rows of
    zeros, columns from 512 on hold 64 rows of zeros over the band. -/
structure Paired (a1 : Mat 192 512) (a1p : Mat 256 1024) : Prop where
  left_top : ∀ (k : Fin 256) (j' : Fin 1024) (k0 : Fin 192) (j0 : Fin 512), k.val = k0.val → j'.val = j0.val →
    a1p (ix2 k j') = a1 (ix2 k0 j0)
  left_bot : ∀ (k : Fin 256) (j' : Fin 1024), 192 ≤ k.val → j'.val < 512 → a1p (ix2 k j') = 0
  right_top : ∀ (k : Fin 256) (j' : Fin 1024), k.val < 64 → 512 ≤ j'.val → a1p (ix2 k j') = 0
  right_bot : ∀ (k : Fin 256) (j' : Fin 1024) (k0 : Fin 192) (j0 : Fin 512), k.val = 64 + k0.val → j'.val = 512 + j0.val →
    a1p (ix2 k j') = a1 (ix2 k0 j0)

variable {a1 : Mat 192 512} {a1p : Mat 256 1024}

/-- A 256-long window against a left-half column of the paired band: the last 64 terms are products with zero. -/
theorem window_left (h : Paired a1 a1p) (x : Fin 1024 → EReal) (ox : Nat) (hox : ox + 256 ≤ 1024) (j : Fin 512)
    (jj : Fin 1024) (hjj : jj.val = j.val) :
    (∑ k : Fin 256, x ⟨ox + k.val, by have := k.isLt; omega⟩ * a1p (ix2 k jj))
      = ∑ k : Fin 192, x ⟨ox + k.val, by have := k.isLt; omega⟩ * a1 (ix2 k j) := by
  refine (Fin.sum_univ_add (a := 192) (b := 64)
    (fun k : Fin (192 + 64) => x ⟨ox + k.val, by have := k.isLt; omega⟩ * a1p (ix2 k jj))).trans ?_
  have hz : (∑ i : Fin 64, x ⟨ox + (Fin.natAdd 192 i).val, by have := (Fin.natAdd 192 i).isLt; omega⟩
      * a1p (ix2 (Fin.natAdd 192 i) jj)) = 0 := by
    refine Finset.sum_eq_zero fun i _ => ?_
    rw [h.left_bot (Fin.natAdd 192 i) jj (by simp [Fin.natAdd]) (by have := j.isLt; omega), mul_zero]
  rw [hz, add_zero]
  refine Finset.sum_congr rfl fun i _ => ?_
  rw [h.left_top (Fin.castAdd 64 i) jj i j rfl hjj]
  rfl

/-- A 256-long window against a right-half column of the paired band: the first 64 terms are products with zero, and
    the other 192 are the window that starts 64 later against the band. -/
theorem window_right (h : Paired a1 a1p) (x : Fin 1024 → EReal) (ox : Nat) (hox : ox + 256 ≤ 1024) (j : Fin 512)
    (jj : Fin 1024) (hjj : jj.val = 512 + j.val) :
    (∑ k : Fin 256, x ⟨ox + k.val, by have := k.isLt; omega⟩ * a1p (ix2 k jj))
      = ∑ k : Fin 192, x ⟨ox + 64 + k.val, by have := k.isLt; omega⟩ * a1 (ix2 k j) := by
  refine (Fin.sum_univ_add (a := 64) (b := 192)
    (fun k : Fin (64 + 192) => x ⟨ox + k.val, by have := k.isLt; omega⟩ * a1p (ix2 k jj))).trans ?_
  have hz : (∑ i : Fin 64, x ⟨ox + (Fin.castAdd 192 i).val, by have := (Fin.castAdd 192 i).isLt; omega⟩
      * a1p (ix2 (Fin.castAdd 192 i) jj)) = 0 := by
    refine Finset.sum_eq_zero fun i _ => ?_
    rw [h.right_top (Fin.castAdd 192 i) jj (by simp) (by omega), mul_zero]
  rw [hz, zero_add]
  refine Finset.sum_congr rfl fun i _ => ?_
  rw [h.right_bot (Fin.natAdd 64 i) jj i j (by simp [Fin.natAdd]) hjj]
  have e : (⟨ox + (Fin.natAdd 64 i).val, by have := (Fin.natAdd 64 i).isLt; omega⟩ : Fin 1024)
      = ⟨ox + 64 + i.val, by have := i.isLt; omega⟩ := Fin.ext (by simp [Fin.natAdd]; omega)
  rw [e]

/-- The pairing law: each of the fourteen products, computed as the kernel does, is the reference's. -/
theorem conv1_pair (h : Paired a1 a1p) (x : Fin 1024 → EReal) (yo : Fin 14) (j : Fin 512) :
    conv1p x a1p yo j = conv1 x a1 yo j := by
  unfold conv1p conv1
  have hy := yo.isLt
  rcases Nat.mod_two_eq_zero_or_one yo.val with he | ho
  · refine (window_left h x (128 * (yo.val / 2)) (by omega) j _ (by show 512 * (yo.val % 2) + j.val = j.val; omega)).trans ?_
    refine Finset.sum_congr rfl fun k _ => ?_
    have e : (⟨128 * (yo.val / 2) + k.val, by have := k.isLt; omega⟩ : Fin 1024)
        = ⟨64 * yo.val + k.val, by have := k.isLt; omega⟩ := Fin.ext (by show 128 * (yo.val / 2) + k.val = 64 * yo.val + k.val; omega)
    rw [e]
  · refine (window_right h x (128 * (yo.val / 2)) (by omega) j _ (by show 512 * (yo.val % 2) + j.val = 512 + j.val; omega)).trans ?_
    refine Finset.sum_congr rfl fun k _ => ?_
    have e : (⟨128 * (yo.val / 2) + 64 + k.val, by have := k.isLt; omega⟩ : Fin 1024)
        = ⟨64 * yo.val + k.val, by have := k.isLt; omega⟩ := Fin.ext (by show 128 * (yo.val / 2) + 64 + k.val = 64 * yo.val + k.val; omega)
    rw [e]

end Cert.LeNet

end
-- ==== Proof.LibRectCols.lean ====
/-
  Column bands of a matrix buffer, read at an index.

  A rectangle of a matrix buffer [a, b] that takes every row and the `d` columns from `o` on places its own index
  (r, k) at the buffer index (r, o + k) — both as a load reads it and as a store writes it. Generic in the extents.
-/
import Idealize.ShloMosaic.Lib.ValueIdx
import Idealize.ShloMosaic.Lib.Pipeline.Value

noncomputable section

namespace Cert.LibRectCols

open Idealize.ShloMosaic Idealize.ShloMosaic.ValueIdx

variable {a b d : Nat}

/-- A load through the column band `[o, o + d)` reads, at its index (r, k), the buffer's index (r, o + k). -/
theorem idx_cols (o : Nat) (hb : o + d ≤ b)
    (inb : ∀ ax, (![0, o] : Fin 2 → Nat) ax + (⟨2, ![a, d]⟩ : Shape).size ax ≤ (⟨2, ![a, b]⟩ : Shape).size ax)
    (r : Fin a) (k : Fin d) :
    (Rect.unit (s := ⟨2, ![a, b]⟩) ![0, o] (⟨2, ![a, d]⟩ : Shape).size inb).toLoadRect.idx (ix2 r k)
      = ix2 r ⟨o + k.val, by have := k.isLt; omega⟩ := by
  funext ax
  apply Fin.ext
  match ax with
  | ⟨0, _⟩ => show 0 + 1 * r.val = r.val; omega
  | ⟨1, _⟩ => show o + 1 * k.val = o + k.val; omega

/-- A store through the column band `[o, o + d)` writes its index (r, k) to the buffer's index (r, o + k). -/
theorem emb_cols (o : Nat) (hb : o + d ≤ b)
    (inb : ∀ ax, (![0, o] : Fin 2 → Nat) ax + (⟨2, ![a, d]⟩ : Shape).size ax ≤ (⟨2, ![a, b]⟩ : Shape).size ax)
    (r : Fin a) (k : Fin d) :
    (Rect.unit (s := ⟨2, ![a, b]⟩) ![0, o] (⟨2, ![a, d]⟩ : Shape).size inb).emb (ix2 r k)
      = ix2 r ⟨o + k.val, by have := k.isLt; omega⟩ :=
  idx_cols o hb inb r k

end Cert.LibRectCols

end
-- ==== Proof.KScratch0.lean ====
/-
  What the first scratch buffer holds when the second layer reads it.

  The body writes the fourteen pooled rows of the first layer side by side into a [512, 1792] buffer, pooled row `yo`
  into columns 128 * yo .. 128 * yo + 127. The fourteen column bands tile the buffer, so whatever it held before, it
  holds at (r, n) position `n` of the first layer's laid-out output for batch row `r`.
-/
import proofs.«166270_g2000206983916426_pallasbulk_172_2_alg».proof.Proof.KLayer1
import proofs.«166270_g2000206983916426_pallasbulk_172_2_alg».proof.Proof.SpecLaws
import proofs.«166270_g2000206983916426_pallasbulk_172_2_alg».proof.Proof.LibRectCols
import Idealize.ShloMosaic.Lib.Pipeline.FrameBody
import Idealize.ShloMosaic.Lib.Ring
import Idealize.ShloMosaic.Lib.Tactic
set_option maxRecDepth 16384

noncomputable section

open scoped BigOperators
open Idealize.ShloMosaic Idealize.ShloMosaic.TcCoe Idealize.SL.Sem Idealize.ShloMosaic.ValueIdx

namespace Cert.KernelIdeal.Net
open Cert.KernelIdeal Cert.KernelIdeal.Gen Cert.LeNet Cert.LibRectCols Cert.KernelIdeal.Facts₀ Idealize.ShloMosaic.Tactic

/-- The fourteen stores into the first scratch buffer, last first. -/
def L14 (x0 : Vec Ideal S512x1024 .bf16) (x1 : Vec Ideal S256x1024 .bf16) (x2 : Vec Ideal S1x128 .f32) : List (View.Piece (Elt Ideal) S512x1792 .bf16) :=
  [⟨Rect.unit (s := S512x1792) ![0, 1664] S512x128.size Facts₀.inb_S512x1792_S512x128_0_1664, kp1_13 x0 x1 x2⟩,
   ⟨Rect.unit (s := S512x1792) ![0, 1536] S512x128.size Facts₀.inb_S512x1792_S512x128_0_1536, kp1_12 x0 x1 x2⟩,
   ⟨Rect.unit (s := S512x1792) ![0, 1408] S512x128.size Facts₀.inb_S512x1792_S512x128_0_1408, kp1_11 x0 x1 x2⟩,
   ⟨Rect.unit (s := S512x1792) ![0, 1280] S512x128.size Facts₀.inb_S512x1792_S512x128_0_1280, kp1_10 x0 x1 x2⟩,
   ⟨Rect.unit (s := S512x1792) ![0, 1152] S512x128.size Facts₀.inb_S512x1792_S512x128_0_1152, kp1_9 x0 x1 x2⟩,
   ⟨Rect.unit (s := S512x1792) ![0, 1024] S512x128.size Facts₀.inb_S512x1792_S512x128_0_1024, kp1_8 x0 x1 x2⟩,
   ⟨Rect.unit (s := S512x1792) ![0, 896] S512x128.size Facts₀.inb_S512x1792_S512x128_0_896, kp1_7 x0 x1 x2⟩,
   ⟨Rect.unit (s := S512x1792) ![0, 768] S512x128.size Facts₀.inb_S512x1792_S512x128_0_768, kp1_6 x0 x1 x2⟩,
   ⟨Rect.unit (s := S512x1792) ![0, 640] S512x128.size Facts₀.inb_S512x1792_S512x128_0_640, kp1_5 x0 x1 x2⟩,
   ⟨Rect.unit (s := S512x1792) ![0, 512] S512x128.size Facts₀.inb_S512x1792_S512x128_0_512, kp1_4 x0 x1 x2⟩,
   ⟨Rect.unit (s := S512x1792) ![0, 384] S512x128.size Facts₀.inb_S512x1792_S512x128_0_384, kp1_3 x0 x1 x2⟩,
   ⟨Rect.unit (s := S512x1792) ![0, 256] S512x128.size Facts₀.inb_S512x1792_S512x128_0_256, kp1_2 x0 x1 x2⟩,
   ⟨Rect.unit (s := S512x1792) ![0, 128] S512x128.size Facts₀.inb_S512x1792_S512x128_0_128, kp1_1 x0 x1 x2⟩,
   ⟨Rect.unit (s := S512x1792) ![0, 0] S512x128.size Facts₀.inb_S512x1792_S512x128_0_0, kp1_0 x0 x1 x2⟩]

/-- The first layer's laid-out output, batch row by batch row. -/
def G0 (x0 : Vec Ideal S512x1024 .bf16) (x1 : Vec Ideal S256x1024 .bf16) (x2 : Vec Ideal S1x128 .f32) : S512x1792.Idx → EReal :=
  fun i => P1 (A1 x0 x1 (i 0)) x2 (i 1)

theorem agree1_0 (x0 : Vec Ideal S512x1024 .bf16) (x1 : Vec Ideal S256x1024 .bf16) (x2 : Vec Ideal S1x128 .f32)
    (x : (Rect.unit (s := S512x1792) ![0, 0] S512x128.size Facts₀.inb_S512x1792_S512x128_0_0).shape.Idx) :
    kp1_0 x0 x1 x2 x = G0 x0 x1 x2 ((Rect.unit (s := S512x1792) ![0, 0] S512x128.size Facts₀.inb_S512x1792_S512x128_0_0).emb x) := by
  obtain ⟨p, q, rfl⟩ : ∃ (p : Fin 512) (q : Fin 128), x = ix2 p q := ⟨x 0, x 1, eq_ix2 x⟩
  refine (kp1_0_apply x0 x1 x2 p q).trans ?_
  refine Eq.trans ?_ (congrArg (G0 x0 x1 x2) (emb_cols (a := 512) (b := 1792) (d := 128) 0 (by norm_num) _ p q).symm)
  exact (P1_at (A1 x0 x1 p) x2 ⟨0, by omega⟩ q ⟨0 + q.val, by have := q.isLt; omega⟩ rfl).symm

theorem agree1_1 (x0 : Vec Ideal S512x1024 .bf16) (x1 : Vec Ideal S256x1024 .bf16) (x2 : Vec Ideal S1x128 .f32)
    (x : (Rect.unit (s := S512x1792) ![0, 128] S512x128.size Facts₀.inb_S512x1792_S512x128_0_128).shape.Idx) :
    kp1_1 x0 x1 x2 x = G0 x0 x1 x2 ((Rect.unit (s := S512x1792) ![0, 128] S512x128.size Facts₀.inb_S512x1792_S512x128_0_128).emb x) := by
  obtain ⟨p, q, rfl⟩ : ∃ (p : Fin 512) (q : Fin 128), x = ix2 p q := ⟨x 0, x 1, eq_ix2 x⟩
  refine (kp1_1_apply x0 x1 x2 p q).trans ?_
  refine Eq.trans ?_ (congrArg (G0 x0 x1 x2) (emb_cols (a := 512) (b := 1792) (d := 128) 128 (by norm_num) _ p q).symm)
  exact (P1_at (A1 x0 x1 p) x2 ⟨1, by omega⟩ q ⟨128 + q.val, by have := q.isLt; omega⟩ rfl).symm

theorem agree1_2 (x0 : Vec Ideal S512x1024 .bf16) (x1 : Vec Ideal S256x1024 .bf16) (x2 : Vec Ideal S1x128 .f32)
    (x : (Rect.unit (s := S512x1792) ![0, 256] S512x128.size Facts₀.inb_S512x1792_S512x128_0_256).shape.Idx) :
    kp1_2 x0 x1 x2 x = G0 x0 x1 x2 ((Rect.unit (s := S512x1792) ![0, 256] S512x128.size Facts₀.inb_S512x1792_S512x128_0_256).emb x) := by
  obtain ⟨p, q, rfl⟩ : ∃ (p : Fin 512) (q : Fin 128), x = ix2 p q := ⟨x 0, x 1, eq_ix2 x⟩
  refine (kp1_2_apply x0 x1 x2 p q).trans ?_
  refine Eq.trans ?_ (congrArg (G0 x0 x1 x2) (emb_cols (a := 512) (b := 1792) (d := 128) 256 (by norm_num) _ p q).symm)
  exact (P1_at (A1 x0 x1 p) x2 ⟨2, by omega⟩ q ⟨256 + q.val, by have := q.isLt; omega⟩ rfl).symm

theorem agree1_3 (x0 : Vec Ideal S512x1024 .bf16) (x1 : Vec Ideal S256x1024 .bf16) (x2 : Vec Ideal S1x128 .f32)
    (x : (Rect.unit (s := S512x1792) ![0, 384] S512x128.size Facts₀.inb_S512x1792_S512x128_0_384).shape.Idx) :
    kp1_3 x0 x1 x2 x = G0 x0 x1 x2 ((Rect.unit (s := S512x1792) ![0, 384] S512x128.size Facts₀.inb_S512x1792_S512x128_0_384).emb x) := by
  obtain ⟨p, q, rfl⟩ : ∃ (p : Fin 512) (q : Fin 128), x = ix2 p q := ⟨x 0, x 1, eq_ix2 x⟩
  refine (kp1_3_apply x0 x1 x2 p q).trans ?_
  refine Eq.trans ?_ (congrArg (G0 x0 x1 x2) (emb_cols (a := 512) (b := 1792) (d := 128) 384 (by norm_num) _ p q).symm)
  exact (P1_at (A1 x0 x1 p) x2 ⟨3, by omega⟩ q ⟨384 + q.val, by have := q.isLt; omega⟩ rfl).symm

theorem agree1_4 (x0 : Vec Ideal S512x1024 .bf16) (x1 : Vec Ideal S256x1024 .bf16) (x2 : Vec Ideal S1x128 .f32)
    (x : (Rect.unit (s := S512x1792) ![0, 512] S512x128.size Facts₀.inb_S512x1792_S512x128_0_512).shape.Idx) :
    kp1_4 x0 x1 x2 x = G0 x0 x1 x2 ((Rect.unit (s := S512x1792) ![0, 512] S512x128.size Facts₀.inb_S512x1792_S512x128_0_512).emb x) := by
  obtain ⟨p, q, rfl⟩ : ∃ (p : Fin 512) (q : Fin 128), x = ix2 p q := ⟨x 0, x 1, eq_ix2 x⟩
  refine (kp1_4_apply x0 x1 x2 p q).trans ?_
  refine Eq.trans ?_ (congrArg (G0 x0 x1 x2) (emb_cols (a := 512) (b := 1792) (d := 128) 512 (by norm_num) _ p q).symm)
  exact (P1_at (A1 x0 x1 p) x2 ⟨4, by omega⟩ q ⟨512 + q.val, by have := q.isLt; omega⟩ rfl).symm

theorem agree1_5 (x0 : Vec Ideal S512x1024 .bf16) (x1 : Vec Ideal S256x1024 .bf16) (x2 : Vec Ideal S1x128 .f32)
    (x : (Rect.unit (s := S512x1792) ![0, 640] S512x128.size Facts₀.inb_S512x1792_S512x128_0_640).shape.Idx) :
    kp1_5 x0 x1 x2 x = G0 x0 x1 x2 ((Rect.unit (s := S512x1792) ![0, 640] S512x128.size Facts₀.inb_S512x1792_S512x128_0_640).emb x) := by
  obtain ⟨p, q, rfl⟩ : ∃ (p : Fin 512) (q : Fin 128), x = ix2 p q := ⟨x 0, x 1, eq_ix2 x⟩
  refine (kp1_5_apply x0 x1 x2 p q).trans ?_
  refine Eq.trans ?_ (congrArg (G0 x0 x1 x2) (emb_cols (a := 512) (b := 1792) (d := 128) 640 (by norm_num) _ p q).symm)
  exact (P1_at (A1 x0 x1 p) x2 ⟨5, by omega⟩ q ⟨640 + q.val, by have := q.isLt; omega⟩ rfl).symm

theorem agree1_6 (x0 : Vec Ideal S512x1024 .bf16) (x1 : Vec Ideal S256x1024 .bf16) (x2 : Vec Ideal S1x128 .f32)
    (x : (Rect.unit (s := S512x1792) ![0, 768] S512x128.size Facts₀.inb_S512x1792_S512x128_0_768).shape.Idx) :
    kp1_6 x0 x1 x2 x = G0 x0 x1 x2 ((Rect.unit (s := S512x1792) ![0, 768] S512x128.size Facts₀.inb_S512x1792_S512x128_0_768).emb x) := by
  obtain ⟨p, q, rfl⟩ : ∃ (p : Fin 512) (q : Fin 128), x = ix2 p q := ⟨x 0, x 1, eq_ix2 x⟩
  refine (kp1_6_apply x0 x1 x2 p q).trans ?_
  refine Eq.trans ?_ (congrArg (G0 x0 x1 x2) (emb_cols (a := 512) (b := 1792) (d := 128) 768 (by norm_num) _ p q).symm)
  exact (P1_at (A1 x0 x1 p) x2 ⟨6, by omega⟩ q ⟨768 + q.val, by have := q.isLt; omega⟩ rfl).symm

theorem agree1_7 (x0 : Vec Ideal S512x1024 .bf16) (x1 : Vec Ideal S256x1024 .bf16) (x2 : Vec Ideal S1x128 .f32)
    (x : (Rect.unit (s := S512x1792) ![0, 896] S512x128.size Facts₀.inb_S512x1792_S512x128_0_896).shape.Idx) :
    kp1_7 x0 x1 x2 x = G0 x0 x1 x2 ((Rect.unit (s := S512x1792) ![0, 896] S512x128.size Facts₀.inb_S512x1792_S512x128_0_896).emb x) := by
  obtain ⟨p, q, rfl⟩ : ∃ (p : Fin 512) (q : Fin 128), x = ix2 p q := ⟨x 0, x 1, eq_ix2 x⟩
  refine (kp1_7_apply x0 x1 x2 p q).trans ?_
  refine Eq.trans ?_ (congrArg (G0 x0 x1 x2) (emb_cols (a := 512) (b := 1792) (d := 128) 896 (by norm_num) _ p q).symm)
  exact (P1_at (A1 x0 x1 p) x2 ⟨7, by omega⟩ q ⟨896 + q.val, by have := q.isLt; omega⟩ rfl).symm

theorem agree1_8 (x0 : Vec Ideal S512x1024 .bf16) (x1 : Vec Ideal S256x1024 .bf16) (x2 : Vec Ideal S1x128 .f32)
    (x : (Rect.unit (s := S512x1792) ![0, 1024] S512x128.size Facts₀.inb_S512x1792_S512x128_0_1024).shape.Idx) :
    kp1_8 x0 x1 x2 x = G0 x0 x1 x2 ((Rect.unit (s := S512x1792) ![0, 1024] S512x128.size Facts₀.inb_S512x1792_S512x128_0_1024).emb x) := by
  obtain ⟨p, q, rfl⟩ : ∃ (p : Fin 512) (q : Fin 128), x = ix2 p q := ⟨x 0, x 1, eq_ix2 x⟩
  refine (kp1_8_apply x0 x1 x2 p q).trans ?_
  refine Eq.trans ?_ (congrArg (G0 x0 x1 x2) (emb_cols (a := 512) (b := 1792) (d := 128) 1024 (by norm_num) _ p q).symm)
  exact (P1_at (A1 x0 x1 p) x2 ⟨8, by omega⟩ q ⟨1024 + q.val, by have := q.isLt; omega⟩ rfl).symm

theorem agree1_9 (x0 : Vec Ideal S512x1024 .bf16) (x1 : Vec Ideal S256x1024 .bf16) (x2 : Vec Ideal S1x128 .f32)
    (x : (Rect.unit (s := S512x1792) ![0, 1152] S512x128.size Facts₀.inb_S512x1792_S512x128_0_1152).shape.Idx) :
    kp1_9 x0 x1 x2 x = G0 x0 x1 x2 ((Rect.unit (s := S512x1792) ![0, 1152] S512x128.size Facts₀.inb_S512x1792_S512x128_0_1152).emb x) := by
  obtain ⟨p, q, rfl⟩ : ∃ (p : Fin 512) (q : Fin 128), x = ix2 p q := ⟨x 0, x 1, eq_ix2 x⟩
  refine (kp1_9_apply x0 x1 x2 p q).trans ?_
  refine Eq.trans ?_ (congrArg (G0 x0 x1 x2) (emb_cols (a := 512) (b := 1792) (d := 128) 1152 (by norm_num) _ p q).symm)
  exact (P1_at (A1 x0 x1 p) x2 ⟨9, by omega⟩ q ⟨1152 + q.val, by have := q.isLt; omega⟩ rfl).symm

theorem agree1_10 (x0 : Vec Ideal S512x1024 .bf16) (x1 : Vec Ideal S256x1024 .bf16) (x2 : Vec Ideal S1x128 .f32)
    (x : (Rect.unit (s := S512x1792) ![0, 1280] S512x128.size Facts₀.inb_S512x1792_S512x128_0_1280).shape.Idx) :
    kp1_10 x0 x1 x2 x = G0 x0 x1 x2 ((Rect.unit (s := S512x1792) ![0, 1280] S512x128.size Facts₀.inb_S512x1792_S512x128_0_1280).emb x) := by
  obtain ⟨p, q, rfl⟩ : ∃ (p : Fin 512) (q : Fin 128), x = ix2 p q := ⟨x 0, x 1, eq_ix2 x⟩
  refine (kp1_10_apply x0 x1 x2 p q).trans ?_
  refine Eq.trans ?_ (congrArg (G0 x0 x1 x2) (emb_cols (a := 512) (b := 1792) (d := 128) 1280 (by norm_num) _ p q).symm)
  exact (P1_at (A1 x0 x1 p) x2 ⟨10, by omega⟩ q ⟨1280 + q.val, by have := q.isLt; omega⟩ rfl).symm

theorem agree1_11 (x0 : Vec Ideal S512x1024 .bf16) (x1 : Vec Ideal S256x1024 .bf16) (x2 : Vec Ideal S1x128 .f32)
    (x : (Rect.unit (s := S512x1792) ![0, 1408] S512x128.size Facts₀.inb_S512x1792_S512x128_0_1408).shape.Idx) :
    kp1_11 x0 x1 x2 x = G0 x0 x1 x2 ((Rect.unit (s := S512x1792) ![0, 1408] S512x128.size Facts₀.inb_S512x1792_S512x128_0_1408).emb x) := by
  obtain ⟨p, q, rfl⟩ : ∃ (p : Fin 512) (q : Fin 128), x = ix2 p q := ⟨x 0, x 1, eq_ix2 x⟩
  refine (kp1_11_apply x0 x1 x2 p q).trans ?_
  refine Eq.trans ?_ (congrArg (G0 x0 x1 x2) (emb_cols (a := 512) (b := 1792) (d := 128) 1408 (by norm_num) _ p q).symm)
  exact (P1_at (A1 x0 x1 p) x2 ⟨11, by omega⟩ q ⟨1408 + q.val, by have := q.isLt; omega⟩ rfl).symm

theorem agree1_12 (x0 : Vec Ideal S512x1024 .bf16) (x1 : Vec Ideal S256x1024 .bf16) (x2 : Vec Ideal S1x128 .f32)
    (x : (Rect.unit (s := S512x1792) ![0, 1536] S512x128.size Facts₀.inb_S512x1792_S512x128_0_1536).shape.Idx) :
    kp1_12 x0 x1 x2 x = G0 x0 x1 x2 ((Rect.unit (s := S512x1792) ![0, 1536] S512x128.size Facts₀.inb_S512x1792_S512x128_0_1536).emb x) := by
  obtain ⟨p, q, rfl⟩ : ∃ (p : Fin 512) (q : Fin 128), x = ix2 p q := ⟨x 0, x 1, eq_ix2 x⟩
  refine (kp1_12_apply x0 x1 x2 p q).trans ?_
  refine Eq.trans ?_ (congrArg (G0 x0 x1 x2) (emb_cols (a := 512) (b := 1792) (d := 128) 1536 (by norm_num) _ p q).symm)
  exact (P1_at (A1 x0 x1 p) x2 ⟨12, by omega⟩ q ⟨1536 + q.val, by have := q.isLt; omega⟩ rfl).symm

theorem agree1_13 (x0 : Vec Ideal S512x1024 .bf16) (x1 : Vec Ideal S256x1024 .bf16) (x2 : Vec Ideal S1x128 .f32)
    (x : (Rect.unit (s := S512x1792) ![0, 1664] S512x128.size Facts₀.inb_S512x1792_S512x128_0_1664).shape.Idx) :
    kp1_13 x0 x1 x2 x = G0 x0 x1 x2 ((Rect.unit (s := S512x1792) ![0, 1664] S512x128.size Facts₀.inb_S512x1792_S512x128_0_1664).emb x) := by
  obtain ⟨p, q, rfl⟩ : ∃ (p : Fin 512) (q : Fin 128), x = ix2 p q := ⟨x 0, x 1, eq_ix2 x⟩
  refine (kp1_13_apply x0 x1 x2 p q).trans ?_
  refine Eq.trans ?_ (congrArg (G0 x0 x1 x2) (emb_cols (a := 512) (b := 1792) (d := 128) 1664 (by norm_num) _ p q).symm)
  exact (P1_at (A1 x0 x1 p) x2 ⟨13, by omega⟩ q ⟨1664 + q.val, by have := q.isLt; omega⟩ rfl).symm

/-- The first scratch buffer after the fourteen stores, at any index. -/
theorem canon_L14 (x0 : Vec Ideal S512x1024 .bf16) (x1 : Vec Ideal S256x1024 .bf16) (x2 : Vec Ideal S1x128 .f32) (i : S512x1792.Idx) :
    View.canon (L14 x0 x1 x2) i = G0 x0 x1 x2 i := by
  refine View.canon_apply_of_pieces (G0 x0 x1 x2) (L14 x0 x1 x2) ?_ i
    (View.cover_of_tiledL (L14 x0 x1 x2) S512x128.size (by sl_kernel_rfl) i)
  intro p hp
  simp only [L14, List.mem_cons, List.mem_nil_iff, or_false] at hp
  rcases hp with rfl | rfl | rfl | rfl | rfl | rfl | rfl | rfl | rfl | rfl | rfl | rfl | rfl | rfl
  exacts [agree1_13 x0 x1 x2, agree1_12 x0 x1 x2, agree1_11 x0 x1 x2, agree1_10 x0 x1 x2, agree1_9 x0 x1 x2, agree1_8 x0 x1 x2, agree1_7 x0 x1 x2, agree1_6 x0 x1 x2, agree1_5 x0 x1 x2, agree1_4 x0 x1 x2, agree1_3 x0 x1 x2, agree1_2 x0 x1 x2, agree1_1 x0 x1 x2, agree1_0 x0 x1 x2]

/-- The same at batch row `r`, position `n`. -/
theorem canon_L14_ix (x0 : Vec Ideal S512x1024 .bf16) (x1 : Vec Ideal S256x1024 .bf16) (x2 : Vec Ideal S1x128 .f32) (r : Fin 512) (n : Fin 1792) :
    View.canon (L14 x0 x1 x2) (ix2 r n) = P1 (A1 x0 x1 r) x2 n :=
  canon_L14 x0 x1 x2 (ix2 r n)

end Cert.KernelIdeal.Net

end
-- ==== Proof.KLayer2.lean ====
/-
  The kernel's second layer, one image row at a time.

  Each of the five products reads a 768-column window of the first scratch buffer, starting at column 256 * yo2: at
  (r, k) that is position 256 * yo2 + k of the first layer's laid-out output for batch row `r`. The product with the
  second band, pooled, biased and cut at zero, is pooled row `yo2` of the specification's second layer.
-/
import proofs.«166270_g2000206983916426_pallasbulk_172_2_alg».proof.Proof.KScratch0
set_option maxRecDepth 16384

noncomputable section

open scoped BigOperators
open Idealize.ShloMosaic Idealize.ShloMosaic.TcCoe Idealize.SL.Sem Idealize.ShloMosaic.ValueIdx

namespace Cert.KernelIdeal.Net
open Cert.KernelIdeal Cert.KernelIdeal.Gen Cert.LeNet Cert.LibRectCols Cert.LibMatmulPlain Cert.KernelIdeal.Facts₀

/-- The 768-column window of the first scratch buffer from column 0 on. -/
def kw_0 (x0 : Vec Ideal S512x1024 .bf16) (x1 : Vec Ideal S256x1024 .bf16) (x2 : Vec Ideal S1x128 .f32) : Vec Ideal S512x768 .bf16 :=
  fun j => View.canon (L14 x0 x1 x2)
    ((Rect.unit (s := S512x1792) ![0, 0] S512x768.size Facts₀.inb_S512x1792_S512x768_0_0).toLoadRect.idx j)

theorem kw_0_apply (x0 : Vec Ideal S512x1024 .bf16) (x1 : Vec Ideal S256x1024 .bf16) (x2 : Vec Ideal S1x128 .f32) (r : Fin 512) (k : Fin 768) :
    kw_0 x0 x1 x2 (ix2 r k) = P1 (A1 x0 x1 r) x2 ⟨0 + k.val, by have := k.isLt; omega⟩ := by
  show View.canon (L14 x0 x1 x2) _ = _
  rw [idx_cols (a := 512) (b := 1792) (d := 768) 0 (by norm_num) _ r k]
  exact canon_L14_ix x0 x1 x2 r _

/-- The 768-column window of the first scratch buffer from column 256 on. -/
def kw_1 (x0 : Vec Ideal S512x1024 .bf16) (x1 : Vec Ideal S256x1024 .bf16) (x2 : Vec Ideal S1x128 .f32) : Vec Ideal S512x768 .bf16 :=
  fun j => View.canon (L14 x0 x1 x2)
    ((Rect.unit (s := S512x1792) ![0, 256] S512x768.size Facts₀.inb_S512x1792_S512x768_0_256).toLoadRect.idx j)

theorem kw_1_apply (x0 : Vec Ideal S512x1024 .bf16) (x1 : Vec Ideal S256x1024 .bf16) (x2 : Vec Ideal S1x128 .f32) (r : Fin 512) (k : Fin 768) :
    kw_1 x0 x1 x2 (ix2 r k) = P1 (A1 x0 x1 r) x2 ⟨256 + k.val, by have := k.isLt; omega⟩ := by
  show View.canon (L14 x0 x1 x2) _ = _
  rw [idx_cols (a := 512) (b := 1792) (d := 768) 256 (by norm_num) _ r k]
  exact canon_L14_ix x0 x1 x2 r _

/-- The 768-column window of the first scratch buffer from column 512 on. -/
def kw_2 (x0 : Vec Ideal S512x1024 .bf16) (x1 : Vec Ideal S256x1024 .bf16) (x2 : Vec Ideal S1x128 .f32) : Vec Ideal S512x768 .bf16 :=
  fun j => View.canon (L14 x0 x1 x2)
    ((Rect.unit (s := S512x1792) ![0, 512] S512x768.size Facts₀.inb_S512x1792_S512x768_0_512).toLoadRect.idx j)

theorem kw_2_apply (x0 : Vec Ideal S512x1024 .bf16) (x1 : Vec Ideal S256x1024 .bf16) (x2 : Vec Ideal S1x128 .f32) (r : Fin 512) (k : Fin 768) :
    kw_2 x0 x1 x2 (ix2 r k) = P1 (A1 x0 x1 r) x2 ⟨512 + k.val, by have := k.isLt; omega⟩ := by
  show View.canon (L14 x0 x1 x2) _ = _
  rw [idx_cols (a := 512) (b := 1792) (d := 768) 512 (by norm_num) _ r k]
  exact canon_L14_ix x0 x1 x2 r _

/-- The 768-column window of the first scratch buffer from column 768 on. -/
def kw_3 (x0 : Vec Ideal S512x1024 .bf16) (x1 : Vec Ideal S256x1024 .bf16) (x2 : Vec Ideal S1x128 .f32) : Vec Ideal S512x768 .bf16 :=
  fun j => View.canon (L14 x0 x1 x2)
    ((Rect.unit (s := S512x1792) ![0, 768] S512x768.size Facts₀.inb_S512x1792_S512x768_0_768).toLoadRect.idx j)

theorem kw_3_apply (x0 : Vec Ideal S512x1024 .bf16) (x1 : Vec Ideal S256x1024 .bf16) (x2 : Vec Ideal S1x128 .f32) (r : Fin 512) (k : Fin 768) :
    kw_3 x0 x1 x2 (ix2 r k) = P1 (A1 x0 x1 r) x2 ⟨768 + k.val, by have := k.isLt; omega⟩ := by
  show View.canon (L14 x0 x1 x2) _ = _
  rw [idx_cols (a := 512) (b := 1792) (d := 768) 768 (by norm_num) _ r k]
  exact canon_L14_ix x0 x1 x2 r _

/-- The 768-column window of the first scratch buffer from column 1024 on. -/
def kw_4 (x0 : Vec Ideal S512x1024 .bf16) (x1 : Vec Ideal S256x1024 .bf16) (x2 : Vec Ideal S1x128 .f32) : Vec Ideal S512x768 .bf16 :=
  fun j => View.canon (L14 x0 x1 x2)
    ((Rect.unit (s := S512x1792) ![0, 1024] S512x768.size Facts₀.inb_S512x1792_S512x768_0_1024).toLoadRect.idx j)

theorem kw_4_apply (x0 : Vec Ideal S512x1024 .bf16) (x1 : Vec Ideal S256x1024 .bf16) (x2 : Vec Ideal S1x128 .f32) (r : Fin 512) (k : Fin 768) :
    kw_4 x0 x1 x2 (ix2 r k) = P1 (A1 x0 x1 r) x2 ⟨1024 + k.val, by have := k.isLt; omega⟩ := by
  show View.canon (L14 x0 x1 x2) _ = _
  rw [idx_cols (a := 512) (b := 1792) (d := 768) 1024 (by norm_num) _ r k]
  exact canon_L14_ix x0 x1 x2 r _

/-- Pooled row 0 of the second layer, as the body computes it. -/
def kp2_0 (x0 : Vec Ideal S512x1024 .bf16) (x1 : Vec Ideal S256x1024 .bf16) (x2 : Vec Ideal S1x128 .f32) (x3 : Vec Ideal S768x512 .bf16) (x4 : Vec Ideal S1x128 .f32) : FVec Ideal S512x128 .bf16 :=
  k0_pay32 x4 x3 (kw_0 x0 x1 x2)

theorem kp2_0_apply (x0 : Vec Ideal S512x1024 .bf16) (x1 : Vec Ideal S256x1024 .bf16) (x2 : Vec Ideal S1x128 .f32) (x3 : Vec Ideal S768x512 .bf16) (x4 : Vec Ideal S1x128 .f32) (r : Fin 512) (l : Fin 128) :
    kp2_0 x0 x1 x2 x3 x4 (ix2 r l) = pool (conv2 (A1 x0 x1 r) x2 x3 ⟨0, by omega⟩) x4 l := by
  simp only [kp2_0, k0_pay32, k0_pay33, k0_pay34, k0_pay35, k0_pay36, k0_pay37, k0_pay38, shapeCast_self, truncf_apply, maximumf_apply, addf_apply,
    broadcast_apply, broadcastTo_1b_ab_apply, slice2_axis1_eq,
    matmul_plain_zero_apply dot_S512x768_S768x512_S512x512_1_0_0_1_n_n rfl, kw_0_apply]
  rfl

/-- Pooled row 1 of the second layer, as the body computes it. -/
def kp2_1 (x0 : Vec Ideal S512x1024 .bf16) (x1 : Vec Ideal S256x1024 .bf16) (x2 : Vec Ideal S1x128 .f32) (x3 : Vec Ideal S768x512 .bf16) (x4 : Vec Ideal S1x128 .f32) : FVec Ideal S512x128 .bf16 :=
  k0_pay34 (k0_pay33 x4 x3 (kw_1 x0 x1 x2))

theorem kp2_1_apply (x0 : Vec Ideal S512x1024 .bf16) (x1 : Vec Ideal S256x1024 .bf16) (x2 : Vec Ideal S1x128 .f32) (x3 : Vec Ideal S768x512 .bf16) (x4 : Vec Ideal S1x128 .f32) (r : Fin 512) (l : Fin 128) :
    kp2_1 x0 x1 x2 x3 x4 (ix2 r l) = pool (conv2 (A1 x0 x1 r) x2 x3 ⟨1, by omega⟩) x4 l := by
  simp only [kp2_1, k0_pay32, k0_pay33, k0_pay34, k0_pay35, k0_pay36, k0_pay37, k0_pay38, shapeCast_self, truncf_apply, maximumf_apply, addf_apply,
    broadcast_apply, broadcastTo_1b_ab_apply, slice2_axis1_eq,
    matmul_plain_zero_apply dot_S512x768_S768x512_S512x512_1_0_0_1_n_n rfl, kw_1_apply]
  rfl

/-- Pooled row 2 of the second layer, as the body computes it. -/
def kp2_2 (x0 : Vec Ideal S512x1024 .bf16) (x1 : Vec Ideal S256x1024 .bf16) (x2 : Vec Ideal S1x128 .f32) (x3 : Vec Ideal S768x512 .bf16) (x4 : Vec Ideal S1x128 .f32) : FVec Ideal S512x128 .bf16 :=
  k0_pay35 x4 x3 (kw_2 x0 x1 x2)

theorem kp2_2_apply (x0 : Vec Ideal S512x1024 .bf16) (x1 : Vec Ideal S256x1024 .bf16) (x2 : Vec Ideal S1x128 .f32) (x3 : Vec Ideal S768x512 .bf16) (x4 : Vec Ideal S1x128 .f32) (r : Fin 512) (l : Fin 128) :
    kp2_2 x0 x1 x2 x3 x4 (ix2 r l) = pool (conv2 (A1 x0 x1 r) x2 x3 ⟨2, by omega⟩) x4 l := by
  simp only [kp2_2, k0_pay32, k0_pay33, k0_pay34, k0_pay35, k0_pay36, k0_pay37, k0_pay38, shapeCast_self, truncf_apply, maximumf_apply, addf_apply,
    broadcast_apply, broadcastTo_1b_ab_apply, slice2_axis1_eq,
    matmul_plain_zero_apply dot_S512x768_S768x512_S512x512_1_0_0_1_n_n rfl, kw_2_apply]
  rfl

/-- Pooled row 3 of the second layer, as the body computes it. -/
def kp2_3 (x0 : Vec Ideal S512x1024 .bf16) (x1 : Vec Ideal S256x1024 .bf16) (x2 : Vec Ideal S1x128 .f32) (x3 : Vec Ideal S768x512 .bf16) (x4 : Vec Ideal S1x128 .f32) : FVec Ideal S512x128 .bf16 :=
  k0_pay36 x4 x3 (kw_3 x0 x1 x2)

theorem kp2_3_apply (x0 : Vec Ideal S512x1024 .bf16) (x1 : Vec Ideal S256x1024 .bf16) (x2 : Vec Ideal S1x128 .f32) (x3 : Vec Ideal S768x512 .bf16) (x4 : Vec Ideal S1x128 .f32) (r : Fin 512) (l : Fin 128) :
    kp2_3 x0 x1 x2 x3 x4 (ix2 r l) = pool (conv2 (A1 x0 x1 r) x2 x3 ⟨3, by omega⟩) x4 l := by
  simp only [kp2_3, k0_pay32, k0_pay33, k0_pay34, k0_pay35, k0_pay36, k0_pay37, k0_pay38, shapeCast_self, truncf_apply, maximumf_apply, addf_apply,
    broadcast_apply, broadcastTo_1b_ab_apply, slice2_axis1_eq,
    matmul_plain_zero_apply dot_S512x768_S768x512_S512x512_1_0_0_1_n_n rfl, kw_3_apply]
  rfl

/-- Pooled row 4 of the second layer, as the body computes it. -/
def kp2_4 (x0 : Vec Ideal S512x1024 .bf16) (x1 : Vec Ideal S256x1024 .bf16) (x2 : Vec Ideal S1x128 .f32) (x3 : Vec Ideal S768x512 .bf16) (x4 : Vec Ideal S1x128 .f32) : FVec Ideal S512x128 .bf16 :=
  k0_pay38 x4 (k0_pay37 x3 (kw_4 x0 x1 x2))

theorem kp2_4_apply (x0 : Vec Ideal S512x1024 .bf16) (x1 : Vec Ideal S256x1024 .bf16) (x2 : Vec Ideal S1x128 .f32) (x3 : Vec Ideal S768x512 .bf16) (x4 : Vec Ideal S1x128 .f32) (r : Fin 512) (l : Fin 128) :
    kp2_4 x0 x1 x2 x3 x4 (ix2 r l) = pool (conv2 (A1 x0 x1 r) x2 x3 ⟨4, by omega⟩) x4 l := by
  simp only [kp2_4, k0_pay32, k0_pay33, k0_pay34, k0_pay35, k0_pay36, k0_pay37, k0_pay38, shapeCast_self, truncf_apply, maximumf_apply, addf_apply,
    broadcast_apply, broadcastTo_1b_ab_apply, slice2_axis1_eq,
    matmul_plain_zero_apply dot_S512x768_S768x512_S512x512_1_0_0_1_n_n rfl, kw_4_apply]
  rfl

end Cert.KernelIdeal.Net

end
-- ==== Proof.KScratch1.lean ====
/-
  What the second scratch buffer holds when the dense layers read it, and the kernel's output block.

  The five pooled rows of the second layer are written side by side into a [512, 640] buffer, pooled row `yo2` into
  columns 128 * yo2 .. 128 * yo2 + 127; the five bands tile it, so at (r, n) it holds position `n` of the second
  layer's laid-out output for batch row `r`. The three dense layers read the whole buffer, and the block stored at
  (r, j) is the specification's output row for batch row `r` at lane `j`.
-/
import proofs.«166270_g2000206983916426_pallasbulk_172_2_alg».proof.Proof.KLayer2
set_option maxRecDepth 16384

noncomputable section

open scoped BigOperators
open Idealize.ShloMosaic Idealize.ShloMosaic.TcCoe Idealize.SL.Sem Idealize.ShloMosaic.ValueIdx

namespace Cert.KernelIdeal.Net
open Cert.KernelIdeal Cert.KernelIdeal.Gen Cert.LeNet Cert.LibRectCols Cert.LibMatmulPlain Cert.KernelIdeal.Facts₀ Idealize.ShloMosaic.Tactic

/-- The five stores into the second scratch buffer, last first. -/
def L5 (x0 : Vec Ideal S512x1024 .bf16) (x1 : Vec Ideal S256x1024 .bf16) (x2 : Vec Ideal S1x128 .f32) (x3 : Vec Ideal S768x512 .bf16) (x4 : Vec Ideal S1x128 .f32) : List (View.Piece (Elt Ideal) S512x640 .bf16) :=
  [⟨Rect.unit (s := S512x640) ![0, 512] S512x128.size Facts₀.inb_S512x640_S512x128_0_512, kp2_4 x0 x1 x2 x3 x4⟩,
   ⟨Rect.unit (s := S512x640) ![0, 384] S512x128.size Facts₀.inb_S512x640_S512x128_0_384, kp2_3 x0 x1 x2 x3 x4⟩,
   ⟨Rect.unit (s := S512x640) ![0, 256] S512x128.size Facts₀.inb_S512x640_S512x128_0_256, kp2_2 x0 x1 x2 x3 x4⟩,
   ⟨Rect.unit (s := S512x640) ![0, 128] S512x128.size Facts₀.inb_S512x640_S512x128_0_128, kp2_1 x0 x1 x2 x3 x4⟩,
   ⟨Rect.unit (s := S512x640) ![0, 0] S512x128.size Facts₀.inb_S512x640_S512x128_0_0, kp2_0 x0 x1 x2 x3 x4⟩]

/-- The second layer's laid-out output, batch row by batch row. -/
def G1 (x0 : Vec Ideal S512x1024 .bf16) (x1 : Vec Ideal S256x1024 .bf16) (x2 : Vec Ideal S1x128 .f32) (x3 : Vec Ideal S768x512 .bf16) (x4 : Vec Ideal S1x128 .f32) : S512x640.Idx → EReal :=
  fun i => P2 (A1 x0 x1 (i 0)) x2 x3 x4 (i 1)

theorem agree2_0 (x0 : Vec Ideal S512x1024 .bf16) (x1 : Vec Ideal S256x1024 .bf16) (x2 : Vec Ideal S1x128 .f32) (x3 : Vec Ideal S768x512 .bf16) (x4 : Vec Ideal S1x128 .f32)
    (x : (Rect.unit (s := S512x640) ![0, 0] S512x128.size Facts₀.inb_S512x640_S512x128_0_0).shape.Idx) :
    kp2_0 x0 x1 x2 x3 x4 x = G1 x0 x1 x2 x3 x4 ((Rect.unit (s := S512x640) ![0, 0] S512x128.size Facts₀.inb_S512x640_S512x128_0_0).emb x) := by
  obtain ⟨p, q, rfl⟩ : ∃ (p : Fin 512) (q : Fin 128), x = ix2 p q := ⟨x 0, x 1, eq_ix2 x⟩
  refine (kp2_0_apply x0 x1 x2 x3 x4 p q).trans ?_
  refine Eq.trans ?_ (congrArg (G1 x0 x1 x2 x3 x4) (emb_cols (a := 512) (b := 640) (d := 128) 0 (by norm_num) _ p q).symm)
  exact (P2_at (A1 x0 x1 p) x2 x3 x4 ⟨0, by omega⟩ q ⟨0 + q.val, by have := q.isLt; omega⟩ rfl).symm

theorem agree2_1 (x0 : Vec Ideal S512x1024 .bf16) (x1 : Vec Ideal S256x1024 .bf16) (x2 : Vec Ideal S1x128 .f32) (x3 : Vec Ideal S768x512 .bf16) (x4 : Vec Ideal S1x128 .f32)
    (x : (Rect.unit (s := S512x640) ![0, 128] S512x128.size Facts₀.inb_S512x640_S512x128_0_128).shape.Idx) :
    kp2_1 x0 x1 x2 x3 x4 x = G1 x0 x1 x2 x3 x4 ((Rect.unit (s := S512x640) ![0, 128] S512x128.size Facts₀.inb_S512x640_S512x128_0_128).emb x) := by
  obtain ⟨p, q, rfl⟩ : ∃ (p : Fin 512) (q : Fin 128), x = ix2 p q := ⟨x 0, x 1, eq_ix2 x⟩
  refine (kp2_1_apply x0 x1 x2 x3 x4 p q).trans ?_
  refine Eq.trans ?_ (congrArg (G1 x0 x1 x2 x3 x4) (emb_cols (a := 512) (b := 640) (d := 128) 128 (by norm_num) _ p q).symm)
  exact (P2_at (A1 x0 x1 p) x2 x3 x4 ⟨1, by omega⟩ q ⟨128 + q.val, by have := q.isLt; omega⟩ rfl).symm

theorem agree2_2 (x0 : Vec Ideal S512x1024 .bf16) (x1 : Vec Ideal S256x1024 .bf16) (x2 : Vec Ideal S1x128 .f32) (x3 : Vec Ideal S768x512 .bf16) (x4 : Vec Ideal S1x128 .f32)
    (x : (Rect.unit (s := S512x640) ![0, 256] S512x128.size Facts₀.inb_S512x640_S512x128_0_256).shape.Idx) :
    kp2_2 x0 x1 x2 x3 x4 x = G1 x0 x1 x2 x3 x4 ((Rect.unit (s := S512x640) ![0, 256] S512x128.size Facts₀.inb_S512x640_S512x128_0_256).emb x) := by
  obtain ⟨p, q, rfl⟩ : ∃ (p : Fin 512) (q : Fin 128), x = ix2 p q := ⟨x 0, x 1, eq_ix2 x⟩
  refine (kp2_2_apply x0 x1 x2 x3 x4 p q).trans ?_
  refine Eq.trans ?_ (congrArg (G1 x0 x1 x2 x3 x4) (emb_cols (a := 512) (b := 640) (d := 128) 256 (by norm_num) _ p q).symm)
  exact (P2_at (A1 x0 x1 p) x2 x3 x4 ⟨2, by omega⟩ q ⟨256 + q.val, by have := q.isLt; omega⟩ rfl).symm

theorem agree2_3 (x0 : Vec Ideal S512x1024 .bf16) (x1 : Vec Ideal S256x1024 .bf16) (x2 : Vec Ideal S1x128 .f32) (x3 : Vec Ideal S768x512 .bf16) (x4 : Vec Ideal S1x128 .f32)
    (x : (Rect.unit (s := S512x640) ![0, 384] S512x128.size Facts₀.inb_S512x640_S512x128_0_384).shape.Idx) :
    kp2_3 x0 x1 x2 x3 x4 x = G1 x0 x1 x2 x3 x4 ((Rect.unit (s := S512x640) ![0, 384] S512x128.size Facts₀.inb_S512x640_S512x128_0_384).emb x) := by
  obtain ⟨p, q, rfl⟩ : ∃ (p : Fin 512) (q : Fin 128), x = ix2 p q := ⟨x 0, x 1, eq_ix2 x⟩
  refine (kp2_3_apply x0 x1 x2 x3 x4 p q).trans ?_
  refine Eq.trans ?_ (congrArg (G1 x0 x1 x2 x3 x4) (emb_cols (a := 512) (b := 640) (d := 128) 384 (by norm_num) _ p q).symm)
  exact (P2_at (A1 x0 x1 p) x2 x3 x4 ⟨3, by omega⟩ q ⟨384 + q.val, by have := q.isLt; omega⟩ rfl).symm

theorem agree2_4 (x0 : Vec Ideal S512x1024 .bf16) (x1 : Vec Ideal S256x1024 .bf16) (x2 : Vec Ideal S1x128 .f32) (x3 : Vec Ideal S768x512 .bf16) (x4 : Vec Ideal S1x128 .f32)
    (x : (Rect.unit (s := S512x640) ![0, 512] S512x128.size Facts₀.inb_S512x640_S512x128_0_512).shape.Idx) :
    kp2_4 x0 x1 x2 x3 x4 x = G1 x0 x1 x2 x3 x4 ((Rect.unit (s := S512x640) ![0, 512] S512x128.size Facts₀.inb_S512x640_S512x128_0_512).emb x) := by
  obtain ⟨p, q, rfl⟩ : ∃ (p : Fin 512) (q : Fin 128), x = ix2 p q := ⟨x 0, x 1, eq_ix2 x⟩
  refine (kp2_4_apply x0 x1 x2 x3 x4 p q).trans ?_
  refine Eq.trans ?_ (congrArg (G1 x0 x1 x2 x3 x4) (emb_cols (a := 512) (b := 640) (d := 128) 512 (by norm_num) _ p q).symm)
  exact (P2_at (A1 x0 x1 p) x2 x3 x4 ⟨4, by omega⟩ q ⟨512 + q.val, by have := q.isLt; omega⟩ rfl).symm

/-- The second scratch buffer after the five stores, at any index. -/
theorem canon_L5 (x0 : Vec Ideal S512x1024 .bf16) (x1 : Vec Ideal S256x1024 .bf16) (x2 : Vec Ideal S1x128 .f32) (x3 : Vec Ideal S768x512 .bf16) (x4 : Vec Ideal S1x128 .f32) (i : S512x640.Idx) :
    View.canon (L5 x0 x1 x2 x3 x4) i = G1 x0 x1 x2 x3 x4 i := by
  refine View.canon_apply_of_pieces (G1 x0 x1 x2 x3 x4) (L5 x0 x1 x2 x3 x4) ?_ i
    (View.cover_of_tiledL (L5 x0 x1 x2 x3 x4) S512x128.size (by sl_kernel_rfl) i)
  intro p hp
  simp only [L5, List.mem_cons, List.mem_nil_iff, or_false] at hp
  rcases hp with rfl | rfl | rfl | rfl | rfl
  exacts [agree2_4 x0 x1 x2 x3 x4, agree2_3 x0 x1 x2 x3 x4, agree2_2 x0 x1 x2 x3 x4, agree2_1 x0 x1 x2 x3 x4, agree2_0 x0 x1 x2 x3 x4]

/-- The whole second scratch buffer as the dense layers load it. -/
def kw5 (x0 : Vec Ideal S512x1024 .bf16) (x1 : Vec Ideal S256x1024 .bf16) (x2 : Vec Ideal S1x128 .f32) (x3 : Vec Ideal S768x512 .bf16) (x4 : Vec Ideal S1x128 .f32) : Vec Ideal S512x640 .bf16 :=
  fun j => View.canon (L5 x0 x1 x2 x3 x4)
    ((Rect.unit (s := S512x640) ![0, 0] S512x640.size Facts₀.inb_S512x640_S512x640_0_0).toLoadRect.idx j)

theorem kw5_apply (x0 : Vec Ideal S512x1024 .bf16) (x1 : Vec Ideal S256x1024 .bf16) (x2 : Vec Ideal S1x128 .f32) (x3 : Vec Ideal S768x512 .bf16) (x4 : Vec Ideal S1x128 .f32) (r : Fin 512) (k : Fin 640) :
    kw5 x0 x1 x2 x3 x4 (ix2 r k) = P2 (A1 x0 x1 r) x2 x3 x4 k := by
  show View.canon (L5 x0 x1 x2 x3 x4) _ = _
  rw [idx_cols (a := 512) (b := 640) (d := 640) 0 (by norm_num) _ r k, canon_L5]
  show P2 (A1 x0 x1 r) x2 x3 x4 ⟨0 + k.val, _⟩ = _
  exact congrArg _ (Fin.ext (Nat.zero_add _))

/-- The block the body stores, as one term of the eleven input blocks. -/
def KB (x0 : Vec Ideal S512x1024 .bf16) (x1 : Vec Ideal S256x1024 .bf16) (x2 : Vec Ideal S1x128 .f32) (x3 : Vec Ideal S768x512 .bf16) (x4 : Vec Ideal S1x128 .f32) (x5 : Vec Ideal S640x120 .bf16) (x6 : Vec Ideal S1x120 .f32) (x7 : Vec Ideal S120x84 .bf16) (x8 : Vec Ideal S1x84 .f32) (x9 : Vec Ideal S84x128 .bf16) (x10 : Vec Ideal S1x128 .f32) : FVec Ideal S512x128 .f32 :=
  k0_pay39 (kw5 x0 x1 x2 x3 x4) x5 x6 x7 x8 x9 x10

/-- The stored block at batch row `r`, lane `j`: the specification's output row. -/
theorem KB_apply (x0 : Vec Ideal S512x1024 .bf16) (x1 : Vec Ideal S256x1024 .bf16) (x2 : Vec Ideal S1x128 .f32) (x3 : Vec Ideal S768x512 .bf16) (x4 : Vec Ideal S1x128 .f32) (x5 : Vec Ideal S640x120 .bf16) (x6 : Vec Ideal S1x120 .f32) (x7 : Vec Ideal S120x84 .bf16) (x8 : Vec Ideal S1x84 .f32) (x9 : Vec Ideal S84x128 .bf16) (x10 : Vec Ideal S1x128 .f32) (r : Fin 512) (j : Fin 128) :
    KB x0 x1 x2 x3 x4 x5 x6 x7 x8 x9 x10 (ix2 r j) = Y (A1 x0 x1 r) x2 x3 x4 x5 x6 x7 x8 x9 x10 j := by
  simp only [KB, k0_pay39, shapeCast_self, truncf_apply, maximumf_apply, addf_apply,
    broadcast_apply, broadcastTo_1b_ab_apply,
    matmul_plain_zero_apply dot_S512x640_S640x120_S512x120_1_0_0_1_n_n rfl,
    matmul_plain_zero_apply dot_S512x120_S120x84_S512x84_1_0_0_1_n_n rfl,
    matmul_plain_zero_apply dot_S512x84_S84x128_S512x128_1_0_0_1_n_n rfl, kw5_apply]
  rfl

end Cert.KernelIdeal.Net

end
-- ==== Proof.KRun.lean ====
/-
  The kernel body's stored block, named.

  The body's run leaves one store in the output's staging buffer. Its payload reads the second scratch buffer after the
  five stores into it, each of which reads the first scratch buffer after the fourteen stores into it; a load of a
  buffer after stores reads the stores' canonical contents through the load's rectangle. So the stored block is the term
  `KB` of the eleven input blocks.
-/
import proofs.«166270_g2000206983916426_pallasbulk_172_2_alg».proof.Proof.Gen.KernelIdeal.Frame
import proofs.«166270_g2000206983916426_pallasbulk_172_2_alg».proof.Proof.KScratch1
set_option maxRecDepth 16384

noncomputable section

open scoped BigOperators
open Idealize.ShloMosaic Idealize.ShloMosaic.TcCoe Idealize.SL.Sem Idealize.ShloMosaic.ValueIdx

namespace Cert.KernelIdeal.Net
open Cert.KernelIdeal Cert.KernelIdeal.Gen Cert.LeNet Cert.KernelIdeal.Facts₀ Idealize.ShloMosaic.Tactic

theorem hz : (![0, 0] : Fin 2 → Nat) = fun _ => 0 := funext fun a => by fin_cases a <;> rfl

/-- What the body leaves in the output's staging buffer, on any staging memrefs, is `KB` of the input blocks. -/
theorem out_eq (c : Dev nD) (i : grid0.Coords) (arg1 : Memref sig .tc .vmem S512x1024 .bf16) (harg1 : arg1.IsWhole) (arg2 : Memref sig .tc .vmem S256x1024 .bf16) (harg2 : arg2.IsWhole) (arg3 : Memref sig .tc .vmem S1x128 .f32) (harg3 : arg3.IsWhole) (arg4 : Memref sig .tc .vmem S768x512 .bf16) (harg4 : arg4.IsWhole) (arg5 : Memref sig .tc .vmem S1x128 .f32) (harg5 : arg5.IsWhole) (arg6 : Memref sig .tc .vmem S640x120 .bf16) (harg6 : arg6.IsWhole) (arg7 : Memref sig .tc .vmem S1x120 .f32) (harg7 : arg7.IsWhole) (arg8 : Memref sig .tc .vmem S120x84 .bf16) (harg8 : arg8.IsWhole) (arg9 : Memref sig .tc .vmem S1x84 .f32) (harg9 : arg9.IsWhole) (arg10 : Memref sig .tc .vmem S84x128 .bf16) (harg10 : arg10.IsWhole) (arg11 : Memref sig .tc .vmem S1x128 .f32) (harg11 : arg11.IsWhole) (arg12 : Memref sig .tc .vmem S512x128 .f32) (harg12 : arg12.IsWhole) (arg13 : Memref sig .tc .vmem S512x1792 .bf16) (harg13 : arg13.IsWhole) (arg14 : Memref sig .tc .vmem S512x640 .bf16) (harg14 : arg14.IsWhole)
    (x0 : Vec Ideal S512x1024 .bf16) (x1 : Vec Ideal S256x1024 .bf16) (x2 : Vec Ideal S1x128 .f32) (x3 : Vec Ideal S768x512 .bf16) (x4 : Vec Ideal S1x128 .f32) (x5 : Vec Ideal S640x120 .bf16) (x6 : Vec Ideal S1x120 .f32) (x7 : Vec Ideal S120x84 .bf16) (x8 : Vec Ideal S1x84 .f32) (x9 : Vec Ideal S84x128 .bf16) (x10 : Vec Ideal S1x128 .f32) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 = KB x0 x1 x2 x3 x4 x5 x6 x7 x8 x9 x10 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10)]
  unfold kernelRun0_A
  dsimp only
  sl_unfold_words
  rw [View.canon_unit_zero (S := S512x128) hz]
  simp only [View.readAt_eq_ld, harg1.read_unread, harg2.read_unread, harg3.read_unread, harg4.read_unread, harg5.read_unread, harg6.read_unread, harg7.read_unread, harg8.read_unread, harg9.read_unread, harg10.read_unread, harg11.read_unread,
    View.ld_unit_zero (S := S512x1024) hz, View.ld_unit_zero (S := S256x1024) hz, View.ld_unit_zero (S := S1x128) hz, View.ld_unit_zero (S := S768x512) hz, View.ld_unit_zero (S := S640x120) hz, View.ld_unit_zero (S := S1x120) hz, View.ld_unit_zero (S := S120x84) hz, View.ld_unit_zero (S := S1x84) hz, View.ld_unit_zero (S := S84x128) hz, View.readCov_eq_canon']
  rfl

end Cert.KernelIdeal.Net

end
-- ==== Proof.Result.lean ====
/-
  The whole result, row by row.

  Both programs apply the one-row network to every row of the [8192, 1024] matrix of padded pictures: entry (b, j) of the
  [8192, 128] result is the network's output lane `j` for row `b`. The first convolution's products enter as a function
  `conv` of the row (the kernel's paired form or the reference's), and the two agree by the pairing law.
-/
import proofs.«166270_g2000206983916426_pallasbulk_172_2_alg».proof.Proof.SpecLaws

noncomputable section

namespace Cert.LeNet

open Idealize.ShloMosaic Idealize.ShloMosaic.ValueIdx

/-- The [8192, 128] result: the network's output row for each row of the picture matrix `X`. -/
def Rows (conv : (Fin 1024 → EReal) → Fin 14 → Fin 512 → EReal) (X : Mat 8192 1024) (b1 : Mat 1 128) (a2 : Mat 768 512)
    (b2 : Mat 1 128) (w1 : Mat 640 120) (c1 : Mat 1 120) (w2 : Mat 120 84) (c2 : Mat 1 84) (w3 : Mat 84 128) (c3 : Mat 1 128) :
    Mat 8192 128 :=
  fun i => Y (conv (fun n => X (ix2 (i 0) n))) b1 a2 b2 w1 c1 w2 c2 w3 c3 (i 1)

/-- With the paired band built from the band, the kernel's form of the result is the reference's. -/
theorem Rows_pair {a1 : Mat 192 512} {a1p : Mat 256 1024} (h : Paired a1 a1p) (X : Mat 8192 1024) (b1 : Mat 1 128)
    (a2 : Mat 768 512) (b2 : Mat 1 128) (w1 : Mat 640 120) (c1 : Mat 1 120) (w2 : Mat 120 84) (c2 : Mat 1 84) (w3 : Mat 84 128)
    (c3 : Mat 1 128) :
    Rows (fun x => conv1p x a1p) X b1 a2 b2 w1 c1 w2 c2 w3 c3 = Rows (fun x => conv1 x a1) X b1 a2 b2 w1 c1 w2 c2 w3 c3 := by
  have e : (fun x : Fin 1024 → EReal => conv1p x a1p) = fun x => conv1 x a1 :=
    funext fun x => funext fun yo => funext fun j => conv1_pair h x yo j
  rw [e]

end Cert.LeNet

end
-- ==== Proof.KValue.lean ====
/-
  The kernel's result array.

  At grid point `t` the picture window holds rows 512 * t .. 512 * t + 511 of the picture matrix, every other input
  window holds its whole array, and the output block goes to the same rows of the result. The stored block is, row by
  row, the one-row network of the picture rows; the sixteen blocks tile the result, so after the run the result array is
  the network applied to every row of the picture matrix.
-/
import proofs.«166270_g2000206983916426_pallasbulk_172_2_alg».proof.Proof.KRun
import proofs.«166270_g2000206983916426_pallasbulk_172_2_alg».proof.Proof.Result
set_option maxRecDepth 16384

noncomputable section

open scoped BigOperators
open Idealize.ShloMosaic Idealize.ShloMosaic.TcCoe Idealize.SL.Sem Idealize.ShloMosaic.ValueIdx

namespace Cert.KernelIdeal.Net
open Cert.KernelIdeal Cert.KernelIdeal.Gen Cert.LeNet Cert.KernelIdeal.Facts₀
open Idealize.ShloMosaic.Pipeline (Dat)

variable (m : (ℓ : Loc nD τ sig) → Buf (Elt Ideal) ℓ) (ρ : Dev nD → PrngReg)

/-- The printed index maps, decided over the grid: the picture window and the output window are at block row `t`, every
    other window at its one block. -/
theorem idx_facts : ∀ t : Fin cfg0.N, win0_0.index t (0 : Fin 2) = t.val
    ∧ win0_0.index t (1 : Fin 2) = 0
    ∧ win0_11.index t (0 : Fin 2) = t.val
    ∧ win0_11.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0 :=
  (by decide +kernel : ∀ t : Fin grid0.N, _)

theorem t_lt (t : Fin cfg0.N) : t.val < 16 := Nat.lt_of_lt_of_eq t.isLt N_0

/-- Window 1's block is its whole array. -/
theorem iblk_1_eq (c : Dev nD) (t : Fin cfg0.N) :
    (iblk m c 1 t : Vec Ideal S256x1024 .bf16) = V m c main_v6 := by
  obtain ⟨e0a, e0b, eoa, eob, e1a, e1b, e2a, e2b, e3a, e3b, e4a, e4b, e5a, e5b, e6a, e6b, e7a, e7b, e8a, e8b, e9a, e9b, e10a, e10b⟩ := idx_facts t
  funext y
  unfold iblk
  rw [View.read_apply]
  show V m c main_v6 _ = V m c main_v6 y
  congr 1
  funext a
  apply Fin.ext
  match a with
  | ⟨0, _⟩ => show win0_1.index t (0 : Fin 2) * 256 + 1 * (y 0).val = (y 0).val; rw [e1a]; omega
  | ⟨1, _⟩ => show win0_1.index t (1 : Fin 2) * 1024 + 1 * (y 1).val = (y 1).val; rw [e1b]; omega

/-- Window 2's block is its whole array. -/
theorem iblk_2_eq (c : Dev nD) (t : Fin cfg0.N) :
    (iblk m c 2 t : Vec Ideal S1x128 .f32) = V m c main_arg2 := by
  obtain ⟨e0a, e0b, eoa, eob, e1a, e1b, e2a, e2b, e3a, e3b, e4a, e4b, e5a, e5b, e6a, e6b, e7a, e7b, e8a, e8b, e9a, e9b, e10a, e10b⟩ := idx_facts t
  funext y
  unfold iblk
  rw [View.read_apply]
  show V m c main_arg2 _ = V m c main_arg2 y
  congr 1
  funext a
  apply Fin.ext
  match a with
  | ⟨0, _⟩ => show win0_2.index t (0 : Fin 2) * 1 + 1 * (y 0).val = (y 0).val; rw [e2a]; omega
  | ⟨1, _⟩ => show win0_2.index t (1 : Fin 2) * 128 + 1 * (y 1).val = (y 1).val; rw [e2b]; omega

/-- Window 3's block is its whole array. -/
theorem iblk_3_eq (c : Dev nD) (t : Fin cfg0.N) :
    (iblk m c 3 t : Vec Ideal S768x512 .bf16) = V m c main_arg3 := by
  obtain ⟨e0a, e0b, eoa, eob, e1a, e1b, e2a, e2b, e3a, e3b, e4a, e4b, e5a, e5b, e6a, e6b, e7a, e7b, e8a, e8b, e9a, e9b, e10a, e10b⟩ := idx_facts t
  funext y
  unfold iblk
  rw [View.read_apply]
  show V m c main_arg3 _ = V m c main_arg3 y
  congr 1
  funext a
  apply Fin.ext
  match a with
  | ⟨0, _⟩ => show win0_3.index t (0 : Fin 2) * 768 + 1 * (y 0).val = (y 0).val; rw [e3a]; omega
  | ⟨1, _⟩ => show win0_3.index t (1 : Fin 2) * 512 + 1 * (y 1).val = (y 1).val; rw [e3b]; omega

/-- Window 4's block is its whole array. -/
theorem iblk_4_eq (c : Dev nD) (t : Fin cfg0.N) :
    (iblk m c 4 t : Vec Ideal S1x128 .f32) = V m c main_arg4 := by
  obtain ⟨e0a, e0b, eoa, eob, e1a, e1b, e2a, e2b, e3a, e3b, e4a, e4b, e5a, e5b, e6a, e6b, e7a, e7b, e8a, e8b, e9a, e9b, e10a, e10b⟩ := idx_facts t
  funext y
  unfold iblk
  rw [View.read_apply]
  show V m c main_arg4 _ = V m c main_arg4 y
  congr 1
  funext a
  apply Fin.ext
  match a with
  | ⟨0, _⟩ => show win0_4.index t (0 : Fin 2) * 1 + 1 * (y 0).val = (y 0).val; rw [e4a]; omega
  | ⟨1, _⟩ => show win0_4.index t (1 : Fin 2) * 128 + 1 * (y 1).val = (y 1).val; rw [e4b]; omega

/-- Window 5's block is its whole array. -/
theorem iblk_5_eq (c : Dev nD) (t : Fin cfg0.N) :
    (iblk m c 5 t : Vec Ideal S640x120 .bf16) = V m c main_arg5 := by
  obtain ⟨e0a, e0b, eoa, eob, e1a, e1b, e2a, e2b, e3a, e3b, e4a, e4b, e5a, e5b, e6a, e6b, e7a, e7b, e8a, e8b, e9a, e9b, e10a, e10b⟩ := idx_facts t
  funext y
  unfold iblk
  rw [View.read_apply]
  show V m c main_arg5 _ = V m c main_arg5 y
  congr 1
  funext a
  apply Fin.ext
  match a with
  | ⟨0, _⟩ => show win0_5.index t (0 : Fin 2) * 640 + 1 * (y 0).val = (y 0).val; rw [e5a]; omega
  | ⟨1, _⟩ => show win0_5.index t (1 : Fin 2) * 120 + 1 * (y 1).val = (y 1).val; rw [e5b]; omega

/-- Window 6's block is its whole array. -/
theorem iblk_6_eq (c : Dev nD) (t : Fin cfg0.N) :
    (iblk m c 6 t : Vec Ideal S1x120 .f32) = V m c main_arg6 := by
  obtain ⟨e0a, e0b, eoa, eob, e1a, e1b, e2a, e2b, e3a, e3b, e4a, e4b, e5a, e5b, e6a, e6b, e7a, e7b, e8a, e8b, e9a, e9b, e10a, e10b⟩ := idx_facts t
  funext y
  unfold iblk
  rw [View.read_apply]
  show V m c main_arg6 _ = V m c main_arg6 y
  congr 1
  funext a
  apply Fin.ext
  match a with
  | ⟨0, _⟩ => show win0_6.index t (0 : Fin 2) * 1 + 1 * (y 0).val = (y 0).val; rw [e6a]; omega
  | ⟨1, _⟩ => show win0_6.index t (1 : Fin 2) * 120 + 1 * (y 1).val = (y 1).val; rw [e6b]; omega

/-- Window 7's block is its whole array. -/
theorem iblk_7_eq (c : Dev nD) (t : Fin cfg0.N) :
    (iblk m c 7 t : Vec Ideal S120x84 .bf16) = V m c main_arg7 := by
  obtain ⟨e0a, e0b, eoa, eob, e1a, e1b, e2a, e2b, e3a, e3b, e4a, e4b, e5a, e5b, e6a, e6b, e7a, e7b, e8a, e8b, e9a, e9b, e10a, e10b⟩ := idx_facts t
  funext y
  unfold iblk
  rw [View.read_apply]
  show V m c main_arg7 _ = V m c main_arg7 y
  congr 1
  funext a
  apply Fin.ext
  match a with
  | ⟨0, _⟩ => show win0_7.index t (0 : Fin 2) * 120 + 1 * (y 0).val = (y 0).val; rw [e7a]; omega
  | ⟨1, _⟩ => show win0_7.index t (1 : Fin 2) * 84 + 1 * (y 1).val = (y 1).val; rw [e7b]; omega

/-- Window 8's block is its whole array. -/
theorem iblk_8_eq (c : Dev nD) (t : Fin cfg0.N) :
    (iblk m c 8 t : Vec Ideal S1x84 .f32) = V m c main_arg8 := by
  obtain ⟨e0a, e0b, eoa, eob, e1a, e1b, e2a, e2b, e3a, e3b, e4a, e4b, e5a, e5b, e6a, e6b, e7a, e7b, e8a, e8b, e9a, e9b, e10a, e10b⟩ := idx_facts t
  funext y
  unfold iblk
  rw [View.read_apply]
  show V m c main_arg8 _ = V m c main_arg8 y
  congr 1
  funext a
  apply Fin.ext
  match a with
  | ⟨0, _⟩ => show win0_8.index t (0 : Fin 2) * 1 + 1 * (y 0).val = (y 0).val; rw [e8a]; omega
  | ⟨1, _⟩ => show win0_8.index t (1 : Fin 2) * 84 + 1 * (y 1).val = (y 1).val; rw [e8b]; omega

/-- Window 9's block is its whole array. -/
theorem iblk_9_eq (c : Dev nD) (t : Fin cfg0.N) :
    (iblk m c 9 t : Vec Ideal S84x128 .bf16) = V m c main_arg9 := by
  obtain ⟨e0a, e0b, eoa, eob, e1a, e1b, e2a, e2b, e3a, e3b, e4a, e4b, e5a, e5b, e6a, e6b, e7a, e7b, e8a, e8b, e9a, e9b, e10a, e10b⟩ := idx_facts t
  funext y
  unfold iblk
  rw [View.read_apply]
  show V m c main_arg9 _ = V m c main_arg9 y
  congr 1
  funext a
  apply Fin.ext
  match a with
  | ⟨0, _⟩ => show win0_9.index t (0 : Fin 2) * 84 + 1 * (y 0).val = (y 0).val; rw [e9a]; omega
  | ⟨1, _⟩ => show win0_9.index t (1 : Fin 2) * 128 + 1 * (y 1).val = (y 1).val; rw [e9b]; omega

/-- Window 10's block is its whole array. -/
theorem iblk_10_eq (c : Dev nD) (t : Fin cfg0.N) :
    (iblk m c 10 t : Vec Ideal S1x128 .f32) = V m c main_arg10 := by
  obtain ⟨e0a, e0b, eoa, eob, e1a, e1b, e2a, e2b, e3a, e3b, e4a, e4b, e5a, e5b, e6a, e6b, e7a, e7b, e8a, e8b, e9a, e9b, e10a, e10b⟩ := idx_facts t
  funext y
  unfold iblk
  rw [View.read_apply]
  show V m c main_arg10 _ = V m c main_arg10 y
  congr 1
  funext a
  apply Fin.ext
  match a with
  | ⟨0, _⟩ => show win0_10.index t (0 : Fin 2) * 1 + 1 * (y 0).val = (y 0).val; rw [e10a]; omega
  | ⟨1, _⟩ => show win0_10.index t (1 : Fin 2) * 128 + 1 * (y 1).val = (y 1).val; rw [e10b]; omega

/-- The picture window's block at point `t` is rows 512 * t .. 512 * t + 511 of the picture matrix. -/
theorem iblk_0_apply (c : Dev nD) (t : Fin cfg0.N) (r : Fin 512) (n : Fin 1024) :
    (iblk m c 0 t : Vec Ideal S512x1024 .bf16) (ix2 r n)
      = (V m c main_v3 : S8192x1024.Idx → EReal) (ix2 ⟨512 * t.val + r.val, by have := t_lt t; have := r.isLt; omega⟩ n) := by
  obtain ⟨e0a, e0b, eoa, eob, e1a, e1b, e2a, e2b, e3a, e3b, e4a, e4b, e5a, e5b, e6a, e6b, e7a, e7b, e8a, e8b, e9a, e9b, e10a, e10b⟩ := idx_facts t
  unfold iblk
  rw [View.read_apply]
  show V m c main_v3 _ = V m c main_v3 _
  congr 1
  funext a
  apply Fin.ext
  match a with
  | ⟨0, _⟩ => show win0_0.index t (0 : Fin 2) * 512 + 1 * r.val = 512 * t.val + r.val; rw [e0a]; omega
  | ⟨1, _⟩ => show win0_0.index t (1 : Fin 2) * 1024 + 1 * n.val = n.val; rw [e0b]; omega

/-- The output window's block at point `t` sits at rows 512 * t .. 512 * t + 511 of the result. -/
theorem emb_11_apply (t : Fin cfg0.N) (r : Fin 512) (l : Fin 128) :
    ((cfg0.win 11).blk t).view.emb (ix2 r l)
      = (ix2 ⟨512 * t.val + r.val, by have := t_lt t; have := r.isLt; omega⟩ l : S8192x128.Idx) := by
  obtain ⟨e0a, e0b, eoa, eob, e1a, e1b, e2a, e2b, e3a, e3b, e4a, e4b, e5a, e5b, e6a, e6b, e7a, e7b, e8a, e8b, e9a, e9b, e10a, e10b⟩ := idx_facts t
  funext a
  apply Fin.ext
  match a with
  | ⟨0, _⟩ => show win0_11.index t (0 : Fin 2) * 512 + 1 * r.val = 512 * t.val + r.val; rw [eoa]; omega
  | ⟨1, _⟩ => show win0_11.index t (1 : Fin 2) * 128 + 1 * l.val = l.val; rw [eob]; omega

/-- The result array as the region's arrays determine it. -/
abbrev Res (c : Dev nD) : S8192x128.Idx → EReal :=
  Rows (fun x => conv1p x (V m c main_v6)) (V m c main_v3) (V m c main_arg2) (V m c main_arg3) (V m c main_arg4) (V m c main_arg5) (V m c main_arg6) (V m c main_arg7) (V m c main_arg8) (V m c main_arg9) (V m c main_arg10)

/-- What point `t` writes back is block `t` of the result. -/
theorem flushed_eq (c : Dev nD) (t : Fin cfg0.N) :
    (dats m 0 c).flushed 11 t = ((cfg0.win 11).blk t).view.read (Elt Ideal) (Res m c) := by
  show (cfg0.win 11).cut (grid0.coords t) ((dats m 0 c).after 11 t) = _
  rw [after0_11]
  unfold outsAt0
  rw [out_eq]
  funext j
  obtain ⟨r, l, rfl⟩ : ∃ (r : Fin 512) (l : Fin 128), j = ix2 r l := ⟨j 0, j 1, eq_ix2 j⟩
  show KB (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r l) = Res m c (((cfg0.win 11).blk t).view.emb (ix2 r l))
  rw [KB_apply, emb_11_apply t r l, iblk_1_eq m c t, iblk_2_eq m c t, iblk_3_eq m c t, iblk_4_eq m c t, iblk_5_eq m c t, iblk_6_eq m c t, iblk_7_eq m c t, iblk_8_eq m c t, iblk_9_eq m c t, iblk_10_eq m c t]
  have hrow : (fun n => (iblk m c 0 t : Vec Ideal S512x1024 .bf16) (ix2 r n))
      = fun n => (V m c main_v3 : S8192x1024.Idx → EReal) (ix2 ⟨512 * t.val + r.val, by have := t_lt t; have := r.isLt; omega⟩ n) :=
    funext fun n => iblk_0_apply m c t r n
  show Y (conv1p (fun n => (iblk m c 0 t : Vec Ideal S512x1024 .bf16) (ix2 r n)) (V m c main_v6)) _ _ _ _ _ _ _ _ _ l = _
  rw [hrow]
  rfl

/-- An index of the result is in point `t`'s block iff its row is in the block's range. -/
theorem mem_blk (t : Fin cfg0.N) (i : S8192x128.Idx) :
    i ∈ ((cfg0.win 11).blk t).view.set ↔ ∀ a : Fin 2, win0_11.index t a * S512x128.size a ≤ (i a).val ∧ (i a).val < win0_11.index t a * S512x128.size a + S512x128.size a := by
  show i ∈ ((View.whole main_v7).slice (win0_11.rect t)).set ↔ _
  rw [View.set_slice_whole, Rect.mem_set_unit]
  exact Iff.rfl

/-- Every row of the result is in some point's block: row `b` in point `b / 512`'s. -/
theorem covered (i : S8192x128.Idx) :
    ∃ t : Fin cfg0.N, (cfg0.win 11).flush t = true ∧ i ∈ ((cfg0.win 11).blk t).view.set := by
  have hi0 : (i 0).val < 8192 := (i 0).isLt
  have hi1 : (i 1).val < 128 := (i 1).isLt
  have hN : cfg0.N = 16 := N_0
  let t : Fin cfg0.N := ⟨(i 0).val / 512, by rw [hN]; omega⟩
  obtain ⟨e0a, e0b, eoa, eob, e1a, e1b, e2a, e2b, e3a, e3b, e4a, e4b, e5a, e5b, e6a, e6b, e7a, e7b, e8a, e8b, e9a, e9b, e10a, e10b⟩ := idx_facts t
  refine ⟨t, flush0_11 t, ?_⟩
  rw [mem_blk]
  intro a
  match a with
  | ⟨0, _⟩ => show win0_11.index t (0 : Fin 2) * 512 ≤ (i 0).val ∧ (i 0).val < win0_11.index t (0 : Fin 2) * 512 + 512
              rw [eoa]; show (i 0).val / 512 * 512 ≤ (i 0).val ∧ (i 0).val < (i 0).val / 512 * 512 + 512; omega
  | ⟨1, _⟩ => show win0_11.index t (1 : Fin 2) * 128 ≤ (i 1).val ∧ (i 1).val < win0_11.index t (1 : Fin 2) * 128 + 128
              rw [eob]; omega

/-- The result array after the run. -/
theorem final (c : Dev nD) : (dats m 0 c).arrAt 11 cfg0.N = Res m c :=
  (dats m 0 c).arrAt_eq_of_cover 11 (Res m c) (fun t _ => flushed_eq m c t) (covered)

end Cert.KernelIdeal.Net

end
-- ==== Proof.KHost.lean ====
/-
  The kernel program around its region, and its run.

  Before the region the host pads each 28 x 28 picture with two zeros on every side and flattens it to a row of 1024
  (the picture matrix), and builds the paired band: the band over 64 rows of zeros beside 64 rows of zeros over the band.
  After the region it keeps the first ten lanes of every result row. The padding word is the integer 0 converted, which
  is the number 0; so the paired band is `Paired` with the band and the pairing law applies: the kernel's result is the
  reference's form of the network, applied to every picture.
-/
import proofs.«166270_g2000206983916426_pallasbulk_172_2_alg».proof.Proof.KValue
import Idealize.ShloMosaic.Lib.KernelVsHost
import Idealize.ShloMosaic.Lib.StableHlo.Run
set_option maxRecDepth 16384

noncomputable section

open scoped BigOperators
open Idealize.ShloMosaic Idealize.ShloMosaic.TcCoe Idealize.SL.Sem Idealize.ShloMosaic.ValueIdx

namespace Cert.KernelIdeal.Net
open Cert.KernelIdeal Cert.KernelIdeal.Gen Cert.LeNet Cert.KernelIdeal.Facts₀ Idealize.ShloMosaic.Tactic
open Idealize.ShloMosaic.Pipeline (Dat)

/-- The picture matrix: every picture zero-padded to 32 x 32 and flattened. -/
def XF (X : FVec Ideal S8192x1x28x28 .f32) : FVec Ideal S8192x1024 .bf16 :=
  truncf .bf16 (shapeCast S8192x1024 (pad S8192x32x32 ![0, 2, 2] ![0, 2, 2] ![0, 0, 0]
    (shapeCast S8192x28x28 X Facts₀.shapeCasts_S8192x1x28x28_S8192x28x28) (sitofp (F := Ideal) .f32 (constantI S_ 32 0#32))
    Facts₀.pads_S8192x28x28_S8192x32x32_000_220_220 Facts₀.h_S_) Facts₀.shapeCasts_S8192x32x32_S8192x1024) Facts₀.bitsLt_bf16_f32

/-- The paired band as the host builds it. -/
def A1P (a1 : FVec Ideal S192x512 .bf16) : FVec Ideal S256x1024 .bf16 :=
  concatenate S256x1024 1
    [⟨S256x512, pad S256x512 ![0, 0] ![64, 0] ![0, 0] a1 (sitofp (F := Ideal) .bf16 (constantI S_ 32 0#32))
        Facts₀.pads_S192x512_S256x512_0640_000 Facts₀.h_S_⟩,
     ⟨S256x512, pad S256x512 ![64, 0] ![0, 0] ![0, 0] a1 (sitofp (F := Ideal) .bf16 (constantI S_ 32 0#32))
        Facts₀.pads_S192x512_S256x512_6400_000 Facts₀.h_S_⟩]
    Facts₀.concatenates_S256x512_S256x512_S256x1024_d1

/-- The padding word: the integer 0 converted is the number 0. -/
theorem pad_zero : (sitofp (F := Ideal) .bf16 (constantI S_ 32 0#32) : FVec Ideal S_ .bf16) (Shape.Idx.first Facts₀.h_S_) = 0 := by
  show (((0#32 : BitVec 32).toInt : ℝ) : EReal) = 0
  simp

/-- The host's paired band is the band over zeros beside zeros over the band. -/
theorem paired (a1 : FVec Ideal S192x512 .bf16) : Paired a1 (A1P a1) where
  left_top k j' k0 j0 hk hj := by
    unfold A1P
    refine (concatenate_pair_apply_left (t := S256x1024) (s₁ := S256x512) (s₂ := S256x512) (1 : Fin 2) _ _ _ (ix2 k j') rfl
      (ix2 k j0) (fun b => by match b with | ⟨0, _⟩ => rfl | ⟨1, _⟩ => exact hj.symm)).trans ?_
    exact pad_apply_of_inside _ _ _ a1 _ _ _ (ix2 k j0) (ix2 k0 j0) (fun a => by
      match a with
      | ⟨0, _⟩ => show k.val = 0 + k0.val * (0 + 1); omega
      | ⟨1, _⟩ => show j0.val = 0 + j0.val * (0 + 1); omega)
  left_bot k j' hk hj := by
    unfold A1P
    refine (concatenate_pair_apply_left (t := S256x1024) (s₁ := S256x512) (s₂ := S256x512) (1 : Fin 2) _ _ _ (ix2 k j') rfl
      (ix2 k (⟨j'.val, hj⟩ : Fin 512)) (fun b => by match b with | ⟨0, _⟩ => rfl | ⟨1, _⟩ => rfl)).trans ?_
    refine (pad_apply_of_not_inside _ _ _ a1 _ _ _ (ix2 k (⟨j'.val, hj⟩ : Fin 512)) (0 : Fin 2) (fun h => by
      have h3 : (k.val - 0) / (0 + 1) < 192 := h.2.2
      omega)).trans ?_
    exact pad_zero
  right_top k j' hk hj := by
    unfold A1P
    refine (concatenate_pair_apply_right (t := S256x1024) (s₁ := S256x512) (s₂ := S256x512) (1 : Fin 2) _ _ _ (ix2 k j') rfl rfl
      (ix2 k (⟨j'.val - 512, by have := j'.isLt; omega⟩ : Fin 512))
      (fun b hb => by match b with | ⟨0, _⟩ => rfl | ⟨1, _⟩ => exact absurd rfl hb)
      (by show j'.val - 512 + 512 = j'.val; omega)).trans ?_
    refine (pad_apply_of_not_inside _ _ _ a1 _ _ _ (ix2 k (⟨j'.val - 512, by have := j'.isLt; omega⟩ : Fin 512)) (0 : Fin 2) (fun h => by
      have h1 : 64 ≤ k.val := h.1
      omega)).trans ?_
    exact pad_zero
  right_bot k j' k0 j0 hk hj := by
    unfold A1P
    refine (concatenate_pair_apply_right (t := S256x1024) (s₁ := S256x512) (s₂ := S256x512) (1 : Fin 2) _ _ _ (ix2 k j') rfl rfl
      (ix2 k j0)
      (fun b hb => by match b with | ⟨0, _⟩ => rfl | ⟨1, _⟩ => exact absurd rfl hb)
      (by show j0.val + 512 = j'.val; omega)).trans ?_
    exact pad_apply_of_inside _ _ _ a1 _ _ _ (ix2 k j0) (ix2 k0 j0) (fun a => by
      match a with
      | ⟨0, _⟩ => show k.val = 64 + k0.val * (0 + 1); omega
      | ⟨1, _⟩ => show j0.val = 0 + j0.val * (0 + 1); omega)

variable (m : (ℓ : Loc nD τ sig) → Buf (Elt Ideal) ℓ) (ρ : Dev nD → PrngReg)

/-- The region finds the picture matrix in its first window's array. -/
theorem v3_eq (c : Dev nD) : (V m c main_v3 : FVec Ideal S8192x1024 .bf16) = XF (m ((c : Thread nD τ).loc main_arg0)) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- The region finds the paired band in its second window's array. -/
theorem v6_eq (c : Dev nD) : (V m c main_v6 : FVec Ideal S256x1024 .bf16) = A1P (m ((c : Thread nD τ).loc main_arg1)) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- The program's result: the first ten lanes of the network applied to every picture, in the reference's form. -/
def OutK (c : Dev nD) : FVec Ideal S8192x10 .f32 :=
  extractStridedSlice S8192x10 ![0, 0]
    (Rows (fun x => conv1 x (m ((c : Thread nD τ).loc main_arg1))) (XF (m ((c : Thread nD τ).loc main_arg0))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))
    Facts₀.slices_S8192x128_S8192x10_0_0

/-- The result array in the reference's form. -/
theorem Res_eq (c : Dev nD) :
    Res m c = Rows (fun x => conv1 x (m ((c : Thread nD τ).loc main_arg1))) (XF (m ((c : Thread nD τ).loc main_arg0))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  unfold Res
  rw [v3_eq, v6_eq, V_main_arg2, V_main_arg3, V_main_arg4, V_main_arg5, V_main_arg6, V_main_arg7, V_main_arg8, V_main_arg9, V_main_arg10]
  exact Rows_pair (paired _) _ _ _ _ _ _ _ _ _ _

/-- What the host line after the region leaves in the program's result. -/
theorem tail_eq (c : Dev nD) :
    (Pipeline.afterTail₀ cfgs (dats m) 0 (V0 m) [hostOps1] c main_v8 : FVec Ideal S8192x10 .f32) = OutK m c := by
  unfold Pipeline.afterTail₀
  show StableHlo.after hostOps1 _ (Proc.devRef .tc main_v8) = _
  after_results
  unfold OutK
  rw [← Res_eq m c, ← final m c]
  exact congrArg (fun R => extractStridedSlice S8192x10 ![0, 0] R Facts₀.slices_S8192x128_S8192x10_0_0)
    (Pipeline.withArrays_arr spec0 launch0.win.arr_inj c _ _ 11)

/-- The run, read: the program's result at `OutK`, its arguments unchanged. -/
theorem run : θ_run defs (onTc (τ := τ) (main (F := Ideal))) ⟨m, fun _ => 0, ρ⟩ (fun r => ∀ c : Dev nD,
      r.2.mem ((c.tc : Thread nD τ).loc main_v8) = OutK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_v8 (Pipeline.mem_restRefs_of main_v8 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c)))⟩)
    (run_main m ρ)

end Cert.KernelIdeal.Net

end
-- ==== Proof.RLayer1.lean ====
/-
  The reference's first layer, one image row at a time.

  The reference body forms fourteen products of a 192-long window of the picture (starting 64 * yo) with the band, and
  pools each. At batch row `r` and lane `l` pooled row `yo` is the pooled lane of the specification for the product
  `conv1` of that row of the picture block.
-/
import proofs.«166270_g2000206983916426_pallasbulk_172_2_alg».proof.Proof.Gen.ReferenceIdeal.Skeleton
import proofs.«166270_g2000206983916426_pallasbulk_172_2_alg».proof.Proof.Spec
import proofs.«166270_g2000206983916426_pallasbulk_172_2_alg».proof.Proof.LibMatmulPlain
import Idealize.ShloMosaic.Lib.Pipeline.Value
import Idealize.ShloMosaic.Lib.ValueLayout
set_option maxRecDepth 16384

noncomputable section

open scoped BigOperators
open Idealize.ShloMosaic Idealize.ShloMosaic.TcCoe Idealize.SL.Sem Idealize.ShloMosaic.ValueIdx

namespace Cert.ReferenceIdeal.Net
open Cert.ReferenceIdeal Cert.ReferenceIdeal.Gen Cert.LeNet Cert.LibMatmulPlain Cert.ReferenceIdeal.Facts₀

/-- The reference's fourteen first-layer products for batch row `r` of the picture block `x0`, against the band `x1`. -/
abbrev RA (x0 : Vec Ideal S128x1024 .bf16) (x1 : Vec Ideal S192x512 .bf16) (r : Fin 128) : Fin 14 → Fin 512 → EReal :=
  conv1 (fun n => x0 (ix2 r n)) x1

/-- Pooled row 0 of the first layer, as the reference body computes it (window 0). -/
def rp1_0 (x0 : Vec Ideal S128x1024 .bf16) (x1 : Vec Ideal S192x512 .bf16) (x2 : Vec Ideal S1x128 .f32) : FVec Ideal S128x128 .f32 :=
  k0_pay3 x0 x1 x2

theorem rp1_0_apply (x0 : Vec Ideal S128x1024 .bf16) (x1 : Vec Ideal S192x512 .bf16) (x2 : Vec Ideal S1x128 .f32) (r : Fin 128) (l : Fin 128) :
    rp1_0 x0 x1 x2 (ix2 r l) = pool (RA x0 x1 r ⟨0, by omega⟩) x2 l := by
  simp only [rp1_0, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, shapeCast_self, truncf_apply, maximumf_apply, addf_apply,
    broadcast_apply, broadcastTo_1b_ab_apply, slice2_axis1_eq,
    matmul_plain_zero_apply dot_S128x192_S192x512_S128x512_1_0_0_1_n_n rfl]
  rfl

/-- Pooled row 1 of the first layer, as the reference body computes it (window 64). -/
def rp1_1 (x0 : Vec Ideal S128x1024 .bf16) (x1 : Vec Ideal S192x512 .bf16) (x2 : Vec Ideal S1x128 .f32) : FVec Ideal S128x128 .f32 :=
  k0_pay4 x0 x1 x2

theorem rp1_1_apply (x0 : Vec Ideal S128x1024 .bf16) (x1 : Vec Ideal S192x512 .bf16) (x2 : Vec Ideal S1x128 .f32) (r : Fin 128) (l : Fin 128) :
    rp1_1 x0 x1 x2 (ix2 r l) = pool (RA x0 x1 r ⟨1, by omega⟩) x2 l := by
  simp only [rp1_1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, shapeCast_self, truncf_apply, maximumf_apply, addf_apply,
    broadcast_apply, broadcastTo_1b_ab_apply, slice2_axis1_eq,
    matmul_plain_zero_apply dot_S128x192_S192x512_S128x512_1_0_0_1_n_n rfl]
  rfl

/-- Pooled row 2 of the first layer, as the reference body computes it (window 128). -/
def rp1_2 (x0 : Vec Ideal S128x1024 .bf16) (x1 : Vec Ideal S192x512 .bf16) (x2 : Vec Ideal S1x128 .f32) : FVec Ideal S128x128 .f32 :=
  k0_pay6 (k0_pay5 x0 x1 x2) (Scalar.ofBits .f32 0x00000000#32)

theorem rp1_2_apply (x0 : Vec Ideal S128x1024 .bf16) (x1 : Vec Ideal S192x512 .bf16) (x2 : Vec Ideal S1x128 .f32) (r : Fin 128) (l : Fin 128) :
    rp1_2 x0 x1 x2 (ix2 r l) = pool (RA x0 x1 r ⟨2, by omega⟩) x2 l := by
  simp only [rp1_2, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, shapeCast_self, truncf_apply, maximumf_apply, addf_apply,
    broadcast_apply, broadcastTo_1b_ab_apply, slice2_axis1_eq,
    matmul_plain_zero_apply dot_S128x192_S192x512_S128x512_1_0_0_1_n_n rfl]
  rfl

/-- Pooled row 3 of the first layer, as the reference body computes it (window 192). -/
def rp1_3 (x0 : Vec Ideal S128x1024 .bf16) (x1 : Vec Ideal S192x512 .bf16) (x2 : Vec Ideal S1x128 .f32) : FVec Ideal S128x128 .f32 :=
  k0_pay7 (k0_pay2 x0) x1 x2

theorem rp1_3_apply (x0 : Vec Ideal S128x1024 .bf16) (x1 : Vec Ideal S192x512 .bf16) (x2 : Vec Ideal S1x128 .f32) (r : Fin 128) (l : Fin 128) :
    rp1_3 x0 x1 x2 (ix2 r l) = pool (RA x0 x1 r ⟨3, by omega⟩) x2 l := by
  simp only [rp1_3, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, shapeCast_self, truncf_apply, maximumf_apply, addf_apply,
    broadcast_apply, broadcastTo_1b_ab_apply, slice2_axis1_eq,
    matmul_plain_zero_apply dot_S128x192_S192x512_S128x512_1_0_0_1_n_n rfl]
  rfl

/-- Pooled row 4 of the first layer, as the reference body computes it (window 256). -/
def rp1_4 (x0 : Vec Ideal S128x1024 .bf16) (x1 : Vec Ideal S192x512 .bf16) (x2 : Vec Ideal S1x128 .f32) : FVec Ideal S128x128 .f32 :=
  k0_pay8 (k0_pay2 x0) x1 x2

theorem rp1_4_apply (x0 : Vec Ideal S128x1024 .bf16) (x1 : Vec Ideal S192x512 .bf16) (x2 : Vec Ideal S1x128 .f32) (r : Fin 128) (l : Fin 128) :
    rp1_4 x0 x1 x2 (ix2 r l) = pool (RA x0 x1 r ⟨4, by omega⟩) x2 l := by
  simp only [rp1_4, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, shapeCast_self, truncf_apply, maximumf_apply, addf_apply,
    broadcast_apply, broadcastTo_1b_ab_apply, slice2_axis1_eq,
    matmul_plain_zero_apply dot_S128x192_S192x512_S128x512_1_0_0_1_n_n rfl]
  rfl

/-- Pooled row 5 of the first layer, as the reference body computes it (window 320). -/
def rp1_5 (x0 : Vec Ideal S128x1024 .bf16) (x1 : Vec Ideal S192x512 .bf16) (x2 : Vec Ideal S1x128 .f32) : FVec Ideal S128x128 .f32 :=
  k0_pay9 (k0_pay2 x0) x1 x2

theorem rp1_5_apply (x0 : Vec Ideal S128x1024 .bf16) (x1 : Vec Ideal S192x512 .bf16) (x2 : Vec Ideal S1x128 .f32) (r : Fin 128) (l : Fin 128) :
    rp1_5 x0 x1 x2 (ix2 r l) = pool (RA x0 x1 r ⟨5, by omega⟩) x2 l := by
  simp only [rp1_5, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, shapeCast_self, truncf_apply, maximumf_apply, addf_apply,
    broadcast_apply, broadcastTo_1b_ab_apply, slice2_axis1_eq,
    matmul_plain_zero_apply dot_S128x192_S192x512_S128x512_1_0_0_1_n_n rfl]
  rfl

/-- Pooled row 6 of the first layer, as the reference body computes it (window 384). -/
def rp1_6 (x0 : Vec Ideal S128x1024 .bf16) (x1 : Vec Ideal S192x512 .bf16) (x2 : Vec Ideal S1x128 .f32) : FVec Ideal S128x128 .f32 :=
  k0_pay11 (k0_pay10 (k0_pay2 x0) x1 x2) (Scalar.ofBits .f32 0x00000000#32)

theorem rp1_6_apply (x0 : Vec Ideal S128x1024 .bf16) (x1 : Vec Ideal S192x512 .bf16) (x2 : Vec Ideal S1x128 .f32) (r : Fin 128) (l : Fin 128) :
    rp1_6 x0 x1 x2 (ix2 r l) = pool (RA x0 x1 r ⟨6, by omega⟩) x2 l := by
  simp only [rp1_6, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, shapeCast_self, truncf_apply, maximumf_apply, addf_apply,
    broadcast_apply, broadcastTo_1b_ab_apply, slice2_axis1_eq,
    matmul_plain_zero_apply dot_S128x192_S192x512_S128x512_1_0_0_1_n_n rfl]
  rfl

/-- Pooled row 7 of the first layer, as the reference body computes it (window 448). -/
def rp1_7 (x0 : Vec Ideal S128x1024 .bf16) (x1 : Vec Ideal S192x512 .bf16) (x2 : Vec Ideal S1x128 .f32) : FVec Ideal S128x128 .f32 :=
  k0_pay12 (k0_pay2 x0) x1 x2

theorem rp1_7_apply (x0 : Vec Ideal S128x1024 .bf16) (x1 : Vec Ideal S192x512 .bf16) (x2 : Vec Ideal S1x128 .f32) (r : Fin 128) (l : Fin 128) :
    rp1_7 x0 x1 x2 (ix2 r l) = pool (RA x0 x1 r ⟨7, by omega⟩) x2 l := by
  simp only [rp1_7, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, shapeCast_self, truncf_apply, maximumf_apply, addf_apply,
    broadcast_apply, broadcastTo_1b_ab_apply, slice2_axis1_eq,
    matmul_plain_zero_apply dot_S128x192_S192x512_S128x512_1_0_0_1_n_n rfl]
  rfl

/-- Pooled row 8 of the first layer, as the reference body computes it (window 512). -/
def rp1_8 (x0 : Vec Ideal S128x1024 .bf16) (x1 : Vec Ideal S192x512 .bf16) (x2 : Vec Ideal S1x128 .f32) : FVec Ideal S128x128 .f32 :=
  k0_pay13 (k0_pay2 x0) x1 x2

theorem rp1_8_apply (x0 : Vec Ideal S128x1024 .bf16) (x1 : Vec Ideal S192x512 .bf16) (x2 : Vec Ideal S1x128 .f32) (r : Fin 128) (l : Fin 128) :
    rp1_8 x0 x1 x2 (ix2 r l) = pool (RA x0 x1 r ⟨8, by omega⟩) x2 l := by
  simp only [rp1_8, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, shapeCast_self, truncf_apply, maximumf_apply, addf_apply,
    broadcast_apply, broadcastTo_1b_ab_apply, slice2_axis1_eq,
    matmul_plain_zero_apply dot_S128x192_S192x512_S128x512_1_0_0_1_n_n rfl]
  rfl

/-- Pooled row 9 of the first layer, as the reference body computes it (window 576). -/
def rp1_9 (x0 : Vec Ideal S128x1024 .bf16) (x1 : Vec Ideal S192x512 .bf16) (x2 : Vec Ideal S1x128 .f32) : FVec Ideal S128x128 .f32 :=
  k0_pay14 (k0_pay2 x0) x1 x2

theorem rp1_9_apply (x0 : Vec Ideal S128x1024 .bf16) (x1 : Vec Ideal S192x512 .bf16) (x2 : Vec Ideal S1x128 .f32) (r : Fin 128) (l : Fin 128) :
    rp1_9 x0 x1 x2 (ix2 r l) = pool (RA x0 x1 r ⟨9, by omega⟩) x2 l := by
  simp only [rp1_9, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, shapeCast_self, truncf_apply, maximumf_apply, addf_apply,
    broadcast_apply, broadcastTo_1b_ab_apply, slice2_axis1_eq,
    matmul_plain_zero_apply dot_S128x192_S192x512_S128x512_1_0_0_1_n_n rfl]
  rfl

/-- Pooled row 10 of the first layer, as the reference body computes it (window 640). -/
def rp1_10 (x0 : Vec Ideal S128x1024 .bf16) (x1 : Vec Ideal S192x512 .bf16) (x2 : Vec Ideal S1x128 .f32) : FVec Ideal S128x128 .f32 :=
  k0_pay16 (k0_pay15 (k0_pay2 x0) x1 x2) (Scalar.ofBits .f32 0x00000000#32)

theorem rp1_10_apply (x0 : Vec Ideal S128x1024 .bf16) (x1 : Vec Ideal S192x512 .bf16) (x2 : Vec Ideal S1x128 .f32) (r : Fin 128) (l : Fin 128) :
    rp1_10 x0 x1 x2 (ix2 r l) = pool (RA x0 x1 r ⟨10, by omega⟩) x2 l := by
  simp only [rp1_10, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, shapeCast_self, truncf_apply, maximumf_apply, addf_apply,
    broadcast_apply, broadcastTo_1b_ab_apply, slice2_axis1_eq,
    matmul_plain_zero_apply dot_S128x192_S192x512_S128x512_1_0_0_1_n_n rfl]
  rfl

/-- Pooled row 11 of the first layer, as the reference body computes it (window 704). -/
def rp1_11 (x0 : Vec Ideal S128x1024 .bf16) (x1 : Vec Ideal S192x512 .bf16) (x2 : Vec Ideal S1x128 .f32) : FVec Ideal S128x128 .f32 :=
  k0_pay17 (k0_pay2 x0) x1 x2

theorem rp1_11_apply (x0 : Vec Ideal S128x1024 .bf16) (x1 : Vec Ideal S192x512 .bf16) (x2 : Vec Ideal S1x128 .f32) (r : Fin 128) (l : Fin 128) :
    rp1_11 x0 x1 x2 (ix2 r l) = pool (RA x0 x1 r ⟨11, by omega⟩) x2 l := by
  simp only [rp1_11, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, shapeCast_self, truncf_apply, maximumf_apply, addf_apply,
    broadcast_apply, broadcastTo_1b_ab_apply, slice2_axis1_eq,
    matmul_plain_zero_apply dot_S128x192_S192x512_S128x512_1_0_0_1_n_n rfl]
  rfl

/-- Pooled row 12 of the first layer, as the reference body computes it (window 768). -/
def rp1_12 (x0 : Vec Ideal S128x1024 .bf16) (x1 : Vec Ideal S192x512 .bf16) (x2 : Vec Ideal S1x128 .f32) : FVec Ideal S128x128 .f32 :=
  k0_pay18 (k0_pay2 x0) x1 x2

theorem rp1_12_apply (x0 : Vec Ideal S128x1024 .bf16) (x1 : Vec Ideal S192x512 .bf16) (x2 : Vec Ideal S1x128 .f32) (r : Fin 128) (l : Fin 128) :
    rp1_12 x0 x1 x2 (ix2 r l) = pool (RA x0 x1 r ⟨12, by omega⟩) x2 l := by
  simp only [rp1_12, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, shapeCast_self, truncf_apply, maximumf_apply, addf_apply,
    broadcast_apply, broadcastTo_1b_ab_apply, slice2_axis1_eq,
    matmul_plain_zero_apply dot_S128x192_S192x512_S128x512_1_0_0_1_n_n rfl]
  rfl

/-- Pooled row 13 of the first layer, as the reference body computes it (window 832). -/
def rp1_13 (x0 : Vec Ideal S128x1024 .bf16) (x1 : Vec Ideal S192x512 .bf16) (x2 : Vec Ideal S1x128 .f32) : FVec Ideal S128x128 .f32 :=
  k0_pay19 (k0_pay2 x0) x1 x2

theorem rp1_13_apply (x0 : Vec Ideal S128x1024 .bf16) (x1 : Vec Ideal S192x512 .bf16) (x2 : Vec Ideal S1x128 .f32) (r : Fin 128) (l : Fin 128) :
    rp1_13 x0 x1 x2 (ix2 r l) = pool (RA x0 x1 r ⟨13, by omega⟩) x2 l := by
  simp only [rp1_13, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, shapeCast_self, truncf_apply, maximumf_apply, addf_apply,
    broadcast_apply, broadcastTo_1b_ab_apply, slice2_axis1_eq,
    matmul_plain_zero_apply dot_S128x192_S192x512_S128x512_1_0_0_1_n_n rfl]
  rfl

end Cert.ReferenceIdeal.Net

end
-- ==== Proof.LibConcatCols.lean ====
/-
  Matrices of 128 columns laid side by side, read at an index.

  A concatenation along the columns of N matrices [B, 128] reads, at (r, k), matrix k / 128 at (r, k % 128). Stated
  for five and for six matrices, generic in the number of rows B and in the element type; the matrices' rows are
  given through one family of rows, so that a caller names the result without a case split.
-/
import Idealize.ShloMosaic.Lib.ValueIdx
import Idealize.ShloMosaic.Lib.Pipeline.Value

noncomputable section

namespace Cert.LibConcatCols

open Idealize.ShloMosaic Idealize.ShloMosaic.ValueIdx

variable {α : Type}

/-- 6 matrices [B, 128] laid side by side into [B, 768]: the entry at column `k` is matrix `k / 128` at column `k % 128`.
    The matrices' rows `r` are given as one family `g` of 128-long rows, one hypothesis per matrix. -/
theorem concat6_rows {B : Nat} (a0 a1 a2 a3 a4 a5 : (⟨2, ![B, 128]⟩ : Shape).Idx → α)
    (h : Shape.Concatenates ([(⟨(⟨2, ![B, 128]⟩ : Shape), a0⟩ : (s : Shape) × (s.Idx → α)), (⟨(⟨2, ![B, 128]⟩ : Shape), a1⟩ : (s : Shape) × (s.Idx → α)), (⟨(⟨2, ![B, 128]⟩ : Shape), a2⟩ : (s : Shape) × (s.Idx → α)), (⟨(⟨2, ![B, 128]⟩ : Shape), a3⟩ : (s : Shape) × (s.Idx → α)), (⟨(⟨2, ![B, 128]⟩ : Shape), a4⟩ : (s : Shape) × (s.Idx → α)), (⟨(⟨2, ![B, 128]⟩ : Shape), a5⟩ : (s : Shape) × (s.Idx → α))].map (·.1)) ⟨2, ![B, 768]⟩ 1)
    (r : Fin B) (g : Fin 6 → Fin 128 → α)
    (h0 : ∀ l, a0 (ix2 r l) = g ⟨0, by omega⟩ l)
    (h1 : ∀ l, a1 (ix2 r l) = g ⟨1, by omega⟩ l)
    (h2 : ∀ l, a2 (ix2 r l) = g ⟨2, by omega⟩ l)
    (h3 : ∀ l, a3 (ix2 r l) = g ⟨3, by omega⟩ l)
    (h4 : ∀ l, a4 (ix2 r l) = g ⟨4, by omega⟩ l)
    (h5 : ∀ l, a5 (ix2 r l) = g ⟨5, by omega⟩ l)
    (k : Fin 768) :
    concatenate ⟨2, ![B, 768]⟩ 1 [(⟨(⟨2, ![B, 128]⟩ : Shape), a0⟩ : (s : Shape) × (s.Idx → α)), (⟨(⟨2, ![B, 128]⟩ : Shape), a1⟩ : (s : Shape) × (s.Idx → α)), (⟨(⟨2, ![B, 128]⟩ : Shape), a2⟩ : (s : Shape) × (s.Idx → α)), (⟨(⟨2, ![B, 128]⟩ : Shape), a3⟩ : (s : Shape) × (s.Idx → α)), (⟨(⟨2, ![B, 128]⟩ : Shape), a4⟩ : (s : Shape) × (s.Idx → α)), (⟨(⟨2, ![B, 128]⟩ : Shape), a5⟩ : (s : Shape) × (s.Idx → α))] h (ix2 r k)
      = g ⟨k.val / 128, by have := k.isLt; omega⟩ ⟨k.val % 128, Nat.mod_lt _ (by norm_num)⟩ := by
  have hk := k.isLt
  have hcases : k.val / 128 = 0 ∨ k.val / 128 = 1 ∨ k.val / 128 = 2 ∨ k.val / 128 = 3 ∨ k.val / 128 = 4 ∨ k.val / 128 = 5 := by omega
  have key : ∀ (n : Nat) (hn : n < 6) (x₁ : (⟨2, ![B, 128]⟩ : Shape).Idx → α)
      (hx : [(⟨(⟨2, ![B, 128]⟩ : Shape), a0⟩ : (s : Shape) × (s.Idx → α)), (⟨(⟨2, ![B, 128]⟩ : Shape), a1⟩ : (s : Shape) × (s.Idx → α)), (⟨(⟨2, ![B, 128]⟩ : Shape), a2⟩ : (s : Shape) × (s.Idx → α)), (⟨(⟨2, ![B, 128]⟩ : Shape), a3⟩ : (s : Shape) × (s.Idx → α)), (⟨(⟨2, ![B, 128]⟩ : Shape), a4⟩ : (s : Shape) × (s.Idx → α)), (⟨(⟨2, ![B, 128]⟩ : Shape), a5⟩ : (s : Shape) × (s.Idx → α))][n]'(by simpa using hn) = ⟨(⟨2, ![B, 128]⟩ : Shape), x₁⟩) (hq : k.val / 128 = n),
      concatenate ⟨2, ![B, 768]⟩ 1 [(⟨(⟨2, ![B, 128]⟩ : Shape), a0⟩ : (s : Shape) × (s.Idx → α)), (⟨(⟨2, ![B, 128]⟩ : Shape), a1⟩ : (s : Shape) × (s.Idx → α)), (⟨(⟨2, ![B, 128]⟩ : Shape), a2⟩ : (s : Shape) × (s.Idx → α)), (⟨(⟨2, ![B, 128]⟩ : Shape), a3⟩ : (s : Shape) × (s.Idx → α)), (⟨(⟨2, ![B, 128]⟩ : Shape), a4⟩ : (s : Shape) × (s.Idx → α)), (⟨(⟨2, ![B, 128]⟩ : Shape), a5⟩ : (s : Shape) × (s.Idx → α))] h (ix2 r k) = x₁ (ix2 r ⟨k.val % 128, Nat.mod_lt _ (by norm_num)⟩) := by
    intro n hn x₁ hx hq
    refine concatenate_apply_piece (1 : Fin 2) _ h (ix2 r k) n (by simpa using hn) (⟨2, ![B, 128]⟩ : Shape) x₁ hx rfl (128 * n) ?_ _ ?_ ?_
    · interval_cases n <;> rfl
    · intro b hb
      match b with
      | ⟨0, _⟩ => rfl
      | ⟨1, _⟩ => exact absurd rfl hb
    · show 128 * n + k.val % 128 = k.val
      omega
  have gk : ∀ (n : Fin 6), k.val / 128 = n.val → g ⟨k.val / 128, by omega⟩ = g n := fun n hn => congrArg g (Fin.ext hn)
  rcases hcases with hq | hq | hq | hq | hq | hq
  · rw [key 0 (by norm_num) a0 rfl hq, h0, gk ⟨0, by omega⟩ hq]
  · rw [key 1 (by norm_num) a1 rfl hq, h1, gk ⟨1, by omega⟩ hq]
  · rw [key 2 (by norm_num) a2 rfl hq, h2, gk ⟨2, by omega⟩ hq]
  · rw [key 3 (by norm_num) a3 rfl hq, h3, gk ⟨3, by omega⟩ hq]
  · rw [key 4 (by norm_num) a4 rfl hq, h4, gk ⟨4, by omega⟩ hq]
  · rw [key 5 (by norm_num) a5 rfl hq, h5, gk ⟨5, by omega⟩ hq]

/-- 5 matrices [B, 128] laid side by side into [B, 640]: the entry at column `k` is matrix `k / 128` at column `k % 128`.
    The matrices' rows `r` are given as one family `g` of 128-long rows, one hypothesis per matrix. -/
theorem concat5_rows {B : Nat} (a0 a1 a2 a3 a4 : (⟨2, ![B, 128]⟩ : Shape).Idx → α)
    (h : Shape.Concatenates ([(⟨(⟨2, ![B, 128]⟩ : Shape), a0⟩ : (s : Shape) × (s.Idx → α)), (⟨(⟨2, ![B, 128]⟩ : Shape), a1⟩ : (s : Shape) × (s.Idx → α)), (⟨(⟨2, ![B, 128]⟩ : Shape), a2⟩ : (s : Shape) × (s.Idx → α)), (⟨(⟨2, ![B, 128]⟩ : Shape), a3⟩ : (s : Shape) × (s.Idx → α)), (⟨(⟨2, ![B, 128]⟩ : Shape), a4⟩ : (s : Shape) × (s.Idx → α))].map (·.1)) ⟨2, ![B, 640]⟩ 1)
    (r : Fin B) (g : Fin 5 → Fin 128 → α)
    (h0 : ∀ l, a0 (ix2 r l) = g ⟨0, by omega⟩ l)
    (h1 : ∀ l, a1 (ix2 r l) = g ⟨1, by omega⟩ l)
    (h2 : ∀ l, a2 (ix2 r l) = g ⟨2, by omega⟩ l)
    (h3 : ∀ l, a3 (ix2 r l) = g ⟨3, by omega⟩ l)
    (h4 : ∀ l, a4 (ix2 r l) = g ⟨4, by omega⟩ l)
    (k : Fin 640) :
    concatenate ⟨2, ![B, 640]⟩ 1 [(⟨(⟨2, ![B, 128]⟩ : Shape), a0⟩ : (s : Shape) × (s.Idx → α)), (⟨(⟨2, ![B, 128]⟩ : Shape), a1⟩ : (s : Shape) × (s.Idx → α)), (⟨(⟨2, ![B, 128]⟩ : Shape), a2⟩ : (s : Shape) × (s.Idx → α)), (⟨(⟨2, ![B, 128]⟩ : Shape), a3⟩ : (s : Shape) × (s.Idx → α)), (⟨(⟨2, ![B, 128]⟩ : Shape), a4⟩ : (s : Shape) × (s.Idx → α))] h (ix2 r k)
      = g ⟨k.val / 128, by have := k.isLt; omega⟩ ⟨k.val % 128, Nat.mod_lt _ (by norm_num)⟩ := by
  have hk := k.isLt
  have hcases : k.val / 128 = 0 ∨ k.val / 128 = 1 ∨ k.val / 128 = 2 ∨ k.val / 128 = 3 ∨ k.val / 128 = 4 := by omega
  have key : ∀ (n : Nat) (hn : n < 5) (x₁ : (⟨2, ![B, 128]⟩ : Shape).Idx → α)
      (hx : [(⟨(⟨2, ![B, 128]⟩ : Shape), a0⟩ : (s : Shape) × (s.Idx → α)), (⟨(⟨2, ![B, 128]⟩ : Shape), a1⟩ : (s : Shape) × (s.Idx → α)), (⟨(⟨2, ![B, 128]⟩ : Shape), a2⟩ : (s : Shape) × (s.Idx → α)), (⟨(⟨2, ![B, 128]⟩ : Shape), a3⟩ : (s : Shape) × (s.Idx → α)), (⟨(⟨2, ![B, 128]⟩ : Shape), a4⟩ : (s : Shape) × (s.Idx → α))][n]'(by simpa using hn) = ⟨(⟨2, ![B, 128]⟩ : Shape), x₁⟩) (hq : k.val / 128 = n),
      concatenate ⟨2, ![B, 640]⟩ 1 [(⟨(⟨2, ![B, 128]⟩ : Shape), a0⟩ : (s : Shape) × (s.Idx → α)), (⟨(⟨2, ![B, 128]⟩ : Shape), a1⟩ : (s : Shape) × (s.Idx → α)), (⟨(⟨2, ![B, 128]⟩ : Shape), a2⟩ : (s : Shape) × (s.Idx → α)), (⟨(⟨2, ![B, 128]⟩ : Shape), a3⟩ : (s : Shape) × (s.Idx → α)), (⟨(⟨2, ![B, 128]⟩ : Shape), a4⟩ : (s : Shape) × (s.Idx → α))] h (ix2 r k) = x₁ (ix2 r ⟨k.val % 128, Nat.mod_lt _ (by norm_num)⟩) := by
    intro n hn x₁ hx hq
    refine concatenate_apply_piece (1 : Fin 2) _ h (ix2 r k) n (by simpa using hn) (⟨2, ![B, 128]⟩ : Shape) x₁ hx rfl (128 * n) ?_ _ ?_ ?_
    · interval_cases n <;> rfl
    · intro b hb
      match b with
      | ⟨0, _⟩ => rfl
      | ⟨1, _⟩ => exact absurd rfl hb
    · show 128 * n + k.val % 128 = k.val
      omega
  have gk : ∀ (n : Fin 5), k.val / 128 = n.val → g ⟨k.val / 128, by omega⟩ = g n := fun n hn => congrArg g (Fin.ext hn)
  rcases hcases with hq | hq | hq | hq | hq
  · rw [key 0 (by norm_num) a0 rfl hq, h0, gk ⟨0, by omega⟩ hq]
  · rw [key 1 (by norm_num) a1 rfl hq, h1, gk ⟨1, by omega⟩ hq]
  · rw [key 2 (by norm_num) a2 rfl hq, h2, gk ⟨2, by omega⟩ hq]
  · rw [key 3 (by norm_num) a3 rfl hq, h3, gk ⟨3, by omega⟩ hq]
  · rw [key 4 (by norm_num) a4 rfl hq, h4, gk ⟨4, by omega⟩ hq]

end Cert.LibConcatCols

end
-- ==== Proof.RLayer2.lean ====
/-
  The reference's second layer and dense layers, one image row at a time.

  Each of the five second-layer products reads six consecutive pooled rows of the first layer laid side by side
  (pooled rows 2 * yo2 .. 2 * yo2 + 5): at (r, k) that is position 256 * yo2 + k of the first layer's laid-out output
  for batch row `r`. The five pooled rows of the second layer, laid side by side, feed the three dense layers, and the
  block stored at (r, j) is the specification's output row for batch row `r` at lane `j`.
-/
import proofs.«166270_g2000206983916426_pallasbulk_172_2_alg».proof.Proof.RLayer1
import proofs.«166270_g2000206983916426_pallasbulk_172_2_alg».proof.Proof.SpecLaws
import proofs.«166270_g2000206983916426_pallasbulk_172_2_alg».proof.Proof.LibConcatCols
set_option maxRecDepth 16384

noncomputable section

open scoped BigOperators
open Idealize.ShloMosaic Idealize.ShloMosaic.TcCoe Idealize.SL.Sem Idealize.ShloMosaic.ValueIdx

namespace Cert.ReferenceIdeal.Net
open Cert.ReferenceIdeal Cert.ReferenceIdeal.Gen Cert.LeNet Cert.LibMatmulPlain Cert.ReferenceIdeal.Facts₀ Cert.LibConcatCols

/-- Pooled rows 0 .. 5 of the first layer side by side, at (r, k): position 0 + k of the laid-out output. -/
theorem rwin_0_apply (x0 : Vec Ideal S128x1024 .bf16) (x1 : Vec Ideal S192x512 .bf16) (x2 : Vec Ideal S1x128 .f32) (r : Fin 128) (k : Fin 768) :
    concatenate S128x768 1 [⟨S128x128, rp1_0 x0 x1 x2⟩, ⟨S128x128, rp1_1 x0 x1 x2⟩, ⟨S128x128, rp1_2 x0 x1 x2⟩, ⟨S128x128, rp1_3 x0 x1 x2⟩, ⟨S128x128, rp1_4 x0 x1 x2⟩, ⟨S128x128, rp1_5 x0 x1 x2⟩] Facts₀.concatenates_S128x128_S128x128_S128x128_S128x128_S128x128_S128x128_S128x768_d1 (ix2 r k)
      = P1 (RA x0 x1 r) x2 ⟨0 + k.val, by have := k.isLt; omega⟩ := by
  refine (concat6_rows (rp1_0 x0 x1 x2) (rp1_1 x0 x1 x2) (rp1_2 x0 x1 x2) (rp1_3 x0 x1 x2) (rp1_4 x0 x1 x2) (rp1_5 x0 x1 x2) Facts₀.concatenates_S128x128_S128x128_S128x128_S128x128_S128x128_S128x128_S128x768_d1 r
    (fun i l => pool (RA x0 x1 r ⟨0 + i.val, by have := i.isLt; omega⟩) x2 l)
    (rp1_0_apply x0 x1 x2 r) (rp1_1_apply x0 x1 x2 r) (rp1_2_apply x0 x1 x2 r) (rp1_3_apply x0 x1 x2 r) (rp1_4_apply x0 x1 x2 r) (rp1_5_apply x0 x1 x2 r) k).trans ?_
  exact (P1_at (RA x0 x1 r) x2 ⟨0 + k.val / 128, by have := k.isLt; omega⟩ ⟨k.val % 128, Nat.mod_lt _ (by norm_num)⟩
    ⟨0 + k.val, by have := k.isLt; omega⟩ (by show 0 + k.val = 128 * (0 + k.val / 128) + k.val % 128; omega)).symm

/-- Pooled rows 2 .. 7 of the first layer side by side, at (r, k): position 256 + k of the laid-out output. -/
theorem rwin_1_apply (x0 : Vec Ideal S128x1024 .bf16) (x1 : Vec Ideal S192x512 .bf16) (x2 : Vec Ideal S1x128 .f32) (r : Fin 128) (k : Fin 768) :
    concatenate S128x768 1 [⟨S128x128, rp1_2 x0 x1 x2⟩, ⟨S128x128, rp1_3 x0 x1 x2⟩, ⟨S128x128, rp1_4 x0 x1 x2⟩, ⟨S128x128, rp1_5 x0 x1 x2⟩, ⟨S128x128, rp1_6 x0 x1 x2⟩, ⟨S128x128, rp1_7 x0 x1 x2⟩] Facts₀.concatenates_S128x128_S128x128_S128x128_S128x128_S128x128_S128x128_S128x768_d1 (ix2 r k)
      = P1 (RA x0 x1 r) x2 ⟨256 + k.val, by have := k.isLt; omega⟩ := by
  refine (concat6_rows (rp1_2 x0 x1 x2) (rp1_3 x0 x1 x2) (rp1_4 x0 x1 x2) (rp1_5 x0 x1 x2) (rp1_6 x0 x1 x2) (rp1_7 x0 x1 x2) Facts₀.concatenates_S128x128_S128x128_S128x128_S128x128_S128x128_S128x128_S128x768_d1 r
    (fun i l => pool (RA x0 x1 r ⟨2 + i.val, by have := i.isLt; omega⟩) x2 l)
    (rp1_2_apply x0 x1 x2 r) (rp1_3_apply x0 x1 x2 r) (rp1_4_apply x0 x1 x2 r) (rp1_5_apply x0 x1 x2 r) (rp1_6_apply x0 x1 x2 r) (rp1_7_apply x0 x1 x2 r) k).trans ?_
  exact (P1_at (RA x0 x1 r) x2 ⟨2 + k.val / 128, by have := k.isLt; omega⟩ ⟨k.val % 128, Nat.mod_lt _ (by norm_num)⟩
    ⟨256 + k.val, by have := k.isLt; omega⟩ (by show 256 + k.val = 128 * (2 + k.val / 128) + k.val % 128; omega)).symm

/-- Pooled rows 4 .. 9 of the first layer side by side, at (r, k): position 512 + k of the laid-out output. -/
theorem rwin_2_apply (x0 : Vec Ideal S128x1024 .bf16) (x1 : Vec Ideal S192x512 .bf16) (x2 : Vec Ideal S1x128 .f32) (r : Fin 128) (k : Fin 768) :
    concatenate S128x768 1 [⟨S128x128, rp1_4 x0 x1 x2⟩, ⟨S128x128, rp1_5 x0 x1 x2⟩, ⟨S128x128, rp1_6 x0 x1 x2⟩, ⟨S128x128, rp1_7 x0 x1 x2⟩, ⟨S128x128, rp1_8 x0 x1 x2⟩, ⟨S128x128, rp1_9 x0 x1 x2⟩] Facts₀.concatenates_S128x128_S128x128_S128x128_S128x128_S128x128_S128x128_S128x768_d1 (ix2 r k)
      = P1 (RA x0 x1 r) x2 ⟨512 + k.val, by have := k.isLt; omega⟩ := by
  refine (concat6_rows (rp1_4 x0 x1 x2) (rp1_5 x0 x1 x2) (rp1_6 x0 x1 x2) (rp1_7 x0 x1 x2) (rp1_8 x0 x1 x2) (rp1_9 x0 x1 x2) Facts₀.concatenates_S128x128_S128x128_S128x128_S128x128_S128x128_S128x128_S128x768_d1 r
    (fun i l => pool (RA x0 x1 r ⟨4 + i.val, by have := i.isLt; omega⟩) x2 l)
    (rp1_4_apply x0 x1 x2 r) (rp1_5_apply x0 x1 x2 r) (rp1_6_apply x0 x1 x2 r) (rp1_7_apply x0 x1 x2 r) (rp1_8_apply x0 x1 x2 r) (rp1_9_apply x0 x1 x2 r) k).trans ?_
  exact (P1_at (RA x0 x1 r) x2 ⟨4 + k.val / 128, by have := k.isLt; omega⟩ ⟨k.val % 128, Nat.mod_lt _ (by norm_num)⟩
    ⟨512 + k.val, by have := k.isLt; omega⟩ (by show 512 + k.val = 128 * (4 + k.val / 128) + k.val % 128; omega)).symm

/-- Pooled rows 6 .. 11 of the first layer side by side, at (r, k): position 768 + k of the laid-out output. -/
theorem rwin_3_apply (x0 : Vec Ideal S128x1024 .bf16) (x1 : Vec Ideal S192x512 .bf16) (x2 : Vec Ideal S1x128 .f32) (r : Fin 128) (k : Fin 768) :
    concatenate S128x768 1 [⟨S128x128, rp1_6 x0 x1 x2⟩, ⟨S128x128, rp1_7 x0 x1 x2⟩, ⟨S128x128, rp1_8 x0 x1 x2⟩, ⟨S128x128, rp1_9 x0 x1 x2⟩, ⟨S128x128, rp1_10 x0 x1 x2⟩, ⟨S128x128, rp1_11 x0 x1 x2⟩] Facts₀.concatenates_S128x128_S128x128_S128x128_S128x128_S128x128_S128x128_S128x768_d1 (ix2 r k)
      = P1 (RA x0 x1 r) x2 ⟨768 + k.val, by have := k.isLt; omega⟩ := by
  refine (concat6_rows (rp1_6 x0 x1 x2) (rp1_7 x0 x1 x2) (rp1_8 x0 x1 x2) (rp1_9 x0 x1 x2) (rp1_10 x0 x1 x2) (rp1_11 x0 x1 x2) Facts₀.concatenates_S128x128_S128x128_S128x128_S128x128_S128x128_S128x128_S128x768_d1 r
    (fun i l => pool (RA x0 x1 r ⟨6 + i.val, by have := i.isLt; omega⟩) x2 l)
    (rp1_6_apply x0 x1 x2 r) (rp1_7_apply x0 x1 x2 r) (rp1_8_apply x0 x1 x2 r) (rp1_9_apply x0 x1 x2 r) (rp1_10_apply x0 x1 x2 r) (rp1_11_apply x0 x1 x2 r) k).trans ?_
  exact (P1_at (RA x0 x1 r) x2 ⟨6 + k.val / 128, by have := k.isLt; omega⟩ ⟨k.val % 128, Nat.mod_lt _ (by norm_num)⟩
    ⟨768 + k.val, by have := k.isLt; omega⟩ (by show 768 + k.val = 128 * (6 + k.val / 128) + k.val % 128; omega)).symm

/-- Pooled rows 8 .. 13 of the first layer side by side, at (r, k): position 1024 + k of the laid-out output. -/
theorem rwin_4_apply (x0 : Vec Ideal S128x1024 .bf16) (x1 : Vec Ideal S192x512 .bf16) (x2 : Vec Ideal S1x128 .f32) (r : Fin 128) (k : Fin 768) :
    concatenate S128x768 1 [⟨S128x128, rp1_8 x0 x1 x2⟩, ⟨S128x128, rp1_9 x0 x1 x2⟩, ⟨S128x128, rp1_10 x0 x1 x2⟩, ⟨S128x128, rp1_11 x0 x1 x2⟩, ⟨S128x128, rp1_12 x0 x1 x2⟩, ⟨S128x128, rp1_13 x0 x1 x2⟩] Facts₀.concatenates_S128x128_S128x128_S128x128_S128x128_S128x128_S128x128_S128x768_d1 (ix2 r k)
      = P1 (RA x0 x1 r) x2 ⟨1024 + k.val, by have := k.isLt; omega⟩ := by
  refine (concat6_rows (rp1_8 x0 x1 x2) (rp1_9 x0 x1 x2) (rp1_10 x0 x1 x2) (rp1_11 x0 x1 x2) (rp1_12 x0 x1 x2) (rp1_13 x0 x1 x2) Facts₀.concatenates_S128x128_S128x128_S128x128_S128x128_S128x128_S128x128_S128x768_d1 r
    (fun i l => pool (RA x0 x1 r ⟨8 + i.val, by have := i.isLt; omega⟩) x2 l)
    (rp1_8_apply x0 x1 x2 r) (rp1_9_apply x0 x1 x2 r) (rp1_10_apply x0 x1 x2 r) (rp1_11_apply x0 x1 x2 r) (rp1_12_apply x0 x1 x2 r) (rp1_13_apply x0 x1 x2 r) k).trans ?_
  exact (P1_at (RA x0 x1 r) x2 ⟨8 + k.val / 128, by have := k.isLt; omega⟩ ⟨k.val % 128, Nat.mod_lt _ (by norm_num)⟩
    ⟨1024 + k.val, by have := k.isLt; omega⟩ (by show 1024 + k.val = 128 * (8 + k.val / 128) + k.val % 128; omega)).symm

/-- Pooled row 0 of the second layer, as the reference body computes it. -/
def rp2_0 (x0 : Vec Ideal S128x1024 .bf16) (x1 : Vec Ideal S192x512 .bf16) (x2 : Vec Ideal S1x128 .f32) (x3 : Vec Ideal S768x512 .bf16) (x4 : Vec Ideal S1x128 .f32) : FVec Ideal S128x128 .f32 :=
  k0_pay21 (k0_pay20 x3 x4 (rp1_0 x0 x1 x2) (rp1_1 x0 x1 x2) (rp1_2 x0 x1 x2) (rp1_3 x0 x1 x2) (rp1_4 x0 x1 x2) (rp1_5 x0 x1 x2))

theorem rp2_0_apply (x0 : Vec Ideal S128x1024 .bf16) (x1 : Vec Ideal S192x512 .bf16) (x2 : Vec Ideal S1x128 .f32) (x3 : Vec Ideal S768x512 .bf16) (x4 : Vec Ideal S1x128 .f32) (r : Fin 128) (l : Fin 128) :
    rp2_0 x0 x1 x2 x3 x4 (ix2 r l) = pool (conv2 (RA x0 x1 r) x2 x3 ⟨0, by omega⟩) x4 l := by
  simp only [rp2_0, k0_pay20, k0_pay21, k0_pay22, k0_pay23, k0_pay24, k0_pay25, k0_pay26, k0_pay27, k0_pay28, shapeCast_self, truncf_apply, maximumf_apply, addf_apply,
    broadcast_apply, broadcastTo_1b_ab_apply, slice2_axis1_eq,
    matmul_plain_zero_apply dot_S128x768_S768x512_S128x512_1_0_0_1_n_n rfl, rwin_0_apply]
  rfl

/-- Pooled row 1 of the second layer, as the reference body computes it. -/
def rp2_1 (x0 : Vec Ideal S128x1024 .bf16) (x1 : Vec Ideal S192x512 .bf16) (x2 : Vec Ideal S1x128 .f32) (x3 : Vec Ideal S768x512 .bf16) (x4 : Vec Ideal S1x128 .f32) : FVec Ideal S128x128 .f32 :=
  k0_pay22 x3 x4 (rp1_2 x0 x1 x2) (rp1_3 x0 x1 x2) (rp1_4 x0 x1 x2) (rp1_5 x0 x1 x2) (rp1_6 x0 x1 x2) (rp1_7 x0 x1 x2)

theorem rp2_1_apply (x0 : Vec Ideal S128x1024 .bf16) (x1 : Vec Ideal S192x512 .bf16) (x2 : Vec Ideal S1x128 .f32) (x3 : Vec Ideal S768x512 .bf16) (x4 : Vec Ideal S1x128 .f32) (r : Fin 128) (l : Fin 128) :
    rp2_1 x0 x1 x2 x3 x4 (ix2 r l) = pool (conv2 (RA x0 x1 r) x2 x3 ⟨1, by omega⟩) x4 l := by
  simp only [rp2_1, k0_pay20, k0_pay21, k0_pay22, k0_pay23, k0_pay24, k0_pay25, k0_pay26, k0_pay27, k0_pay28, shapeCast_self, truncf_apply, maximumf_apply, addf_apply,
    broadcast_apply, broadcastTo_1b_ab_apply, slice2_axis1_eq,
    matmul_plain_zero_apply dot_S128x768_S768x512_S128x512_1_0_0_1_n_n rfl, rwin_1_apply]
  rfl

/-- Pooled row 2 of the second layer, as the reference body computes it. -/
def rp2_2 (x0 : Vec Ideal S128x1024 .bf16) (x1 : Vec Ideal S192x512 .bf16) (x2 : Vec Ideal S1x128 .f32) (x3 : Vec Ideal S768x512 .bf16) (x4 : Vec Ideal S1x128 .f32) : FVec Ideal S128x128 .f32 :=
  k0_pay23 x3 x4 (rp1_4 x0 x1 x2) (rp1_5 x0 x1 x2) (rp1_6 x0 x1 x2) (rp1_7 x0 x1 x2) (rp1_8 x0 x1 x2) (rp1_9 x0 x1 x2)

theorem rp2_2_apply (x0 : Vec Ideal S128x1024 .bf16) (x1 : Vec Ideal S192x512 .bf16) (x2 : Vec Ideal S1x128 .f32) (x3 : Vec Ideal S768x512 .bf16) (x4 : Vec Ideal S1x128 .f32) (r : Fin 128) (l : Fin 128) :
    rp2_2 x0 x1 x2 x3 x4 (ix2 r l) = pool (conv2 (RA x0 x1 r) x2 x3 ⟨2, by omega⟩) x4 l := by
  simp only [rp2_2, k0_pay20, k0_pay21, k0_pay22, k0_pay23, k0_pay24, k0_pay25, k0_pay26, k0_pay27, k0_pay28, shapeCast_self, truncf_apply, maximumf_apply, addf_apply,
    broadcast_apply, broadcastTo_1b_ab_apply, slice2_axis1_eq,
    matmul_plain_zero_apply dot_S128x768_S768x512_S128x512_1_0_0_1_n_n rfl, rwin_2_apply]
  rfl

/-- Pooled row 3 of the second layer, as the reference body computes it. -/
def rp2_3 (x0 : Vec Ideal S128x1024 .bf16) (x1 : Vec Ideal S192x512 .bf16) (x2 : Vec Ideal S1x128 .f32) (x3 : Vec Ideal S768x512 .bf16) (x4 : Vec Ideal S1x128 .f32) : FVec Ideal S128x128 .f32 :=
  k0_pay24 x3 x4 (rp1_6 x0 x1 x2) (rp1_7 x0 x1 x2) (rp1_8 x0 x1 x2) (rp1_9 x0 x1 x2) (rp1_10 x0 x1 x2) (rp1_11 x0 x1 x2)

theorem rp2_3_apply (x0 : Vec Ideal S128x1024 .bf16) (x1 : Vec Ideal S192x512 .bf16) (x2 : Vec Ideal S1x128 .f32) (x3 : Vec Ideal S768x512 .bf16) (x4 : Vec Ideal S1x128 .f32) (r : Fin 128) (l : Fin 128) :
    rp2_3 x0 x1 x2 x3 x4 (ix2 r l) = pool (conv2 (RA x0 x1 r) x2 x3 ⟨3, by omega⟩) x4 l := by
  simp only [rp2_3, k0_pay20, k0_pay21, k0_pay22, k0_pay23, k0_pay24, k0_pay25, k0_pay26, k0_pay27, k0_pay28, shapeCast_self, truncf_apply, maximumf_apply, addf_apply,
    broadcast_apply, broadcastTo_1b_ab_apply, slice2_axis1_eq,
    matmul_plain_zero_apply dot_S128x768_S768x512_S128x512_1_0_0_1_n_n rfl, rwin_3_apply]
  rfl

/-- Pooled row 4 of the second layer, as the reference body computes it. -/
def rp2_4 (x0 : Vec Ideal S128x1024 .bf16) (x1 : Vec Ideal S192x512 .bf16) (x2 : Vec Ideal S1x128 .f32) (x3 : Vec Ideal S768x512 .bf16) (x4 : Vec Ideal S1x128 .f32) : FVec Ideal S128x128 .f32 :=
  maximumf (addf (maximumf (k0_pay26 x3 (rp1_8 x0 x1 x2) (rp1_9 x0 x1 x2) (rp1_10 x0 x1 x2) (rp1_11 x0 x1 x2) (rp1_12 x0 x1 x2) (rp1_13 x0 x1 x2)) (maximumf (k0_pay27 x3 (rp1_8 x0 x1 x2) (rp1_9 x0 x1 x2) (rp1_10 x0 x1 x2) (rp1_11 x0 x1 x2) (rp1_12 x0 x1 x2) (rp1_13 x0 x1 x2)) (k0_pay28 x3 (rp1_8 x0 x1 x2) (rp1_9 x0 x1 x2) (rp1_10 x0 x1 x2) (rp1_11 x0 x1 x2) (rp1_12 x0 x1 x2) (rp1_13 x0 x1 x2))))
      (broadcastTo S128x128 x4 Facts₀.broadcasts_S1x128_S128x128)) (broadcast S128x128 (Scalar.ofBits .f32 0x00000000#32))

theorem rp2_4_apply (x0 : Vec Ideal S128x1024 .bf16) (x1 : Vec Ideal S192x512 .bf16) (x2 : Vec Ideal S1x128 .f32) (x3 : Vec Ideal S768x512 .bf16) (x4 : Vec Ideal S1x128 .f32) (r : Fin 128) (l : Fin 128) :
    rp2_4 x0 x1 x2 x3 x4 (ix2 r l) = pool (conv2 (RA x0 x1 r) x2 x3 ⟨4, by omega⟩) x4 l := by
  simp only [rp2_4, k0_pay20, k0_pay21, k0_pay22, k0_pay23, k0_pay24, k0_pay25, k0_pay26, k0_pay27, k0_pay28, shapeCast_self, truncf_apply, maximumf_apply, addf_apply,
    broadcast_apply, broadcastTo_1b_ab_apply, slice2_axis1_eq,
    matmul_plain_zero_apply dot_S128x768_S768x512_S128x512_1_0_0_1_n_n rfl, rwin_4_apply]
  rfl

/-- The five pooled rows of the second layer side by side, at (r, k): position `k` of the laid-out output. -/
theorem rwin5_apply (x0 : Vec Ideal S128x1024 .bf16) (x1 : Vec Ideal S192x512 .bf16) (x2 : Vec Ideal S1x128 .f32) (x3 : Vec Ideal S768x512 .bf16) (x4 : Vec Ideal S1x128 .f32) (r : Fin 128) (k : Fin 640) :
    concatenate S128x640 1 [⟨S128x128, rp2_0 x0 x1 x2 x3 x4⟩, ⟨S128x128, rp2_1 x0 x1 x2 x3 x4⟩, ⟨S128x128, rp2_2 x0 x1 x2 x3 x4⟩, ⟨S128x128, rp2_3 x0 x1 x2 x3 x4⟩, ⟨S128x128, rp2_4 x0 x1 x2 x3 x4⟩] Facts₀.concatenates_S128x128_S128x128_S128x128_S128x128_S128x128_S128x640_d1 (ix2 r k)
      = P2 (RA x0 x1 r) x2 x3 x4 k :=
  concat5_rows (rp2_0 x0 x1 x2 x3 x4) (rp2_1 x0 x1 x2 x3 x4) (rp2_2 x0 x1 x2 x3 x4) (rp2_3 x0 x1 x2 x3 x4) (rp2_4 x0 x1 x2 x3 x4) Facts₀.concatenates_S128x128_S128x128_S128x128_S128x128_S128x128_S128x640_d1 r
    (fun i l => pool (conv2 (RA x0 x1 r) x2 x3 i) x4 l)
    (rp2_0_apply x0 x1 x2 x3 x4 r) (rp2_1_apply x0 x1 x2 x3 x4 r) (rp2_2_apply x0 x1 x2 x3 x4 r) (rp2_3_apply x0 x1 x2 x3 x4 r) (rp2_4_apply x0 x1 x2 x3 x4 r) k

/-- The three dense layers on a [128, 640] block of second-layer outputs. -/
def rhead (h0 : FVec Ideal S128x640 .f32) (x5 : FVec Ideal S640x120 .bf16) (x6 : FVec Ideal S1x120 .f32) (x7 : FVec Ideal S120x84 .bf16) (x8 : FVec Ideal S1x84 .f32) (x9 : FVec Ideal S84x128 .bf16) (x10 : FVec Ideal S1x128 .f32) : FVec Ideal S128x128 .f32 :=
  have d1 : FVec Ideal S128x120 .f32 := maximumf (addf (matmul dot_S128x640_S640x120_S128x120_1_0_0_1_n_n none
    (truncf .bf16 h0 Facts₀.bitsLt_bf16_f32) x5 (constant S128x120 .f32 0x00000000#32))
    (broadcastTo S128x120 x6 Facts₀.broadcasts_S1x120_S128x120)) (broadcast S128x120 (Scalar.ofBits .f32 0x00000000#32))
  have d2 : FVec Ideal S128x84 .f32 := maximumf (addf (matmul dot_S128x120_S120x84_S128x84_1_0_0_1_n_n none
    (truncf .bf16 d1 Facts₀.bitsLt_bf16_f32) x7 (constant S128x84 .f32 0x00000000#32))
    (broadcastTo S128x84 x8 Facts₀.broadcasts_S1x84_S128x84)) (broadcast S128x84 (Scalar.ofBits .f32 0x00000000#32))
  addf (matmul dot_S128x84_S84x128_S128x128_1_0_0_1_n_n none (truncf .bf16 d2 Facts₀.bitsLt_bf16_f32) x9
    (constant S128x128 .f32 0x00000000#32)) (broadcastTo S128x128 x10 Facts₀.broadcasts_S1x128_S128x128)

/-- The block the reference body stores, as one term of the eleven input blocks. -/
def RB (x0 : Vec Ideal S128x1024 .bf16) (x1 : Vec Ideal S192x512 .bf16) (x2 : Vec Ideal S1x128 .f32) (x3 : Vec Ideal S768x512 .bf16) (x4 : Vec Ideal S1x128 .f32) (x5 : Vec Ideal S640x120 .bf16) (x6 : Vec Ideal S1x120 .f32) (x7 : Vec Ideal S120x84 .bf16) (x8 : Vec Ideal S1x84 .f32) (x9 : Vec Ideal S84x128 .bf16) (x10 : Vec Ideal S1x128 .f32) : FVec Ideal S128x128 .f32 :=
  rhead (concatenate S128x640 1 [⟨S128x128, rp2_0 x0 x1 x2 x3 x4⟩, ⟨S128x128, rp2_1 x0 x1 x2 x3 x4⟩, ⟨S128x128, rp2_2 x0 x1 x2 x3 x4⟩, ⟨S128x128, rp2_3 x0 x1 x2 x3 x4⟩, ⟨S128x128, rp2_4 x0 x1 x2 x3 x4⟩] Facts₀.concatenates_S128x128_S128x128_S128x128_S128x128_S128x128_S128x640_d1) x5 x6 x7 x8 x9 x10

/-- The stored block at batch row `r`, lane `j`: the specification's output row. -/
theorem RB_apply (x0 : Vec Ideal S128x1024 .bf16) (x1 : Vec Ideal S192x512 .bf16) (x2 : Vec Ideal S1x128 .f32) (x3 : Vec Ideal S768x512 .bf16) (x4 : Vec Ideal S1x128 .f32) (x5 : Vec Ideal S640x120 .bf16) (x6 : Vec Ideal S1x120 .f32) (x7 : Vec Ideal S120x84 .bf16) (x8 : Vec Ideal S1x84 .f32) (x9 : Vec Ideal S84x128 .bf16) (x10 : Vec Ideal S1x128 .f32) (r : Fin 128) (j : Fin 128) :
    RB x0 x1 x2 x3 x4 x5 x6 x7 x8 x9 x10 (ix2 r j) = Y (RA x0 x1 r) x2 x3 x4 x5 x6 x7 x8 x9 x10 j := by
  simp only [RB, rhead, truncf_apply, maximumf_apply, addf_apply, broadcast_apply, broadcastTo_1b_ab_apply,
    matmul_plain_zero_apply dot_S128x640_S640x120_S128x120_1_0_0_1_n_n rfl,
    matmul_plain_zero_apply dot_S128x120_S120x84_S128x84_1_0_0_1_n_n rfl,
    matmul_plain_zero_apply dot_S128x84_S84x128_S128x128_1_0_0_1_n_n rfl, rwin5_apply]
  rfl

end Cert.ReferenceIdeal.Net

end
-- ==== Proof.RRun.lean ====
/-
  The reference body's stored block, named.

  The reference body has one store, of the dense layers' result; its payload is the term `RB` of the eleven input blocks.
-/
import proofs.«166270_g2000206983916426_pallasbulk_172_2_alg».proof.Proof.RefFramePatched
import proofs.«166270_g2000206983916426_pallasbulk_172_2_alg».proof.Proof.RLayer2
set_option maxRecDepth 16384

noncomputable section

open scoped BigOperators
open Idealize.ShloMosaic Idealize.ShloMosaic.TcCoe Idealize.SL.Sem Idealize.ShloMosaic.ValueIdx

namespace Cert.ReferenceIdeal.Net
open Cert.ReferenceIdeal Cert.ReferenceIdeal.Gen Cert.ReferenceIdeal.GenP Cert.LeNet Cert.LibMatmulPlain Cert.ReferenceIdeal.Facts₀

theorem hz : (![0, 0] : Fin 2 → Nat) = fun _ => 0 := funext fun a => by fin_cases a <;> rfl

/-- What the body leaves in the output's staging buffer is `RB` of the input blocks. -/
theorem out_eq (x0 : Vec Ideal S128x1024 .bf16) (x1 : Vec Ideal S192x512 .bf16) (x2 : Vec Ideal S1x128 .f32) (x3 : Vec Ideal S768x512 .bf16) (x4 : Vec Ideal S1x128 .f32) (x5 : Vec Ideal S640x120 .bf16) (x6 : Vec Ideal S1x120 .f32) (x7 : Vec Ideal S120x84 .bf16) (x8 : Vec Ideal S1x84 .f32) (x9 : Vec Ideal S84x128 .bf16) (x10 : Vec Ideal S1x128 .f32) :
    out0_11 (F := Ideal) x0 x1 x2 x3 x4 x5 x6 x7 x8 x9 x10 = RB x0 x1 x2 x3 x4 x5 x6 x7 x8 x9 x10 := by
  unfold out0_11
  rw [View.canon_unit_zero (S := S128x128) hz]
  simp only [View.ld_unit_zero (S := S128x1024) hz, View.ld_unit_zero (S := S192x512) hz, View.ld_unit_zero (S := S1x128) hz, View.ld_unit_zero (S := S768x512) hz, View.ld_unit_zero (S := S640x120) hz, View.ld_unit_zero (S := S1x120) hz, View.ld_unit_zero (S := S120x84) hz, View.ld_unit_zero (S := S1x84) hz, View.ld_unit_zero (S := S84x128) hz]
  rfl

end Cert.ReferenceIdeal.Net

end
-- ==== Proof.RValue.lean ====
/-
  The reference's result array.

  At grid point `t` the picture window holds rows 128 * t .. 128 * t + 127 of the picture matrix, every other input
  window holds its whole array, and the output block goes to the same rows of the result. The stored block is, row by
  row, the one-row network of the picture rows; the sixty-four blocks tile the result, so after the run the result array
  is the network applied to every row of the picture matrix.
-/
import proofs.«166270_g2000206983916426_pallasbulk_172_2_alg».proof.Proof.RRun
import proofs.«166270_g2000206983916426_pallasbulk_172_2_alg».proof.Proof.Result
set_option maxRecDepth 16384

noncomputable section

open scoped BigOperators
open Idealize.ShloMosaic Idealize.ShloMosaic.TcCoe Idealize.SL.Sem Idealize.ShloMosaic.ValueIdx

namespace Cert.ReferenceIdeal.Net
open Cert.ReferenceIdeal Cert.ReferenceIdeal.Gen Cert.ReferenceIdeal.GenP Cert.LeNet Cert.ReferenceIdeal.Facts₀
open Idealize.ShloMosaic.Pipeline (Dat)

variable (m : (ℓ : Loc nD τ sig) → Buf (Elt Ideal) ℓ) (ρ : Dev nD → PrngReg)

/-- The printed index maps, decided over the grid: the picture window and the output window are at block row `t`, every
    other window at its one block. -/
theorem idx_facts : ∀ t : Fin cfg0.N, win0_0.index t (0 : Fin 2) = t.val
    ∧ win0_0.index t (1 : Fin 2) = 0
    ∧ win0_11.index t (0 : Fin 2) = t.val
    ∧ win0_11.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0 :=
  (by decide +kernel : ∀ t : Fin grid0.N, _)

theorem t_lt (t : Fin cfg0.N) : t.val < 64 := Nat.lt_of_lt_of_eq t.isLt N_0

/-- Window 1's block is its whole array. -/
theorem iblk_1_eq (c : Dev nD) (t : Fin cfg0.N) :
    (iblk m c 1 t : Vec Ideal S192x512 .bf16) = V m c main_arg1 := by
  obtain ⟨e0a, e0b, eoa, eob, e1a, e1b, e2a, e2b, e3a, e3b, e4a, e4b, e5a, e5b, e6a, e6b, e7a, e7b, e8a, e8b, e9a, e9b, e10a, e10b⟩ := idx_facts t
  funext y
  unfold iblk
  rw [View.read_apply]
  show V m c main_arg1 _ = V m c main_arg1 y
  congr 1
  funext a
  apply Fin.ext
  match a with
  | ⟨0, _⟩ => show win0_1.index t (0 : Fin 2) * 192 + 1 * (y 0).val = (y 0).val; rw [e1a]; omega
  | ⟨1, _⟩ => show win0_1.index t (1 : Fin 2) * 512 + 1 * (y 1).val = (y 1).val; rw [e1b]; omega

/-- Window 2's block is its whole array. -/
theorem iblk_2_eq (c : Dev nD) (t : Fin cfg0.N) :
    (iblk m c 2 t : Vec Ideal S1x128 .f32) = V m c main_arg2 := by
  obtain ⟨e0a, e0b, eoa, eob, e1a, e1b, e2a, e2b, e3a, e3b, e4a, e4b, e5a, e5b, e6a, e6b, e7a, e7b, e8a, e8b, e9a, e9b, e10a, e10b⟩ := idx_facts t
  funext y
  unfold iblk
  rw [View.read_apply]
  show V m c main_arg2 _ = V m c main_arg2 y
  congr 1
  funext a
  apply Fin.ext
  match a with
  | ⟨0, _⟩ => show win0_2.index t (0 : Fin 2) * 1 + 1 * (y 0).val = (y 0).val; rw [e2a]; omega
  | ⟨1, _⟩ => show win0_2.index t (1 : Fin 2) * 128 + 1 * (y 1).val = (y 1).val; rw [e2b]; omega

/-- Window 3's block is its whole array. -/
theorem iblk_3_eq (c : Dev nD) (t : Fin cfg0.N) :
    (iblk m c 3 t : Vec Ideal S768x512 .bf16) = V m c main_arg3 := by
  obtain ⟨e0a, e0b, eoa, eob, e1a, e1b, e2a, e2b, e3a, e3b, e4a, e4b, e5a, e5b, e6a, e6b, e7a, e7b, e8a, e8b, e9a, e9b, e10a, e10b⟩ := idx_facts t
  funext y
  unfold iblk
  rw [View.read_apply]
  show V m c main_arg3 _ = V m c main_arg3 y
  congr 1
  funext a
  apply Fin.ext
  match a with
  | ⟨0, _⟩ => show win0_3.index t (0 : Fin 2) * 768 + 1 * (y 0).val = (y 0).val; rw [e3a]; omega
  | ⟨1, _⟩ => show win0_3.index t (1 : Fin 2) * 512 + 1 * (y 1).val = (y 1).val; rw [e3b]; omega

/-- Window 4's block is its whole array. -/
theorem iblk_4_eq (c : Dev nD) (t : Fin cfg0.N) :
    (iblk m c 4 t : Vec Ideal S1x128 .f32) = V m c main_arg4 := by
  obtain ⟨e0a, e0b, eoa, eob, e1a, e1b, e2a, e2b, e3a, e3b, e4a, e4b, e5a, e5b, e6a, e6b, e7a, e7b, e8a, e8b, e9a, e9b, e10a, e10b⟩ := idx_facts t
  funext y
  unfold iblk
  rw [View.read_apply]
  show V m c main_arg4 _ = V m c main_arg4 y
  congr 1
  funext a
  apply Fin.ext
  match a with
  | ⟨0, _⟩ => show win0_4.index t (0 : Fin 2) * 1 + 1 * (y 0).val = (y 0).val; rw [e4a]; omega
  | ⟨1, _⟩ => show win0_4.index t (1 : Fin 2) * 128 + 1 * (y 1).val = (y 1).val; rw [e4b]; omega

/-- Window 5's block is its whole array. -/
theorem iblk_5_eq (c : Dev nD) (t : Fin cfg0.N) :
    (iblk m c 5 t : Vec Ideal S640x120 .bf16) = V m c main_arg5 := by
  obtain ⟨e0a, e0b, eoa, eob, e1a, e1b, e2a, e2b, e3a, e3b, e4a, e4b, e5a, e5b, e6a, e6b, e7a, e7b, e8a, e8b, e9a, e9b, e10a, e10b⟩ := idx_facts t
  funext y
  unfold iblk
  rw [View.read_apply]
  show V m c main_arg5 _ = V m c main_arg5 y
  congr 1
  funext a
  apply Fin.ext
  match a with
  | ⟨0, _⟩ => show win0_5.index t (0 : Fin 2) * 640 + 1 * (y 0).val = (y 0).val; rw [e5a]; omega
  | ⟨1, _⟩ => show win0_5.index t (1 : Fin 2) * 120 + 1 * (y 1).val = (y 1).val; rw [e5b]; omega

/-- Window 6's block is its whole array. -/
theorem iblk_6_eq (c : Dev nD) (t : Fin cfg0.N) :
    (iblk m c 6 t : Vec Ideal S1x120 .f32) = V m c main_arg6 := by
  obtain ⟨e0a, e0b, eoa, eob, e1a, e1b, e2a, e2b, e3a, e3b, e4a, e4b, e5a, e5b, e6a, e6b, e7a, e7b, e8a, e8b, e9a, e9b, e10a, e10b⟩ := idx_facts t
  funext y
  unfold iblk
  rw [View.read_apply]
  show V m c main_arg6 _ = V m c main_arg6 y
  congr 1
  funext a
  apply Fin.ext
  match a with
  | ⟨0, _⟩ => show win0_6.index t (0 : Fin 2) * 1 + 1 * (y 0).val = (y 0).val; rw [e6a]; omega
  | ⟨1, _⟩ => show win0_6.index t (1 : Fin 2) * 120 + 1 * (y 1).val = (y 1).val; rw [e6b]; omega

/-- Window 7's block is its whole array. -/
theorem iblk_7_eq (c : Dev nD) (t : Fin cfg0.N) :
    (iblk m c 7 t : Vec Ideal S120x84 .bf16) = V m c main_arg7 := by
  obtain ⟨e0a, e0b, eoa, eob, e1a, e1b, e2a, e2b, e3a, e3b, e4a, e4b, e5a, e5b, e6a, e6b, e7a, e7b, e8a, e8b, e9a, e9b, e10a, e10b⟩ := idx_facts t
  funext y
  unfold iblk
  rw [View.read_apply]
  show V m c main_arg7 _ = V m c main_arg7 y
  congr 1
  funext a
  apply Fin.ext
  match a with
  | ⟨0, _⟩ => show win0_7.index t (0 : Fin 2) * 120 + 1 * (y 0).val = (y 0).val; rw [e7a]; omega
  | ⟨1, _⟩ => show win0_7.index t (1 : Fin 2) * 84 + 1 * (y 1).val = (y 1).val; rw [e7b]; omega

/-- Window 8's block is its whole array. -/
theorem iblk_8_eq (c : Dev nD) (t : Fin cfg0.N) :
    (iblk m c 8 t : Vec Ideal S1x84 .f32) = V m c main_arg8 := by
  obtain ⟨e0a, e0b, eoa, eob, e1a, e1b, e2a, e2b, e3a, e3b, e4a, e4b, e5a, e5b, e6a, e6b, e7a, e7b, e8a, e8b, e9a, e9b, e10a, e10b⟩ := idx_facts t
  funext y
  unfold iblk
  rw [View.read_apply]
  show V m c main_arg8 _ = V m c main_arg8 y
  congr 1
  funext a
  apply Fin.ext
  match a with
  | ⟨0, _⟩ => show win0_8.index t (0 : Fin 2) * 1 + 1 * (y 0).val = (y 0).val; rw [e8a]; omega
  | ⟨1, _⟩ => show win0_8.index t (1 : Fin 2) * 84 + 1 * (y 1).val = (y 1).val; rw [e8b]; omega

/-- Window 9's block is its whole array. -/
theorem iblk_9_eq (c : Dev nD) (t : Fin cfg0.N) :
    (iblk m c 9 t : Vec Ideal S84x128 .bf16) = V m c main_arg9 := by
  obtain ⟨e0a, e0b, eoa, eob, e1a, e1b, e2a, e2b, e3a, e3b, e4a, e4b, e5a, e5b, e6a, e6b, e7a, e7b, e8a, e8b, e9a, e9b, e10a, e10b⟩ := idx_facts t
  funext y
  unfold iblk
  rw [View.read_apply]
  show V m c main_arg9 _ = V m c main_arg9 y
  congr 1
  funext a
  apply Fin.ext
  match a with
  | ⟨0, _⟩ => show win0_9.index t (0 : Fin 2) * 84 + 1 * (y 0).val = (y 0).val; rw [e9a]; omega
  | ⟨1, _⟩ => show win0_9.index t (1 : Fin 2) * 128 + 1 * (y 1).val = (y 1).val; rw [e9b]; omega

/-- Window 10's block is its whole array. -/
theorem iblk_10_eq (c : Dev nD) (t : Fin cfg0.N) :
    (iblk m c 10 t : Vec Ideal S1x128 .f32) = V m c main_arg10 := by
  obtain ⟨e0a, e0b, eoa, eob, e1a, e1b, e2a, e2b, e3a, e3b, e4a, e4b, e5a, e5b, e6a, e6b, e7a, e7b, e8a, e8b, e9a, e9b, e10a, e10b⟩ := idx_facts t
  funext y
  unfold iblk
  rw [View.read_apply]
  show V m c main_arg10 _ = V m c main_arg10 y
  congr 1
  funext a
  apply Fin.ext
  match a with
  | ⟨0, _⟩ => show win0_10.index t (0 : Fin 2) * 1 + 1 * (y 0).val = (y 0).val; rw [e10a]; omega
  | ⟨1, _⟩ => show win0_10.index t (1 : Fin 2) * 128 + 1 * (y 1).val = (y 1).val; rw [e10b]; omega

/-- The picture window's block at point `t` is rows 128 * t .. 128 * t + 127 of the picture matrix. -/
theorem iblk_0_apply (c : Dev nD) (t : Fin cfg0.N) (r : Fin 128) (n : Fin 1024) :
    (iblk m c 0 t : Vec Ideal S128x1024 .bf16) (ix2 r n)
      = (V m c main_v3 : S8192x1024.Idx → EReal) (ix2 ⟨128 * t.val + r.val, by have := t_lt t; have := r.isLt; omega⟩ n) := by
  obtain ⟨e0a, e0b, eoa, eob, e1a, e1b, e2a, e2b, e3a, e3b, e4a, e4b, e5a, e5b, e6a, e6b, e7a, e7b, e8a, e8b, e9a, e9b, e10a, e10b⟩ := idx_facts t
  unfold iblk
  rw [View.read_apply]
  show V m c main_v3 _ = V m c main_v3 _
  congr 1
  funext a
  apply Fin.ext
  match a with
  | ⟨0, _⟩ => show win0_0.index t (0 : Fin 2) * 128 + 1 * r.val = 128 * t.val + r.val; rw [e0a]; omega
  | ⟨1, _⟩ => show win0_0.index t (1 : Fin 2) * 1024 + 1 * n.val = n.val; rw [e0b]; omega

/-- The output window's block at point `t` sits at rows 128 * t .. 128 * t + 127 of the result. -/
theorem emb_11_apply (t : Fin cfg0.N) (r : Fin 128) (l : Fin 128) :
    ((cfg0.win 11).blk t).view.emb (ix2 r l)
      = (ix2 ⟨128 * t.val + r.val, by have := t_lt t; have := r.isLt; omega⟩ l : S8192x128.Idx) := by
  obtain ⟨e0a, e0b, eoa, eob, e1a, e1b, e2a, e2b, e3a, e3b, e4a, e4b, e5a, e5b, e6a, e6b, e7a, e7b, e8a, e8b, e9a, e9b, e10a, e10b⟩ := idx_facts t
  funext a
  apply Fin.ext
  match a with
  | ⟨0, _⟩ => show win0_11.index t (0 : Fin 2) * 128 + 1 * r.val = 128 * t.val + r.val; rw [eoa]; omega
  | ⟨1, _⟩ => show win0_11.index t (1 : Fin 2) * 128 + 1 * l.val = l.val; rw [eob]; omega

/-- The result array as the region's arrays determine it. -/
abbrev Res (c : Dev nD) : S8192x128.Idx → EReal :=
  Rows (fun x => conv1 x (V m c main_arg1)) (V m c main_v3) (V m c main_arg2) (V m c main_arg3) (V m c main_arg4) (V m c main_arg5) (V m c main_arg6) (V m c main_arg7) (V m c main_arg8) (V m c main_arg9) (V m c main_arg10)

/-- What point `t` writes back is block `t` of the result. -/
theorem flushed_eq (c : Dev nD) (t : Fin cfg0.N) :
    (dats m 0 c).flushed 11 t = ((cfg0.win 11).blk t).view.read (Elt Ideal) (Res m c) := by
  show (cfg0.win 11).cut (grid0.coords t) ((dats m 0 c).after 11 t) = _
  rw [after0_11]
  rw [out_eq]
  funext j
  obtain ⟨r, l, rfl⟩ : ∃ (r : Fin 128) (l : Fin 128), j = ix2 r l := ⟨j 0, j 1, eq_ix2 j⟩
  show RB (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r l) = Res m c (((cfg0.win 11).blk t).view.emb (ix2 r l))
  rw [RB_apply, emb_11_apply t r l, iblk_1_eq m c t, iblk_2_eq m c t, iblk_3_eq m c t, iblk_4_eq m c t, iblk_5_eq m c t, iblk_6_eq m c t, iblk_7_eq m c t, iblk_8_eq m c t, iblk_9_eq m c t, iblk_10_eq m c t]
  have hrow : (fun n => (iblk m c 0 t : Vec Ideal S128x1024 .bf16) (ix2 r n))
      = fun n => (V m c main_v3 : S8192x1024.Idx → EReal) (ix2 ⟨128 * t.val + r.val, by have := t_lt t; have := r.isLt; omega⟩ n) :=
    funext fun n => iblk_0_apply m c t r n
  show Y (conv1 (fun n => (iblk m c 0 t : Vec Ideal S128x1024 .bf16) (ix2 r n)) (V m c main_arg1)) _ _ _ _ _ _ _ _ _ l = _
  rw [hrow]
  rfl

/-- An index of the result is in point `t`'s block iff its row is in the block's range. -/
theorem mem_blk (t : Fin cfg0.N) (i : S8192x128.Idx) :
    i ∈ ((cfg0.win 11).blk t).view.set ↔ ∀ a : Fin 2, win0_11.index t a * S128x128.size a ≤ (i a).val ∧ (i a).val < win0_11.index t a * S128x128.size a + S128x128.size a := by
  show i ∈ ((View.whole main_v4).slice (win0_11.rect t)).set ↔ _
  rw [View.set_slice_whole, Rect.mem_set_unit]
  exact Iff.rfl

/-- Every row of the result is in some point's block: row `b` in point `b / 128`'s. -/
theorem covered (i : S8192x128.Idx) :
    ∃ t : Fin cfg0.N, (cfg0.win 11).flush t = true ∧ i ∈ ((cfg0.win 11).blk t).view.set := by
  have hi0 : (i 0).val < 8192 := (i 0).isLt
  have hi1 : (i 1).val < 128 := (i 1).isLt
  have hN : cfg0.N = 64 := N_0
  let t : Fin cfg0.N := ⟨(i 0).val / 128, by rw [hN]; omega⟩
  obtain ⟨e0a, e0b, eoa, eob, e1a, e1b, e2a, e2b, e3a, e3b, e4a, e4b, e5a, e5b, e6a, e6b, e7a, e7b, e8a, e8b, e9a, e9b, e10a, e10b⟩ := idx_facts t
  refine ⟨t, flush0_11 t, ?_⟩
  rw [mem_blk]
  intro a
  match a with
  | ⟨0, _⟩ => show win0_11.index t (0 : Fin 2) * 128 ≤ (i 0).val ∧ (i 0).val < win0_11.index t (0 : Fin 2) * 128 + 128
              rw [eoa]; show (i 0).val / 128 * 128 ≤ (i 0).val ∧ (i 0).val < (i 0).val / 128 * 128 + 128; omega
  | ⟨1, _⟩ => show win0_11.index t (1 : Fin 2) * 128 ≤ (i 1).val ∧ (i 1).val < win0_11.index t (1 : Fin 2) * 128 + 128
              rw [eob]; omega

/-- The result array after the run. -/
theorem final (c : Dev nD) : (dats m 0 c).arrAt 11 cfg0.N = Res m c :=
  (dats m 0 c).arrAt_eq_of_cover 11 (Res m c) (fun t _ => flushed_eq m c t) (covered)

end Cert.ReferenceIdeal.Net

end
-- ==== Proof.RHost.lean ====
/-
  The reference program around its region, and its run.

  Before the region the host pads each 28 x 28 picture with two zeros on every side and flattens it to a row of 1024
  (the picture matrix); after the region it keeps the first ten lanes of every result row.
-/
import proofs.«166270_g2000206983916426_pallasbulk_172_2_alg».proof.Proof.RValue
import Idealize.ShloMosaic.Lib.StableHlo.Run
set_option maxRecDepth 16384

noncomputable section

open scoped BigOperators
open Idealize.ShloMosaic Idealize.ShloMosaic.TcCoe Idealize.SL.Sem Idealize.ShloMosaic.ValueIdx

namespace Cert.ReferenceIdeal.Net
open Cert.ReferenceIdeal Cert.ReferenceIdeal.Gen Cert.ReferenceIdeal.GenP Cert.LeNet Cert.ReferenceIdeal.Facts₀ Idealize.ShloMosaic.Tactic
open Idealize.ShloMosaic.Pipeline (Dat)

/-- The picture matrix: every picture zero-padded to 32 x 32 and flattened. -/
def XF (X : FVec Ideal S8192x1x28x28 .f32) : FVec Ideal S8192x1024 .bf16 :=
  truncf .bf16 (shapeCast S8192x1024 (pad S8192x32x32 ![0, 2, 2] ![0, 2, 2] ![0, 0, 0]
    (shapeCast S8192x28x28 X Facts₀.shapeCasts_S8192x1x28x28_S8192x28x28) (sitofp (F := Ideal) .f32 (constantI S_ 32 0#32))
    Facts₀.pads_S8192x28x28_S8192x32x32_000_220_220 Facts₀.h_S_) Facts₀.shapeCasts_S8192x32x32_S8192x1024) Facts₀.bitsLt_bf16_f32

variable (m : (ℓ : Loc nD τ sig) → Buf (Elt Ideal) ℓ) (ρ : Dev nD → PrngReg)

/-- The region finds the picture matrix in its first window's array. -/
theorem v3_eq (c : Dev nD) : (V m c main_v3 : FVec Ideal S8192x1024 .bf16) = XF (m ((c : Thread nD τ).loc main_arg0)) := by
  dsimp only [GenP.V, GenP.V0]
  simp only [Gen.hostOps0, Gen.hostOps0_1, Gen.hostOps0_2, List.flatten_cons, List.flatten_nil, List.append_nil,
    List.cons_append, List.nil_append]
  after_results
  rfl

/-- The program's result: the first ten lanes of the network applied to every picture. -/
def OutR (c : Dev nD) : FVec Ideal S8192x10 .f32 :=
  extractStridedSlice S8192x10 ![0, 0]
    (Rows (fun x => conv1 x (m ((c : Thread nD τ).loc main_arg1))) (XF (m ((c : Thread nD τ).loc main_arg0))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))
    Facts₀.slices_S8192x128_S8192x10_0_0

/-- The result array in terms of the program's arguments. -/
theorem Res_eq (c : Dev nD) :
    Res m c = Rows (fun x => conv1 x (m ((c : Thread nD τ).loc main_arg1))) (XF (m ((c : Thread nD τ).loc main_arg0))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  unfold Res
  rw [v3_eq, V_main_arg1, V_main_arg2, V_main_arg3, V_main_arg4, V_main_arg5, V_main_arg6, V_main_arg7, V_main_arg8, V_main_arg9, V_main_arg10]

/-- What the host line after the region leaves in the program's result. -/
theorem tail_eq (c : Dev nD) :
    (Pipeline.afterTail₀ cfgs (dats m) 0 (V0 m) [hostOps1] c main_v5 : FVec Ideal S8192x10 .f32) = OutR m c := by
  unfold Pipeline.afterTail₀
  show StableHlo.after hostOps1 _ (Proc.devRef .tc main_v5) = _
  after_results
  unfold OutR
  rw [← Res_eq m c, ← final m c]
  exact congrArg (fun R => extractStridedSlice S8192x10 ![0, 0] R Facts₀.slices_S8192x128_S8192x10_0_0)
    (Pipeline.withArrays_arr spec0 launch0.win.arr_inj c _ _ 11)

/-- The run, read: the program's result at `OutR`, its arguments unchanged. -/
theorem run : θ_run defs (onTc (τ := τ) (main (F := Ideal))) ⟨m, fun _ => 0, ρ⟩ (fun r => ∀ c : Dev nD,
      r.2.mem ((c.tc : Thread nD τ).loc main_v5) = OutR m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_v5 (Pipeline.mem_restRefs_of main_v5 (by decide) (by decide))).trans (tail_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c)))⟩)
    (run_main m ρ)

end Cert.ReferenceIdeal.Net

end
-- ==== Proof.lean ====
/-
  The kernel and its reference compute the same ten class scores for every picture, over the extended reals.

  Both programs zero-pad each 28 x 28 picture to 32 x 32, flatten it to a row of 1024 numbers, and apply one network to
  every row: two banded-matrix convolutions, each followed by a four-way lane maximum, a bias and a cut at zero, then
  three dense layers; the first ten of the 128 output lanes are the result. They differ in how many rows they take
  per grid point (512 against 128), in where the intermediate rows are kept (scratch buffers against values laid side
  by side), and in the first convolution: the kernel multiplies a 256-long window by a paired band, two pooled rows at a
  time, where the reference multiplies a 192-long window by the band, one pooled row at a time. The paired band is the
  band with 64 rows of zeros below it, beside the band with 64 rows of zeros above it; a product with zero is zero on
  the extended reals whatever the other factor, so the extra 64 terms of each sum vanish and the two first
  convolutions agree term by term (`Cert.LeNet.conv1_pair`). Everything after the first convolution is the same
  function of the same numbers on both sides. No precondition is used: the law needs no finiteness.

  The frames of the kernel's two programs are the generated ones; the reference's is the generated one with the parts of
  the body's run left folded (the patched copy); the idealization rewrote nothing, so `preserves` is trivial.
-/
import proofs.«166270_g2000206983916426_pallasbulk_172_2_alg».proof.Defs
import proofs.«166270_g2000206983916426_pallasbulk_172_2_alg».proof.Proof.Gen.Kernel
import proofs.«166270_g2000206983916426_pallasbulk_172_2_alg».proof.Proof.Gen.Kernel.Frame
import proofs.«166270_g2000206983916426_pallasbulk_172_2_alg».proof.Proof.Gen.KernelIdeal
import proofs.«166270_g2000206983916426_pallasbulk_172_2_alg».proof.Proof.Gen.KernelIdeal.Frame
import proofs.«166270_g2000206983916426_pallasbulk_172_2_alg».proof.Proof.Gen.ReferenceIdeal
import proofs.«166270_g2000206983916426_pallasbulk_172_2_alg».proof.Proof.RefFramePatched
import proofs.«166270_g2000206983916426_pallasbulk_172_2_alg».proof.Proof.Gen.Pre_finite_inputs
import proofs.«166270_g2000206983916426_pallasbulk_172_2_alg».proof.Proof.KHost
import proofs.«166270_g2000206983916426_pallasbulk_172_2_alg».proof.Proof.RHost
import Idealize.ShloMosaic.Adequacy
import Idealize.ShloMosaic.Init

noncomputable section

namespace Cert.Proof

open Idealize.ShloMosaic Idealize.SL.Sem

/-- From memories that agree on the arguments, both idealized programs end with the network's first ten lanes for every
    picture, in the reference's form: the kernel's by the pairing law, the reference's as it stands. -/
theorem algebraic : Cert.algebraic_KernelIdeal_ReferenceIdeal := by
  intro m ρ m' ρ' _ hagree
  refine ⟨fun c => Cert.KernelIdeal.Net.OutK m c, Cert.KernelIdeal.Net.run m ρ, ?_⟩
  refine (θ_run Cert.ReferenceIdeal.defs _ _).mono (fun _ h c => ⟨(h c).1.trans ?_, (h c).2⟩)
    (Cert.ReferenceIdeal.Net.run m' ρ')
  obtain ⟨h0, h1, h2, h3, h4, h5, h6, h7, h8, h9, h10⟩ := hagree c
  unfold Cert.ReferenceIdeal.Net.OutR Cert.KernelIdeal.Net.OutK
  rw [h0, h1, h2, h3, h4, h5, h6, h7, h8, h9, h10]
  rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.GenP.frame m ρ,
  trivial,
  algebraic⟩

end Cert.Proof

end
